-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S8192x64 : Shape := ⟨2, ![8192, 64]⟩
abbrev S8192x128 : Shape := ⟨2, ![8192, 128]⟩
abbrev S512x128 : Shape := ⟨2, ![512, 128]⟩
abbrev S512 : Shape := ⟨1, ![512]⟩
abbrev S128x64 : Shape := ⟨2, ![128, 64]⟩
abbrev S128x3 : Shape := ⟨2, ![128, 3]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128x64 : S_.BroadcastsInDim S128x64 (![] : Fin 0 → Fin S128x64.rank)
  reducesTo_S128x64_S_d0_1 : S128x64.ReducesTo [0, 1] S_
  bcast_S_S128x3 : S_.BroadcastsInDim S128x3 (![] : Fin 0 → Fin S128x3.rank)
  reducesTo_S128x3_S_d0_1 : S128x3.ReducesTo [0, 1] S_
  bcast_S_S8192x2 : S_.BroadcastsInDim S8192x2 (![] : Fin 0 → Fin S8192x2.rank)
  reducesTo_S8192x2_S_d0_1 : S8192x2.ReducesTo [0, 1] S_

variable [Facts]

def fn_part2 {F : FTy → Type} [FloatOps F] (main_arg0 : IVec S8192x2 32) (main_arg8 : FVec F S128x3 .f32) (main_v33 : IVec S_ 1) : IVec S_ 1 :=
  let main_v34 : FVec F S128x3 .f32 := Host.absf main_arg8
  let main_cst_12 : FVec F S_ .f32 := constant S_ .f32 0x7F800000#32
  let main_v35 : FVec F S128x3 .f32 := broadcastInDim S128x3 ![] bcast_S_S128x3 main_cst_12
  let main_v36 : IVec S128x3 1 := cmpf .olt main_v34 main_v35
  let main_c_13 : IVec S_ 1 := constantI S_ 1 1#1
  let main_v37 : IVec S_ 1 := (fun x v => Host.reduce IntOp.andi x v reducesTo_S128x3_S_d0_1 h_S_) main_v36 main_c_13
  let main_v38 : IVec S_ 1 := andi main_v33 main_v37
  let main_c_14 : IVec S_ 32 := constantI S_ 32 0#32
  let main_v39 : IVec S8192x2 32 := broadcastInDim S8192x2 ![] bcast_S_S8192x2 main_c_14
  let main_v40 : IVec S8192x2 1 := cmpi .sge main_arg0 main_v39
  let main_c_15 : IVec S_ 32 := constantI S_ 32 256#32
  let main_v41 : IVec S8192x2 32 := broadcastInDim S8192x2 ![] bcast_S_S8192x2 main_c_15
  let main_v42 : IVec S8192x2 1 := cmpi .slt main_arg0 main_v41
  let main_v43 : IVec S8192x2 1 := andi main_v40 main_v42
  let main_c_16 : IVec S_ 1 := constantI S_ 1 1#1
  let main_v44 : IVec S_ 1 := (fun x v => Host.reduce IntOp.andi x v reducesTo_S8192x2_S_d0_1 h_S_) main_v43 main_c_16
  let main_v45 : IVec S_ 1 := andi main_v38 main_v44
  main_v45

def fn_part1 {F : FTy → Type} [FloatOps F] (main_arg0 : IVec S8192x2 32) (main_arg5 : FVec F S512x128 .f32) (main_arg6 : FVec F S512 .f32) (main_arg7 : FVec F S128x64 .f32) (main_arg8 : FVec F S128x3 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512x128 .f32 := Host.absf main_arg5
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg0 main_arg8 main_v33

def fn {F : FTy → Type} [FloatOps F] (main_arg0 : IVec S8192x2 32) (main_arg1 : FVec F S8192x64 .f32) (main_arg2 : FVec F S8192x128 .f32) (main_arg3 : FVec F S8192x128 .f32) (main_arg4 : FVec F S512x128 .f32) (main_arg5 : FVec F S512x128 .f32) (main_arg6 : FVec F S512 .f32) (main_arg7 : FVec F S128x64 .f32) (main_arg8 : FVec F S128x3 .f32) : IVec S_ 1 :=
  let main_v0 : FVec F S8192x64 .f32 := Host.absf main_arg1
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x128 .f32 := Host.absf main_arg2
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg3
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg0 main_arg5 main_arg6 main_arg7 main_arg8 main_v13 main_v16
-- ==== Kernel.lean ====
abbrev S8192x2 : Shape := ⟨2, ![8192, 2]⟩
abbrev S8192x64 : Shape := ⟨2, ![8192, 64]⟩
abbrev S8192x128 : Shape := ⟨2, ![8192, 128]⟩
abbrev S512x128 : Shape := ⟨2, ![512, 128]⟩
abbrev S512 : Shape := ⟨1, ![512]⟩
abbrev S128x64 : Shape := ⟨2, ![128, 64]⟩
abbrev S128x3 : Shape := ⟨2, ![128, 3]⟩
abbrev S2x8192 : Shape := ⟨2, ![2, 8192]⟩
abbrev S_ : Shape := ⟨0, ![]⟩
abbrev S8192x1 : Shape := ⟨2, ![8192, 1]⟩
abbrev S8192x63 : Shape := ⟨2, ![8192, 63]⟩
abbrev S512x64 : Shape := ⟨2, ![512, 64]⟩
abbrev S8192x3 : Shape := ⟨2, ![8192, 3]⟩
abbrev S512x2 : Shape := ⟨2, ![512, 2]⟩
abbrev S2x2048 : Shape := ⟨2, ![2, 2048]⟩
abbrev S2048x128 : Shape := ⟨2, ![2048, 128]⟩
abbrev S512x3 : Shape := ⟨2, ![512, 3]⟩
abbrev S512x1 : Shape := ⟨2, ![512, 1]⟩
abbrev S1x2048 : Shape := ⟨2, ![1, 2048]⟩
abbrev S512x2048 : Shape := ⟨2, ![512, 2048]⟩
abbrev S512x512 : Shape := ⟨2, ![512, 512]⟩
abbrev S1x512 : Shape := ⟨2, ![1, 512]⟩

abbrev nBuf : Space → Nat
  | .hbm => 19
  | .vmem => 23
  | .smem => 0
  | _ => 0

abbrev bufTy : (tb : Table) → Fin (tcTables nBuf tb) → BufTy
  | .hbm, ⟨0, _⟩ => ⟨S8192x2, .i32⟩
  | .hbm, ⟨1, _⟩ => ⟨S8192x64, .f32⟩
  | .hbm, ⟨2, _⟩ => ⟨S8192x128, .f32⟩
  | .hbm, ⟨3, _⟩ => ⟨S8192x128, .f32⟩
  | .hbm, ⟨4, _⟩ => ⟨S512x128, .f32⟩
  | .hbm, ⟨5, _⟩ => ⟨S512x128, .f32⟩
  | .hbm, ⟨6, _⟩ => ⟨S512, .f32⟩
  | .hbm, ⟨7, _⟩ => ⟨S128x64, .f32⟩
  | .hbm, ⟨8, _⟩ => ⟨S128x3, .f32⟩
  | .hbm, ⟨9, _⟩ => ⟨S2x8192, .i32⟩
  | .hbm, ⟨10, _⟩ => ⟨S_, .f32⟩
  | .hbm, ⟨11, _⟩ => ⟨S8192x1, .f32⟩
  | .hbm, ⟨12, _⟩ => ⟨S_, .f32⟩
  | .hbm, ⟨13, _⟩ => ⟨S8192x63, .f32⟩
  | .hbm, ⟨14, _⟩ => ⟨S8192x128, .f32⟩
  | .hbm, ⟨15, _⟩ => ⟨S512x64, .f32⟩
  | .hbm, ⟨16, _⟩ => ⟨S512x64, .f32⟩
  | .hbm, ⟨17, _⟩ => ⟨S8192x64, .f32⟩
  | .hbm, ⟨18, _⟩ => ⟨S8192x3, .f32⟩
  | .local _ .vmem, ⟨0, _⟩ => ⟨S512x2, .i32⟩
  | .local _ .vmem, ⟨1, _⟩ => ⟨S512x2, .i32⟩
  | .local _ .vmem, ⟨2, _⟩ => ⟨S2x2048, .i32⟩
  | .local _ .vmem, ⟨3, _⟩ => ⟨S2x2048, .i32⟩
  | .local _ .vmem, ⟨4, _⟩ => ⟨S512x64, .f32⟩
  | .local _ .vmem, ⟨5, _⟩ => ⟨S512x64, .f32⟩
  | .local _ .vmem, ⟨6, _⟩ => ⟨S2048x128, .f32⟩
  | .local _ .vmem, ⟨7, _⟩ => ⟨S2048x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x64, .f32⟩
  | .local _ .vmem, ⟨13, _⟩ => ⟨S512x64, .f32⟩
  | .local _ .vmem, ⟨14, _⟩ => ⟨S512x128, .f32⟩
  | .local _ .vmem, ⟨15, _⟩ => ⟨S512, .f32⟩
  | .local _ .vmem, ⟨16, _⟩ => ⟨S128x64, .f32⟩
  | .local _ .vmem, ⟨17, _⟩ => ⟨S128x3, .f32⟩
  | .local _ .vmem, ⟨18, _⟩ => ⟨S512x64, .f32⟩
  | .local _ .vmem, ⟨19, _⟩ => ⟨S512x64, .f32⟩
  | .local _ .vmem, ⟨20, _⟩ => ⟨S512x3, .f32⟩
  | .local _ .vmem, ⟨21, _⟩ => ⟨S512x3, .f32⟩
  | .local _ .vmem, ⟨22, _⟩ => ⟨S512x128, .f32⟩
  | _, _ => ⟨S8192x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_13 : BitVec 32 := 0#32
  let v45 : BitVec 1 := Scalar.cmpi .ne v44 c0_i32_13
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

class Facts₀ : Prop where
  transposes_S8192x2_S2x8192_1_0 : S8192x2.Transposes [1, 0] S2x8192
  bcast_S_S8192x1 : S_.BroadcastsInDim S8192x1 (![] : Fin 0 → Fin S8192x1.rank)
  bcast_S_S8192x63 : S_.BroadcastsInDim S8192x63 (![] : Fin 0 → Fin S8192x63.rank)
  concatenates_S8192x64_S8192x1_S8192x63_S8192x128_d1 : Shape.Concatenates [S8192x64, S8192x1, S8192x63] S8192x128 1
  slices_S512x128_S512x64_0_0 : S512x128.Slices ![0, 0] S512x64
  slices_S512x128_S512x64_0_64 : S512x128.Slices ![0, 64] S512x64
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x2_S512x2_0_0 : ∀ a, (![0, 0] : Fin 2 → Nat) a + S512x2.size a ≤ S512x2.size a
  h_S512x2 : 0 < S512x2.numel
  slices_S512x2_o0_0_S512x1 : S512x2.Slices ![0, 0] S512x1
  slices_S512x2_o0_1_S512x1 : S512x2.Slices ![0, 1] S512x1
  inb_S2x2048_S2x2048_0_0 : ∀ a, (![0, 0] : Fin 2 → Nat) a + S2x2048.size a ≤ S2x2048.size a
  h_S2x2048 : 0 < S2x2048.numel
  shapeCasts_S2x2048_S2x2048 : S2x2048.ShapeCasts S2x2048
  slices_S2x2048_o0_0_S1x2048 : S2x2048.Slices ![0, 0] S1x2048
  slices_S2x2048_o1_0_S1x2048 : S2x2048.Slices ![1, 0] S1x2048
  bitsLt_bf16_f32 : FTy.bits .bf16 < FTy.bits .f32
  broadcasts_S512x1_S512x2048 : S512x1.Broadcasts S512x2048
  broadcasts_S1x2048_S512x2048 : S1x2048.Broadcasts S512x2048
  natLt_1_32 : 1 < 32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S512x64_S512x64_0_0 : ∀ a, (![0, 0] : Fin 2 → Nat) a + S512x64.size a ≤ S512x64.size a
  h_S512x64 : 0 < S512x64.numel
  inb_S512x128_S512x1_0_64 : ∀ a, (![0, 64] : Fin 2 → Nat) a + S512x1.size a ≤ S512x128.size a
  h_S512x1 : 0 < S512x1.numel
  inb_S512x128_S512x64_0_0 : ∀ a, (![0, 0] : Fin 2 → Nat) a + S512x64.size a ≤ S512x128.size a
  broadcasts_S512x1_S512x64 : S512x1.Broadcasts S512x64
  shapeCasts_S512x64_S512x64 : S512x64.ShapeCasts S512x64
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  slices_S512x512_o0_0_S512x128 : S512x512.Slices ![0, 0] S512x128
  slices_S512x512_o0_128_S512x128 : S512x512.Slices ![0, 128] S512x128
  slices_S512x512_o0_256_S512x128 : S512x512.Slices ![0, 256] S512x128
  slices_S512x512_o0_384_S512x128 : S512x512.Slices ![0, 384] S512x128
  inb_S128x64_S128x64_0_0 : ∀ a, (![0, 0] : Fin 2 → Nat) a + S128x64.size a ≤ S128x64.size a
  h_S128x64 : 0 < S128x64.numel
  inb_S128x3_S128x3_0_0 : ∀ a, (![0, 0] : Fin 2 → Nat) a + S128x3.size a ≤ S128x3.size a
  h_S128x3 : 0 < S128x3.numel
  reduces_S512x3_S512 : S512x3.Reduces [1] S512
  shapeCasts_S512_S512x1 : S512.ShapeCasts S512x1
  broadcasts_S512x1_S512x3 : S512x1.Broadcasts S512x3
  inb_S512x3_S512x3_0_0 : ∀ a, (![0, 0] : Fin 2 → Nat) a + S512x3.size a ≤ S512x3.size a
  h_S512x3 : 0 < S512x3.numel
  dot_S512x2_S2x2048_S512x2048_1_0_0_1_n_n_wf : DotDims.WF S512x2 S2x2048 S512x2048 [1] [0] [0] [1] [] []
  dot_S512x2048_S2048x128_S512x128_1_0_0_1_n_n_wf : DotDims.WF S512x2048 S2048x128 S512x128 [1] [0] [0] [1] [] []
  dot_S512x64_S512x64_S512x512_1_1_0_0_n_n_wf : DotDims.WF S512x64 S512x64 S512x512 [1] [1] [0] [0] [] []
  dot_S512x128_S512x128_S512x512_1_1_0_0_n_n_wf : DotDims.WF S512x128 S512x128 S512x512 [1] [1] [0] [0] [] []
  dot_S512x128_S128x64_S512x64_1_0_0_1_n_n_wf : DotDims.WF S512x128 S128x64 S512x64 [1] [0] [0] [1] [] []
  dot_S512x128_S128x3_S512x3_1_0_0_1_n_n_wf : DotDims.WF S512x128 S128x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S8192x2.size a
  hwx0_0 : ∀ i : grid0.Coords, EltTy.bits .i32 = 32 ∨ (Rect.block (s := S8192x2) S512x2.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048.size a ≤ S2x8192.size a
  hwx0_1 : ∀ i : grid0.Coords, EltTy.bits .i32 = 32 ∨ (Rect.block (s := S2x8192) S2x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S8192x64.size a
  hwx0_2 : ∀ i : grid0.Coords, EltTy.bits .f32 = 32 ∨ (Rect.block (s := S8192x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S8192x128.size a
  hwx0_3 : ∀ i : grid0.Coords, EltTy.bits .f32 = 32 ∨ (Rect.block (s := S8192x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S8192x128.size a
  hwx0_4 : ∀ i : grid0.Coords, EltTy.bits .f32 = 32 ∨ (Rect.block (s := S8192x128) S512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S8192x128.size a
  hwx0_5 : ∀ i : grid0.Coords, EltTy.bits .f32 = 32 ∨ (Rect.block (s := S8192x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S512x64.size a
  hwx0_6 : ∀ i : grid0.Coords, EltTy.bits .f32 = 32 ∨ (Rect.block (s := S512x64) S512x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x64.size a ≤ S512x64.size a
  hwx0_7 : ∀ i : grid0.Coords, EltTy.bits .f32 = 32 ∨ (Rect.block (s := S512x64) S512x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S512x128.size a
  hwx0_8 : ∀ i : grid0.Coords, EltTy.bits .f32 = 32 ∨ (Rect.block (s := S512x128) S512x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .f32 = 32 ∨ (Rect.block (s := S128x64) S128x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x3.size a ≤ S128x3.size a
  hwx0_11 : ∀ i : grid0.Coords, EltTy.bits .f32 = 32 ∨ (Rect.block (s := S128x3) S128x3.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x64.size a ≤ S8192x64.size a
  hwx0_12 : ∀ i : grid0.Coords, EltTy.bits .f32 = 32 ∨ (Rect.block (s := S8192x64) S512x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x3.size a ≤ S8192x3.size a
  hwx0_13 : ∀ i : grid0.Coords, EltTy.bits .f32 = 32 ∨ (Rect.block (s := S8192x3) S512x3.size (cc0_transform_13 i) (hinb0_13 i)).WholeWords (EltTy.packing .f32)

variable [Facts₀]

def dot_S512x2_S2x2048_S512x2048_1_0_0_1_n_n : DotDims S512x2 S2x2048 S512x2048 where
  lhsContracting := [1]
  rhsContracting := [0]
  lhsNonContracting := [0]
  rhsNonContracting := [1]
  lhsBatch := []
  rhsBatch := []
  wf := dot_S512x2_S2x2048_S512x2048_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x128_S128x3_S512x3_1_0_0_1_n_n : DotDims S512x128 S128x3 S512x3 where
  lhsContracting := [1]
  rhsContracting := [0]
  lhsNonContracting := [0]
  rhsNonContracting := [1]
  lhsBatch := []
  rhsBatch := []
  wf := dot_S512x128_S128x3_S512x3_1_0_0_1_n_n_wf

abbrev win0_0 : Pipeline.Window sig grid0 :=
  Pipeline.Window.ofSpec (Memref.whole main_arg0) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S512x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S512x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S128x3.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6_0) S512x64.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v6_1) S512x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | 13 => fun i => !(k0_cond2 i == 1#1) | ⟨_ + 14, h⟩ => absurd h (Nat.not_lt.2 (Nat.le_add_left _ _))

class Facts : Prop extends Facts₀ where

variable [Facts]
-- ==== ReferenceIdeal.lean ====
abbrev S8192x2 : Shape := ⟨2, ![8192, 2]⟩
abbrev S8192x64 : Shape := ⟨2, ![8192, 64]⟩
abbrev S8192x128 : Shape := ⟨2, ![8192, 128]⟩
abbrev S512x128 : Shape := ⟨2, ![512, 128]⟩
abbrev S512 : Shape := ⟨1, ![512]⟩
abbrev S128x64 : Shape := ⟨2, ![128, 64]⟩
abbrev S128x3 : Shape := ⟨2, ![128, 3]⟩
abbrev S8192x1x2 : Shape := ⟨3, ![8192, 1, 2]⟩
abbrev S1x8192x2 : Shape := ⟨3, ![1, 8192, 2]⟩
abbrev S8192x8192x2 : Shape := ⟨3, ![8192, 8192, 2]⟩
abbrev S_ : Shape := ⟨0, ![]⟩
abbrev S8192x8192 : Shape := ⟨2, ![8192, 8192]⟩
abbrev S8192 : Shape := ⟨1, ![8192]⟩
abbrev S8192x1 : Shape := ⟨2, ![8192, 1]⟩
abbrev S128x512 : Shape := ⟨2, ![128, 512]⟩
abbrev S8192x512 : Shape := ⟨2, ![8192, 512]⟩
abbrev S1x512 : Shape := ⟨2, ![1, 512]⟩
abbrev S8192x3 : Shape := ⟨2, ![8192, 3]⟩

abbrev nBuf : Space → Nat
  | .hbm => 97
  | .vmem => 0
  | .smem => 0
  | _ => 0

abbrev bufTy : (tb : Table) → Fin (tcTables nBuf tb) → BufTy
  | .hbm, ⟨0, _⟩ => ⟨S8192x2, .i32⟩
  | .hbm, ⟨1, _⟩ => ⟨S8192x64, .f32⟩
  | .hbm, ⟨2, _⟩ => ⟨S8192x128, .f32⟩
  | .hbm, ⟨3, _⟩ => ⟨S8192x128, .f32⟩
  | .hbm, ⟨4, _⟩ => ⟨S512x128, .f32⟩
  | .hbm, ⟨5, _⟩ => ⟨S512x128, .f32⟩
  | .hbm, ⟨6, _⟩ => ⟨S512, .f32⟩
  | .hbm, ⟨7, _⟩ => ⟨S128x64, .f32⟩
  | .hbm, ⟨8, _⟩ => ⟨S128x3, .f32⟩
  | .hbm, ⟨9, _⟩ => ⟨S8192x1x2, .i32⟩
  | .hbm, ⟨10, _⟩ => ⟨S1x8192x2, .i32⟩
  | .hbm, ⟨11, _⟩ => ⟨S8192x8192x2, .i32⟩
  | .hbm, ⟨12, _⟩ => ⟨S8192x8192x2, .i32⟩
  | .hbm, ⟨13, _⟩ => ⟨S8192x8192x2, .i32⟩
  | .hbm, ⟨14, _⟩ => ⟨S8192x8192x2, .i32⟩
  | .hbm, ⟨15, _⟩ => ⟨S_, .i32⟩
  | .hbm, ⟨16, _⟩ => ⟨S8192x8192, .i32⟩
  | .hbm, ⟨17, _⟩ => ⟨S_, .i32⟩
  | .hbm, ⟨18, _⟩ => ⟨S8192x8192, .i32⟩
  | .hbm, ⟨19, _⟩ => ⟨S8192x8192, .i1⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .i1⟩
  | .hbm, ⟨27, _⟩ => ⟨S8192x8192, .i1⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x64, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x64, .f32⟩
  | .hbm, ⟨37, _⟩ => ⟨S8192x64, .f32⟩
  | .hbm, ⟨38, _⟩ => ⟨S8192x128, .f32⟩
  | .hbm, ⟨39, _⟩ => ⟨S128x512, .f32⟩
  | .hbm, ⟨40, _⟩ => ⟨S8192x512, .f32⟩
  | .hbm, ⟨41, _⟩ => ⟨S128x512, .f32⟩
  | .hbm, ⟨42, _⟩ => ⟨S8192x512, .f32⟩
  | .hbm, ⟨43, _⟩ => ⟨S8192x512, .f32⟩
  | .hbm, ⟨44, _⟩ => ⟨S1x512, .f32⟩
  | .hbm, ⟨45, _⟩ => ⟨S8192x512, .f32⟩
  | .hbm, ⟨46, _⟩ => ⟨S8192x512, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S_, .f32⟩
  | .hbm, ⟨54, _⟩ => ⟨S8192x128, .f32⟩
  | .hbm, ⟨55, _⟩ => ⟨S8192x128, .f32⟩
  | .hbm, ⟨56, _⟩ => ⟨S_, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S_, .f32⟩
  | .hbm, ⟨63, _⟩ => ⟨S8192x128, .f32⟩
  | .hbm, ⟨64, _⟩ => ⟨S8192x128, .f32⟩
  | .hbm, ⟨65, _⟩ => ⟨S_, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S8192x128, .f32⟩
  | .hbm, ⟨71, _⟩ => ⟨S8192x128, .f32⟩
  | .hbm, ⟨72, _⟩ => ⟨S8192x128, .f32⟩
  | .hbm, ⟨73, _⟩ => ⟨S_, .f32⟩
  | .hbm, ⟨74, _⟩ => ⟨S8192x128, .f32⟩
  | .hbm, ⟨75, _⟩ => ⟨S8192x128, .f32⟩
  | .hbm, ⟨76, _⟩ => ⟨S_, .f32⟩
  | .hbm, ⟨77, _⟩ => ⟨S8192x128, .f32⟩
  | .hbm, ⟨78, _⟩ => ⟨S8192x128, .f32⟩
  | .hbm, ⟨79, _⟩ => ⟨S8192x128, .f32⟩
  | .hbm, ⟨80, _⟩ => ⟨S8192x128, .f32⟩
  | .hbm, ⟨81, _⟩ => ⟨S8192x64, .f32⟩
  | .hbm, ⟨82, _⟩ => ⟨S8192x3, .f32⟩
  | .hbm, ⟨83, _⟩ => ⟨S_, .f32⟩
  | .hbm, ⟨84, _⟩ => ⟨S8192, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S8192x1, .f32⟩
  | .hbm, ⟨89, _⟩ => ⟨S8192x3, .f32⟩
  | .hbm, ⟨90, _⟩ => ⟨S8192x3, .f32⟩
  | .hbm, ⟨91, _⟩ => ⟨S8192x3, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x3, .f32⟩
  | .hbm, ⟨96, _⟩ => ⟨S8192x3, .f32⟩
  | _, _ => ⟨S8192x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_11 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]

class Facts₀ : Prop where
  bcast_S8192x2_S8192x1x2_0_2 : S8192x2.BroadcastsInDim S8192x1x2 (![0, 2] : Fin 2 → Fin S8192x1x2.rank)
  bcast_S8192x2_S1x8192x2_1_2 : S8192x2.BroadcastsInDim S1x8192x2 (![1, 2] : Fin 2 → Fin S1x8192x2.rank)
  bcast_S8192x1x2_S8192x8192x2_0_1_2 : S8192x1x2.BroadcastsInDim S8192x8192x2 (![0, 1, 2] : Fin 3 → Fin S8192x8192x2.rank)
  bcast_S1x8192x2_S8192x8192x2_0_1_2 : S1x8192x2.BroadcastsInDim S8192x8192x2 (![0, 1, 2] : Fin 3 → Fin S8192x8192x2.rank)
  reducesTo_S8192x8192x2_S8192x8192_d2 : S8192x8192x2.ReducesTo [2] S8192x8192
  h_S_ : 0 < S_.numel
  bcast_S_S8192x8192 : S_.BroadcastsInDim S8192x8192 (![] : Fin 0 → Fin S8192x8192.rank)
  reducesTo_S8192x8192_S8192_d1 : S8192x8192.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  concatenates_S8192x64_S8192x64_S8192x128_d1 : Shape.Concatenates [S8192x64, S8192x64] S8192x128 1
  transposes_S512x128_S128x512_1_0 : S512x128.Transposes [1, 0] S128x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  slices_S8192x512_S8192x128_0_0 : S8192x512.Slices ![0, 0] S8192x128
  slices_S8192x512_S8192x128_0_128 : S8192x512.Slices ![0, 128] S8192x128
  slices_S8192x512_S8192x128_0_256 : S8192x512.Slices ![0, 256] S8192x128
  slices_S8192x512_S8192x128_0_384 : S8192x512.Slices ![0, 384] S8192x128
  bcast_S_S8192x128 : S_.BroadcastsInDim S8192x128 (![] : Fin 0 → Fin S8192x128.rank)
  reducesTo_S8192x3_S8192_d1 : S8192x3.ReducesTo [1] S8192
  bcast_S_S8192 : S_.BroadcastsInDim S8192 (![] : Fin 0 → Fin S8192.rank)
  bcast_S8192x1_S8192x3_0_1 : S8192x1.BroadcastsInDim S8192x3 (![0, 1] : Fin 2 → Fin S8192x3.rank)
  dot_S8192x8192_S8192x64_S8192x64_1_0_0_1_n_n_wf : DotDims.WF S8192x8192 S8192x64 S8192x64 [1] [0] [0] [1] [] []
  dot_S8192x128_S128x512_S8192x512_1_0_0_1_n_n_wf : DotDims.WF S8192x128 S128x512 S8192x512 [1] [0] [0] [1] [] []
  dot_S8192x128_S128x64_S8192x64_1_0_0_1_n_n_wf : DotDims.WF S8192x128 S128x64 S8192x64 [1] [0] [0] [1] [] []
  dot_S8192x128_S128x3_S8192x3_1_0_0_1_n_n_wf : DotDims.WF S8192x128 S128x3 S8192x3 [1] [0] [0] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x128_S128x512_S8192x512_1_0_0_1_n_n : DotDims S8192x128 S128x512 S8192x512 where
  lhsContracting := [1]
  rhsContracting := [0]
  lhsNonContracting := [0]
  rhsNonContracting := [1]
  lhsBatch := []
  rhsBatch := []
  wf := dot_S8192x128_S128x512_S8192x512_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x128_S128x3_S8192x3_1_0_0_1_n_n : DotDims S8192x128 S128x3 S8192x3 where
  lhsContracting := [1]
  rhsContracting := [0]
  lhsNonContracting := [0]
  rhsNonContracting := [1]
  lhsBatch := []
  rhsBatch := []
  wf := dot_S8192x128_S128x3_S8192x3_1_0_0_1_n_n_wf

class Facts : Prop extends Facts₀ where

variable [Facts]
-- ==== Proof.KbRuns.lean ====
/-
  What the three runs of the kernel body share. The grid is 16 row tiles by 4 column tiles, walked row tile by row
  tile; a point's position t has column tile t mod 4. The body zeroes its accumulator at column tile 0, adds one
  column tile's neighbour sums at every point, and at column tile 3 finishes the row tile and stores both results.
  Here: the arrays as the region finds them (after the host operations that transpose the positions, pad the states
  and cut the input weights), each window's block at a point, the two branch conditions in closed form, where the
  two result windows are idle, and that every argument array is left as launched.
-/
import proofs.«127487_j71433896067267_2_alg».proof.Proof.Gen.Kernel.Launch
import proofs.«127487_j71433896067267_2_alg».proof.Proof.Gen.Kernel.Skeleton
import proofs.«127487_j71433896067267_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: after the eight host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is those host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is column tile 0": the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is column tile 3": the row tile is finished and both results are stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
/-- Away from column tile 3 result window 12 is idle and is not written back. -/
theorem idleAt0_12 : ∀ t : Fin cfg0.N, ¬cond0_1 (grid0.coords t) → cfg0.idle 12 (grid0.coords t) = true := by decide +kernel
theorem noFlush0_12 : ∀ t : Fin cfg0.N, ¬cond0_1 (grid0.coords t) → (cfg0.win 12).flush t = false := by decide +kernel
/-- At column tile 3 it is live. -/
theorem liveAt0_12_C : ∀ t : Fin cfg0.N, cond0_1 (grid0.coords t) → cfg0.idle 12 (grid0.coords t) = false := by decide +kernel
/-- Away from column tile 3 result window 13 is idle and is not written back. -/
theorem idleAt0_13 : ∀ t : Fin cfg0.N, ¬cond0_1 (grid0.coords t) → cfg0.idle 13 (grid0.coords t) = true := by decide +kernel
theorem noFlush0_13 : ∀ t : Fin cfg0.N, ¬cond0_1 (grid0.coords t) → (cfg0.win 13).flush t = false := by decide +kernel
/-- At column tile 3 it is live. -/
theorem liveAt0_13_C : ∀ t : Fin cfg0.N, cond0_1 (grid0.coords t) → cfg0.idle 13 (grid0.coords t) = false := by decide +kernel

/-! ## The staging memrefs at a point -/

abbrev VO0_12 : View sig .tc .vmem S512x64 .f32 := (Memref.whole cc0_stg12_0 : Memref sig .tc .vmem S512x64 .f32).view
abbrev VO0_13 : View sig .tc .vmem S512x3 .f32 := (Memref.whole cc0_stg13_0 : Memref sig .tc .vmem S512x3 .f32).view
abbrev ms0_0 (t : Fin cfg0.N) : Memref sig .tc .vmem S512x2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x3 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x3 .f32 := win0_13.stage (cfg0.slots t 13)
abbrev hs0_13 (t : Fin cfg0.N) : (ms0_13 t).IsWhole := hstage0_13 ((cfg0.slots t 13).cast nbuf0_13)
/-- The accumulator: a whole scoped buffer of the kernel's own. -/
abbrev scM0_0 : Memref sig .tc .vmem S512x128 .f32 := Memref.whole cc0_scratch0
abbrev VS0_0 : View sig .tc .vmem S512x128 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The frame claim's post from a frame run's -/

/-- Every argument array ends as launched: a staged one by the library's reading of an input window's array, the one
    no window stages (the input weights, cut by the host before the region) by the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 4).trans (((dats 0 c).arrAt_in 4 rfl _).trans ((hA c 4).trans (V_main_arg2 m c))),
      ((h c).1 5).trans (((dats 0 c).arrAt_in 5 rfl _).trans ((hA c 5).trans (V_main_arg3 m c))),
      ((h c).2 main_arg4 (Pipeline.mem_restRefs_of main_arg4 (by decide) (by decide))).trans (V_main_arg4 m c),
      ((h c).1 8).trans (((dats 0 c).arrAt_in 8 rfl _).trans ((hA c 8).trans (V_main_arg5 m c))),
      ((h c).1 9).trans (((dats 0 c).arrAt_in 9 rfl _).trans ((hA c 9).trans (V_main_arg6 m c))),
      ((h c).1 10).trans (((dats 0 c).arrAt_in 10 rfl _).trans ((hA c 10).trans (V_main_arg7 m c))),
      ((h c).1 11).trans (((dats 0 c).arrAt_in 11 rfl _).trans ((hA c 11).trans (V_main_arg8 m c)))⟩) h

end Cert.Kernel.Fr

end
-- ==== Proof.KbRunA.lean ====
/-
  The kernel body run at a point of column tile 0 (the accumulator is zeroed first; no result is stored): on whole staging buffers holding the
  windows' blocks, the body runs to its end, leaves every input buffer as it was, and leaves in the accumulator
  the pieces its stores wrote (the pieces are found by running the body symbolically).
-/
import proofs.«127487_j71433896067267_2_alg».proof.Proof.KbRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x2 .i32) (harg2 : arg2.IsWhole) (arg3 : Memref sig .tc .vmem S2x2048 .i32) (harg3 : arg3.IsWhole) (arg4 : Memref sig .tc .vmem S512x64 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x64 .f32) (harg8 : arg8.IsWhole) (arg9 : Memref sig .tc .vmem S512x64 .f32) (harg9 : arg9.IsWhole) (arg10 : Memref sig .tc .vmem S512x128 .f32) (harg10 : arg10.IsWhole) (arg11 : Memref sig .tc .vmem S512 .f32) (harg11 : arg11.IsWhole) (arg12 : Memref sig .tc .vmem S128x64 .f32) (harg12 : arg12.IsWhole) (arg13 : Memref sig .tc .vmem S128x3 .f32) (harg13 : arg13.IsWhole) (arg14 : Memref sig .tc .vmem S512x64 .f32) (harg14 : arg14.IsWhole) (arg15 : Memref sig .tc .vmem S512x3 .f32) (harg15 : arg15.IsWhole) (arg16 : Memref sig .tc .vmem S512x128 .f32) (harg16 : arg16.IsWhole) (hc0 : cond0_0 i) (hc1 : ¬cond0_1 i)
    (x0 : Vec F S512x2 .i32) (x1 : Vec F S2x2048 .i32) (x2 : Vec F S512x64 .f32) (x3 : Vec F S2048x128 .f32) (x4 : Vec F S512x128 .f32) (x5 : Vec F S512x128 .f32) (x6 : Vec F S512x64 .f32) (x7 : Vec F S512x64 .f32) (x8 : Vec F S512x128 .f32) (x9 : Vec F S512 .f32) (x10 : Vec F S128x64 .f32) (x11 : Vec F S128x3 .f32) :
    Σ' (L12 : List (View.Piece (Elt F) S512x64 .f32)), Σ' (L13 : List (View.Piece (Elt F) S512x3 .f32)), { LS0 : List (View.Piece (Elt F) S512x128 .f32) //
      ∀ (xi12 : Vec F S512x64 .f32) (xi13 : Vec F S512x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ (∃ f, arg16.view.loc (c : Thread nD τ) ↦[arg16.view.set]{fullShare} arg16.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], ?_, fun xi12 xi13 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    iexists _; iexact HS0

end Cert.Kernel.Fr

end
-- ==== Proof.KbRunB.lean ====
/-
  The kernel body run at a point of column tiles 1 and 2 (the accumulator is only added to; no result is stored): on whole staging buffers holding the
  windows' blocks, the body runs to its end, leaves every input buffer as it was, and leaves in the accumulator
  the pieces its stores wrote (the pieces are found by running the body symbolically).
-/
import proofs.«127487_j71433896067267_2_alg».proof.Proof.KbRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x2 .i32) (harg2 : arg2.IsWhole) (arg3 : Memref sig .tc .vmem S2x2048 .i32) (harg3 : arg3.IsWhole) (arg4 : Memref sig .tc .vmem S512x64 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x64 .f32) (harg8 : arg8.IsWhole) (arg9 : Memref sig .tc .vmem S512x64 .f32) (harg9 : arg9.IsWhole) (arg10 : Memref sig .tc .vmem S512x128 .f32) (harg10 : arg10.IsWhole) (arg11 : Memref sig .tc .vmem S512 .f32) (harg11 : arg11.IsWhole) (arg12 : Memref sig .tc .vmem S128x64 .f32) (harg12 : arg12.IsWhole) (arg13 : Memref sig .tc .vmem S128x3 .f32) (harg13 : arg13.IsWhole) (arg14 : Memref sig .tc .vmem S512x64 .f32) (harg14 : arg14.IsWhole) (arg15 : Memref sig .tc .vmem S512x3 .f32) (harg15 : arg15.IsWhole) (arg16 : Memref sig .tc .vmem S512x128 .f32) (harg16 : arg16.IsWhole) (hc0 : ¬cond0_0 i) (hc1 : ¬cond0_1 i)
    (x0 : Vec F S512x2 .i32) (x1 : Vec F S2x2048 .i32) (x2 : Vec F S512x64 .f32) (x3 : Vec F S2048x128 .f32) (x4 : Vec F S512x128 .f32) (x5 : Vec F S512x128 .f32) (x6 : Vec F S512x64 .f32) (x7 : Vec F S512x64 .f32) (x8 : Vec F S512x128 .f32) (x9 : Vec F S512 .f32) (x10 : Vec F S128x64 .f32) (x11 : Vec F S128x3 .f32) (xs0 : Vec F S512x128 .f32) :
    Σ' (L12 : List (View.Piece (Elt F) S512x64 .f32)), Σ' (L13 : List (View.Piece (Elt F) S512x3 .f32)), { LS0 : List (View.Piece (Elt F) S512x128 .f32) //
      ∀ (xi12 : Vec F S512x64 .f32) (xi13 : Vec F S512x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ owns (c : Thread nD τ) arg16 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ (∃ f, arg16.view.loc (c : Thread nD τ) ↦[arg16.view.set]{fullShare} arg16.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], ?_, fun xi12 xi13 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    iexists _; iexact HS0

end Cert.Kernel.Fr

end
-- ==== Proof.KbRunC.lean ====
/-
  The kernel body run at a point of column tile 3 (the accumulator is added to, then the row tile is finished and both results are stored): on whole staging buffers holding the
  windows' blocks, the body runs to its end, leaves every input buffer as it was, and leaves in the accumulator and in the two result buffers
  the pieces its stores wrote (the pieces are found by running the body symbolically).
-/
import proofs.«127487_j71433896067267_2_alg».proof.Proof.KbRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x2 .i32) (harg2 : arg2.IsWhole) (arg3 : Memref sig .tc .vmem S2x2048 .i32) (harg3 : arg3.IsWhole) (arg4 : Memref sig .tc .vmem S512x64 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x64 .f32) (harg8 : arg8.IsWhole) (arg9 : Memref sig .tc .vmem S512x64 .f32) (harg9 : arg9.IsWhole) (arg10 : Memref sig .tc .vmem S512x128 .f32) (harg10 : arg10.IsWhole) (arg11 : Memref sig .tc .vmem S512 .f32) (harg11 : arg11.IsWhole) (arg12 : Memref sig .tc .vmem S128x64 .f32) (harg12 : arg12.IsWhole) (arg13 : Memref sig .tc .vmem S128x3 .f32) (harg13 : arg13.IsWhole) (arg14 : Memref sig .tc .vmem S512x64 .f32) (harg14 : arg14.IsWhole) (arg15 : Memref sig .tc .vmem S512x3 .f32) (harg15 : arg15.IsWhole) (arg16 : Memref sig .tc .vmem S512x128 .f32) (harg16 : arg16.IsWhole) (hc0 : ¬cond0_0 i) (hc1 : cond0_1 i)
    (x0 : Vec F S512x2 .i32) (x1 : Vec F S2x2048 .i32) (x2 : Vec F S512x64 .f32) (x3 : Vec F S2048x128 .f32) (x4 : Vec F S512x128 .f32) (x5 : Vec F S512x128 .f32) (x6 : Vec F S512x64 .f32) (x7 : Vec F S512x64 .f32) (x8 : Vec F S512x128 .f32) (x9 : Vec F S512 .f32) (x10 : Vec F S128x64 .f32) (x11 : Vec F S128x3 .f32) (xs0 : Vec F S512x128 .f32) :
    Σ' (L12 : List (View.Piece (Elt F) S512x64 .f32)), Σ' (L13 : List (View.Piece (Elt F) S512x3 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    iexists _; iexact HS0

end Cert.Kernel.Fr

end
-- ==== Proof.KbFrame.lean ====
/-
  The run of the whole program from the three runs of its body. Point by point: what the accumulator and the two result
  buffers hold after the body (by recursion on the point: column tile 0 starts from nothing, the later column tiles from
  what the point before left in the accumulator), the invariant that carries the accumulator between points, the body's
  triple at a generic point (which of the three runs applies is read off t mod 4), and from these the run of @main: it
  terminates, nothing faults, every array of the region ends at what the write-backs make of it, and every argument
  array ends as launched.
-/
import proofs.«127487_j71433896067267_2_alg».proof.Proof.KbRunC
import Idealize.ShloMosaic.Lib.Pipeline.Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's run at a point, and what it leaves -/

/-- The run at a point of column tile 0. -/
abbrev runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
    ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- The run at a point of column tile 1 or 2, the accumulator holding xs. -/
abbrev runB (c : Dev nD) (t : Fin cfg0.N) (h0 : ¬t.val % 4 = 0) (h1 : ¬t.val % 4 = 3) (xs : Vec F S512x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
    (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs
/-- The run at a point of column tile 3, the accumulator holding xs. -/
abbrev runC (c : Dev nD) (t : Fin cfg0.N) (h0 : ¬t.val % 4 = 0) (h1 : t.val % 4 = 3) (xs : Vec F S512x128 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
    (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs

/-- What that run leaves: the first result buffer, the second, the accumulator (each its pieces read back). -/
def outA (c : Dev nD) (t : Fin cfg0.N) (h0 : t.val % 4 = 0) (h1 : ¬t.val % 4 = 3) : Vec F S512x64 .f32 × Vec F S512x3 .f32 × Vec F S512x128 .f32 :=
  (VO0_12.read (Elt F) (VO0_12.writes (Elt F) VO0_12.junk (runA m c t h0 h1).1),
   VO0_13.read (Elt F) (VO0_13.writes (Elt F) VO0_13.junk (runA m c t h0 h1).2.1),
   VS0_0.read (Elt F) (VS0_0.writes (Elt F) VS0_0.junk (runA m c t h0 h1).2.2.1))
/-- The accumulator's pieces cover it. -/
theorem scoverA (c : Dev nD) (t : Fin cfg0.N) (h0 : t.val % 4 = 0) (h1 : ¬t.val % 4 = 3) (y : S512x128.Idx) :
    ∃ pc ∈ (runA m c t h0 h1).2.2.1, y ∈ pc.1.set :=
  View.cover_of_tiledL (runA m c t h0 h1).2.2.1 S512x128.size (by sl_kernel_rfl) y

/-- What that run leaves: the first result buffer, the second, the accumulator (each its pieces read back). -/
def outB (c : Dev nD) (t : Fin cfg0.N) (h0 : ¬t.val % 4 = 0) (h1 : ¬t.val % 4 = 3) (xs : Vec F S512x128 .f32) : Vec F S512x64 .f32 × Vec F S512x3 .f32 × Vec F S512x128 .f32 :=
  (VO0_12.read (Elt F) (VO0_12.writes (Elt F) VO0_12.junk (runB m c t h0 h1 xs).1),
   VO0_13.read (Elt F) (VO0_13.writes (Elt F) VO0_13.junk (runB m c t h0 h1 xs).2.1),
   VS0_0.read (Elt F) (VS0_0.writes (Elt F) VS0_0.junk (runB m c t h0 h1 xs).2.2.1))
/-- The accumulator's pieces cover it. -/
theorem scoverB (c : Dev nD) (t : Fin cfg0.N) (h0 : ¬t.val % 4 = 0) (h1 : ¬t.val % 4 = 3) (xs : Vec F S512x128 .f32) (y : S512x128.Idx) :
    ∃ pc ∈ (runB m c t h0 h1 xs).2.2.1, y ∈ pc.1.set :=
  View.cover_of_tiledL (runB m c t h0 h1 xs).2.2.1 S512x128.size (by sl_kernel_rfl) y

/-- What that run leaves: the first result buffer, the second, the accumulator (each its pieces read back). -/
def outC (c : Dev nD) (t : Fin cfg0.N) (h0 : ¬t.val % 4 = 0) (h1 : t.val % 4 = 3) (xs : Vec F S512x128 .f32) : Vec F S512x64 .f32 × Vec F S512x3 .f32 × Vec F S512x128 .f32 :=
  (VO0_12.read (Elt F) (VO0_12.writes (Elt F) VO0_12.junk (runC m c t h0 h1 xs).1),
   VO0_13.read (Elt F) (VO0_13.writes (Elt F) VO0_13.junk (runC m c t h0 h1 xs).2.1),
   VS0_0.read (Elt F) (VS0_0.writes (Elt F) VS0_0.junk (runC m c t h0 h1 xs).2.2.1))
/-- The accumulator's pieces cover it. -/
theorem scoverC (c : Dev nD) (t : Fin cfg0.N) (h0 : ¬t.val % 4 = 0) (h1 : t.val % 4 = 3) (xs : Vec F S512x128 .f32) (y : S512x128.Idx) :
    ∃ pc ∈ (runC m c t h0 h1 xs).2.2.1, y ∈ pc.1.set :=
  View.cover_of_tiledL (runC m c t h0 h1 xs).2.2.1 S512x128.size (by sl_kernel_rfl) y

/-- At column tile 3 the first result's pieces cover its buffer, -/
theorem cover12 (c : Dev nD) (t : Fin cfg0.N) (h0 : ¬t.val % 4 = 0) (h1 : t.val % 4 = 3) (xs : Vec F S512x128 .f32) (y : S512x64.Idx) :
    ∃ pc ∈ (runC m c t h0 h1 xs).1, y ∈ pc.1.set :=
  View.cover_of_tiledL (runC m c t h0 h1 xs).1 S512x64.size (by sl_kernel_rfl) y
/-- and the second's cover its. -/
theorem cover13 (c : Dev nD) (t : Fin cfg0.N) (h0 : ¬t.val % 4 = 0) (h1 : t.val % 4 = 3) (xs : Vec F S512x128 .f32) (y : S512x3.Idx) :
    ∃ pc ∈ (runC m c t h0 h1 xs).2.1, y ∈ pc.1.set :=
  View.cover_of_tiledL (runC m c t h0 h1 xs).2.1 S512x3.size (by sl_kernel_rfl) y

/-! ## What the buffers hold after each point -/

/-- After the body at position n: the two result buffers and the accumulator. Column tile 0 starts afresh; the other
    column tiles continue from the accumulator the point before left. -/
def outsAt0 (c : Dev nD) : (n : ℕ) → n < cfg0.N → Vec F S512x64 .f32 × Vec F S512x3 .f32 × Vec F S512x128 .f32
  | 0, hn => outA m c ⟨0, hn⟩ (Nat.zero_mod _) (show ¬(0 % 4 = 3) from by decide)
  | n + 1, hn =>
    if h0 : (n + 1) % 4 = 0 then outA m c ⟨n + 1, hn⟩ h0 (show ¬((n + 1) % 4 = 3) from by omega)
    else if h1 : (n + 1) % 4 = 3 then outC m c ⟨n + 1, hn⟩ h0 h1 (outsAt0 c n (Nat.lt_of_succ_lt hn)).2.2
    else outB m c ⟨n + 1, hn⟩ h0 h1 (outsAt0 c n (Nat.lt_of_succ_lt hn)).2.2

theorem outsAt0_A (c : Dev nD) (t : Fin cfg0.N) (h0 : t.val % 4 = 0) (h1 : ¬t.val % 4 = 3) :
    outsAt0 m c t.val t.isLt = outA m c t h0 h1 := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 m c t.val t.isLt = outB m c t h0 h1 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = outC m c t h0 h1 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the accumulator holds anything; afterwards what the
    point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The proof data -/

/-- The arrays as the region finds them; after the body each input buffer at its block and the result buffers at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 8000000 in
/-- The body at any point: the inputs' buffers hold their blocks; t mod 4 says which run applies; the invariant hands the
    body the accumulator at what the point before left (at anything at the very first point) and takes it back at this
    point's contents; a result window idle at the point is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  by_cases h0 : t.val % 4 = 0
  · have h1 : ¬t.val % 4 = 3 := by omega
    rw [Dat.leavesExact_idle (dats m 0 c) 12 t (idleAt0_12 t (fun h => h1 ((hcond0_1 t).mp h))) (noFlush0_12 t (fun h => h1 ((hcond0_1 t).mp h)))]
    rw [Dat.leavesExact_idle (dats m 0 c) 13 t (idleAt0_13 t (fun h => h1 ((hcond0_1 t).mp h))) (noFlush0_13 t (fun h => h1 ((hcond0_1 t).mp h)))]
    rw [outsAt0_A m c t h0 h1]
    unfold outA; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runA m c t h0 h1).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      iintro ⟨H0, H1, H2, H3, H4, H5, H6, H7, H8, H9, H10, H11, H12, H13, ⟨%es0, HS0⟩⟩
      isplitl [HS0 Hg]
      · isplitl [HS0]
        · unfold owns; iexists _; isplitr
          swap; · iexact HS0
          ipureintro; exact View.read_writes_of_cover _ _ _ _ _ (scoverA m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      iexists _; iexact H13
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runA m c t h0 h1).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexists _; iexact HS0
      iintro ⟨H0, H1, H2, H3, H4, H5, H6, H7, H8, H9, H10, H11, H12, H13, ⟨%es0, HS0⟩⟩
      isplitl [HS0 Hg]
      · isplitl [HS0]
        · unfold owns; iexists _; isplitr
          swap; · iexact HS0
          ipureintro; exact View.read_writes_of_cover _ _ _ _ _ (scoverA m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      iexists _; iexact H13
  · have hz : t.val ≠ 0 := fun h => h0 (by rw [h])
    by_cases h1 : t.val % 4 = 3
    · rw [show (dats m 0 c).leavesExact 12 t = owns (c : Thread nD τ) (ms0_12 t) fullShare ((dats m 0 c).after 12 t) from by
        unfold Dat.leavesExact; rw [liveAt0_12_C t ((hcond0_1 t).mpr h1)], after0_12]
      rw [show (dats m 0 c).leavesExact 13 t = owns (c : Thread nD τ) (ms0_13 t) fullShare ((dats m 0 c).after 13 t) from by
        unfold Dat.leavesExact; rw [liveAt0_13_C t ((hcond0_1 t).mpr h1)], after0_13]
      rw [outsAt0_C m c t h0 h1]
      unfold outC; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runC m c t h0 h1 _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [HS0]; · iexact HS0
      iintro ⟨H0, H1, H2, H3, H4, H5, H6, H7, H8, H9, H10, H11, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scoverC m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover12 m c t h0 h1 _)
      unfold owns; iexists _; isplitr
      swap; · iexact H13
      ipureintro; exact View.read_writes_of_cover _ _ _ _ _ (cover13 m c t h0 h1 _)
    ·
      rw [Dat.leavesExact_idle (dats m 0 c) 12 t (idleAt0_12 t (fun h => h1 ((hcond0_1 t).mp h))) (noFlush0_12 t (fun h => h1 ((hcond0_1 t).mp h)))]
      rw [Dat.leavesExact_idle (dats m 0 c) 13 t (idleAt0_13 t (fun h => h1 ((hcond0_1 t).mp h))) (noFlush0_13 t (fun h => h1 ((hcond0_1 t).mp h)))]
      rw [outsAt0_B m c t h0 h1]
      unfold outB; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runB m c t h0 h1 _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      iintro ⟨H0, H1, H2, H3, H4, H5, H6, H7, H8, H9, H10, H11, H12, H13, ⟨%es0, HS0⟩⟩
      isplitl [HS0 Hg]
      · isplitl [HS0]
        · unfold owns; iexists _; isplitr
          swap; · iexact HS0
          ipureintro; exact View.read_writes_of_cover _ _ _ _ _ (scoverB m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      iexists _; iexact H13

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates without a fault, every array of the region ending at what the
    write-backs make of it and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to its end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Fr

end
-- ==== Proof.KiRuns.lean ====
/-
  What the three runs of the kernel body share. The grid is 16 row tiles by 4 column tiles, walked row tile by row
  tile; a point's position t has column tile t mod 4. The body zeroes its accumulator at column tile 0, adds one
  column tile's neighbour sums at every point, and at column tile 3 finishes the row tile and stores both results.
  Here: the arrays as the region finds them (after the host operations that transpose the positions, pad the states
  and cut the input weights), each window's block at a point, the two branch conditions in closed form, where the
  two result windows are idle, and that every argument array is left as launched.
-/
import proofs.«127487_j71433896067267_2_alg».proof.Proof.Gen.KernelIdeal.Launch
import proofs.«127487_j71433896067267_2_alg».proof.Proof.Gen.KernelIdeal.Skeleton
import proofs.«127487_j71433896067267_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: after the eight host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is those host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is column tile 0": the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is column tile 3": the row tile is finished and both results are stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
/-- Away from column tile 3 result window 12 is idle and is not written back. -/
theorem idleAt0_12 : ∀ t : Fin cfg0.N, ¬cond0_1 (grid0.coords t) → cfg0.idle 12 (grid0.coords t) = true := by decide +kernel
theorem noFlush0_12 : ∀ t : Fin cfg0.N, ¬cond0_1 (grid0.coords t) → (cfg0.win 12).flush t = false := by decide +kernel
/-- At column tile 3 it is live. -/
theorem liveAt0_12_C : ∀ t : Fin cfg0.N, cond0_1 (grid0.coords t) → cfg0.idle 12 (grid0.coords t) = false := by decide +kernel
/-- Away from column tile 3 result window 13 is idle and is not written back. -/
theorem idleAt0_13 : ∀ t : Fin cfg0.N, ¬cond0_1 (grid0.coords t) → cfg0.idle 13 (grid0.coords t) = true := by decide +kernel
theorem noFlush0_13 : ∀ t : Fin cfg0.N, ¬cond0_1 (grid0.coords t) → (cfg0.win 13).flush t = false := by decide +kernel
/-- At column tile 3 it is live. -/
theorem liveAt0_13_C : ∀ t : Fin cfg0.N, cond0_1 (grid0.coords t) → cfg0.idle 13 (grid0.coords t) = false := by decide +kernel

/-! ## The staging memrefs at a point -/

abbrev VO0_12 : View sig .tc .vmem S512x64 .f32 := (Memref.whole cc0_stg12_0 : Memref sig .tc .vmem S512x64 .f32).view
abbrev VO0_13 : View sig .tc .vmem S512x3 .f32 := (Memref.whole cc0_stg13_0 : Memref sig .tc .vmem S512x3 .f32).view
abbrev ms0_0 (t : Fin cfg0.N) : Memref sig .tc .vmem S512x2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x3 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x3 .f32 := win0_13.stage (cfg0.slots t 13)
abbrev hs0_13 (t : Fin cfg0.N) : (ms0_13 t).IsWhole := hstage0_13 ((cfg0.slots t 13).cast nbuf0_13)
/-- The accumulator: a whole scoped buffer of the kernel's own. -/
abbrev scM0_0 : Memref sig .tc .vmem S512x128 .f32 := Memref.whole cc0_scratch0
abbrev VS0_0 : View sig .tc .vmem S512x128 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The frame claim's post from a frame run's -/

/-- Every argument array ends as launched: a staged one by the library's reading of an input window's array, the one
    no window stages (the input weights, cut by the host before the region) by the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 4).trans (((dats 0 c).arrAt_in 4 rfl _).trans ((hA c 4).trans (V_main_arg2 m c))),
      ((h c).1 5).trans (((dats 0 c).arrAt_in 5 rfl _).trans ((hA c 5).trans (V_main_arg3 m c))),
      ((h c).2 main_arg4 (Pipeline.mem_restRefs_of main_arg4 (by decide) (by decide))).trans (V_main_arg4 m c),
      ((h c).1 8).trans (((dats 0 c).arrAt_in 8 rfl _).trans ((hA c 8).trans (V_main_arg5 m c))),
      ((h c).1 9).trans (((dats 0 c).arrAt_in 9 rfl _).trans ((hA c 9).trans (V_main_arg6 m c))),
      ((h c).1 10).trans (((dats 0 c).arrAt_in 10 rfl _).trans ((hA c 10).trans (V_main_arg7 m c))),
      ((h c).1 11).trans (((dats 0 c).arrAt_in 11 rfl _).trans ((hA c 11).trans (V_main_arg8 m c)))⟩) h

end Cert.KernelIdeal.Fr

end
-- ==== Proof.KiRunA.lean ====
/-
  The kernel body run at a point of column tile 0 (the accumulator is zeroed first; no result is stored): on whole staging buffers holding the
  windows' blocks, the body runs to its end, leaves every input buffer as it was, and leaves in the accumulator
  the pieces its stores wrote (the pieces are found by running the body symbolically).
-/
import proofs.«127487_j71433896067267_2_alg».proof.Proof.KiRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x2 .i32) (harg2 : arg2.IsWhole) (arg3 : Memref sig .tc .vmem S2x2048 .i32) (harg3 : arg3.IsWhole) (arg4 : Memref sig .tc .vmem S512x64 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x64 .f32) (harg8 : arg8.IsWhole) (arg9 : Memref sig .tc .vmem S512x64 .f32) (harg9 : arg9.IsWhole) (arg10 : Memref sig .tc .vmem S512x128 .f32) (harg10 : arg10.IsWhole) (arg11 : Memref sig .tc .vmem S512 .f32) (harg11 : arg11.IsWhole) (arg12 : Memref sig .tc .vmem S128x64 .f32) (harg12 : arg12.IsWhole) (arg13 : Memref sig .tc .vmem S128x3 .f32) (harg13 : arg13.IsWhole) (arg14 : Memref sig .tc .vmem S512x64 .f32) (harg14 : arg14.IsWhole) (arg15 : Memref sig .tc .vmem S512x3 .f32) (harg15 : arg15.IsWhole) (arg16 : Memref sig .tc .vmem S512x128 .f32) (harg16 : arg16.IsWhole) (hc0 : cond0_0 i) (hc1 : ¬cond0_1 i)
    (x0 : Vec F S512x2 .i32) (x1 : Vec F S2x2048 .i32) (x2 : Vec F S512x64 .f32) (x3 : Vec F S2048x128 .f32) (x4 : Vec F S512x128 .f32) (x5 : Vec F S512x128 .f32) (x6 : Vec F S512x64 .f32) (x7 : Vec F S512x64 .f32) (x8 : Vec F S512x128 .f32) (x9 : Vec F S512 .f32) (x10 : Vec F S128x64 .f32) (x11 : Vec F S128x3 .f32) :
    Σ' (L12 : List (View.Piece (Elt F) S512x64 .f32)), Σ' (L13 : List (View.Piece (Elt F) S512x3 .f32)), { LS0 : List (View.Piece (Elt F) S512x128 .f32) //
      ∀ (xi12 : Vec F S512x64 .f32) (xi13 : Vec F S512x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ (∃ f, arg16.view.loc (c : Thread nD τ) ↦[arg16.view.set]{fullShare} arg16.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], ?_, fun xi12 xi13 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    iexists _; iexact HS0

end Cert.KernelIdeal.Fr

end
-- ==== Proof.KiRunB.lean ====
/-
  The kernel body run at a point of column tiles 1 and 2 (the accumulator is only added to; no result is stored): on whole staging buffers holding the
  windows' blocks, the body runs to its end, leaves every input buffer as it was, and leaves in the accumulator
  the pieces its stores wrote (the pieces are found by running the body symbolically).
-/
import proofs.«127487_j71433896067267_2_alg».proof.Proof.KiRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x2 .i32) (harg2 : arg2.IsWhole) (arg3 : Memref sig .tc .vmem S2x2048 .i32) (harg3 : arg3.IsWhole) (arg4 : Memref sig .tc .vmem S512x64 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x64 .f32) (harg8 : arg8.IsWhole) (arg9 : Memref sig .tc .vmem S512x64 .f32) (harg9 : arg9.IsWhole) (arg10 : Memref sig .tc .vmem S512x128 .f32) (harg10 : arg10.IsWhole) (arg11 : Memref sig .tc .vmem S512 .f32) (harg11 : arg11.IsWhole) (arg12 : Memref sig .tc .vmem S128x64 .f32) (harg12 : arg12.IsWhole) (arg13 : Memref sig .tc .vmem S128x3 .f32) (harg13 : arg13.IsWhole) (arg14 : Memref sig .tc .vmem S512x64 .f32) (harg14 : arg14.IsWhole) (arg15 : Memref sig .tc .vmem S512x3 .f32) (harg15 : arg15.IsWhole) (arg16 : Memref sig .tc .vmem S512x128 .f32) (harg16 : arg16.IsWhole) (hc0 : ¬cond0_0 i) (hc1 : ¬cond0_1 i)
    (x0 : Vec F S512x2 .i32) (x1 : Vec F S2x2048 .i32) (x2 : Vec F S512x64 .f32) (x3 : Vec F S2048x128 .f32) (x4 : Vec F S512x128 .f32) (x5 : Vec F S512x128 .f32) (x6 : Vec F S512x64 .f32) (x7 : Vec F S512x64 .f32) (x8 : Vec F S512x128 .f32) (x9 : Vec F S512 .f32) (x10 : Vec F S128x64 .f32) (x11 : Vec F S128x3 .f32) (xs0 : Vec F S512x128 .f32) :
    Σ' (L12 : List (View.Piece (Elt F) S512x64 .f32)), Σ' (L13 : List (View.Piece (Elt F) S512x3 .f32)), { LS0 : List (View.Piece (Elt F) S512x128 .f32) //
      ∀ (xi12 : Vec F S512x64 .f32) (xi13 : Vec F S512x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ owns (c : Thread nD τ) arg16 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xi13 ∗ (∃ f, arg16.view.loc (c : Thread nD τ) ↦[arg16.view.set]{fullShare} arg16.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], ?_, fun xi12 xi13 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    iexists _; iexact HS0

end Cert.KernelIdeal.Fr

end
-- ==== Proof.KiRunC.lean ====
/-
  The kernel body run at a point of column tile 3 (the accumulator is added to, then the row tile is finished and both results are stored): on whole staging buffers holding the
  windows' blocks, the body runs to its end, leaves every input buffer as it was, and leaves in the accumulator and in the two result buffers
  the pieces its stores wrote (the pieces are found by running the body symbolically).
-/
import proofs.«127487_j71433896067267_2_alg».proof.Proof.KiRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x2 .i32) (harg2 : arg2.IsWhole) (arg3 : Memref sig .tc .vmem S2x2048 .i32) (harg3 : arg3.IsWhole) (arg4 : Memref sig .tc .vmem S512x64 .f32) (harg4 : arg4.IsWhole) (arg5 : Memref sig .tc .vmem S2048x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x64 .f32) (harg8 : arg8.IsWhole) (arg9 : Memref sig .tc .vmem S512x64 .f32) (harg9 : arg9.IsWhole) (arg10 : Memref sig .tc .vmem S512x128 .f32) (harg10 : arg10.IsWhole) (arg11 : Memref sig .tc .vmem S512 .f32) (harg11 : arg11.IsWhole) (arg12 : Memref sig .tc .vmem S128x64 .f32) (harg12 : arg12.IsWhole) (arg13 : Memref sig .tc .vmem S128x3 .f32) (harg13 : arg13.IsWhole) (arg14 : Memref sig .tc .vmem S512x64 .f32) (harg14 : arg14.IsWhole) (arg15 : Memref sig .tc .vmem S512x3 .f32) (harg15 : arg15.IsWhole) (arg16 : Memref sig .tc .vmem S512x128 .f32) (harg16 : arg16.IsWhole) (hc0 : ¬cond0_0 i) (hc1 : cond0_1 i)
    (x0 : Vec F S512x2 .i32) (x1 : Vec F S2x2048 .i32) (x2 : Vec F S512x64 .f32) (x3 : Vec F S2048x128 .f32) (x4 : Vec F S512x128 .f32) (x5 : Vec F S512x128 .f32) (x6 : Vec F S512x64 .f32) (x7 : Vec F S512x64 .f32) (x8 : Vec F S512x128 .f32) (x9 : Vec F S512 .f32) (x10 : Vec F S128x64 .f32) (x11 : Vec F S128x3 .f32) (xs0 : Vec F S512x128 .f32) :
    Σ' (L12 : List (View.Piece (Elt F) S512x64 .f32)), Σ' (L13 : List (View.Piece (Elt F) S512x3 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    iexists _; iexact HS0

end Cert.KernelIdeal.Fr

end
-- ==== Proof.KiFrame.lean ====
/-
  The run of the whole program from the three runs of its body. Point by point: what the accumulator and the two result
  buffers hold after the body (by recursion on the point: column tile 0 starts from nothing, the later column tiles from
  what the point before left in the accumulator), the invariant that carries the accumulator between points, the body's
  triple at a generic point (which of the three runs applies is read off t mod 4), and from these the run of @main: it
  terminates, nothing faults, every array of the region ends at what the write-backs make of it, and every argument
  array ends as launched.
-/
import proofs.«127487_j71433896067267_2_alg».proof.Proof.KiRunC
import Idealize.ShloMosaic.Lib.Pipeline.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's run at a point, and what it leaves -/

/-- The run at a point of column tile 0. -/
abbrev runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
    ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- The run at a point of column tile 1 or 2, the accumulator holding xs. -/
abbrev runB (c : Dev nD) (t : Fin cfg0.N) (h0 : ¬t.val % 4 = 0) (h1 : ¬t.val % 4 = 3) (xs : Vec F S512x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
    (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs
/-- The run at a point of column tile 3, the accumulator holding xs. -/
abbrev runC (c : Dev nD) (t : Fin cfg0.N) (h0 : ¬t.val % 4 = 0) (h1 : t.val % 4 = 3) (xs : Vec F S512x128 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
    (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs

/-- What that run leaves: the first result buffer, the second, the accumulator (each its pieces read back). -/
def outA (c : Dev nD) (t : Fin cfg0.N) (h0 : t.val % 4 = 0) (h1 : ¬t.val % 4 = 3) : Vec F S512x64 .f32 × Vec F S512x3 .f32 × Vec F S512x128 .f32 :=
  (VO0_12.read (Elt F) (VO0_12.writes (Elt F) VO0_12.junk (runA m c t h0 h1).1),
   VO0_13.read (Elt F) (VO0_13.writes (Elt F) VO0_13.junk (runA m c t h0 h1).2.1),
   VS0_0.read (Elt F) (VS0_0.writes (Elt F) VS0_0.junk (runA m c t h0 h1).2.2.1))
/-- The accumulator's pieces cover it. -/
theorem scoverA (c : Dev nD) (t : Fin cfg0.N) (h0 : t.val % 4 = 0) (h1 : ¬t.val % 4 = 3) (y : S512x128.Idx) :
    ∃ pc ∈ (runA m c t h0 h1).2.2.1, y ∈ pc.1.set :=
  View.cover_of_tiledL (runA m c t h0 h1).2.2.1 S512x128.size (by sl_kernel_rfl) y

/-- What that run leaves: the first result buffer, the second, the accumulator (each its pieces read back). -/
def outB (c : Dev nD) (t : Fin cfg0.N) (h0 : ¬t.val % 4 = 0) (h1 : ¬t.val % 4 = 3) (xs : Vec F S512x128 .f32) : Vec F S512x64 .f32 × Vec F S512x3 .f32 × Vec F S512x128 .f32 :=
  (VO0_12.read (Elt F) (VO0_12.writes (Elt F) VO0_12.junk (runB m c t h0 h1 xs).1),
   VO0_13.read (Elt F) (VO0_13.writes (Elt F) VO0_13.junk (runB m c t h0 h1 xs).2.1),
   VS0_0.read (Elt F) (VS0_0.writes (Elt F) VS0_0.junk (runB m c t h0 h1 xs).2.2.1))
/-- The accumulator's pieces cover it. -/
theorem scoverB (c : Dev nD) (t : Fin cfg0.N) (h0 : ¬t.val % 4 = 0) (h1 : ¬t.val % 4 = 3) (xs : Vec F S512x128 .f32) (y : S512x128.Idx) :
    ∃ pc ∈ (runB m c t h0 h1 xs).2.2.1, y ∈ pc.1.set :=
  View.cover_of_tiledL (runB m c t h0 h1 xs).2.2.1 S512x128.size (by sl_kernel_rfl) y

/-- What that run leaves: the first result buffer, the second, the accumulator (each its pieces read back). -/
def outC (c : Dev nD) (t : Fin cfg0.N) (h0 : ¬t.val % 4 = 0) (h1 : t.val % 4 = 3) (xs : Vec F S512x128 .f32) : Vec F S512x64 .f32 × Vec F S512x3 .f32 × Vec F S512x128 .f32 :=
  (VO0_12.read (Elt F) (VO0_12.writes (Elt F) VO0_12.junk (runC m c t h0 h1 xs).1),
   VO0_13.read (Elt F) (VO0_13.writes (Elt F) VO0_13.junk (runC m c t h0 h1 xs).2.1),
   VS0_0.read (Elt F) (VS0_0.writes (Elt F) VS0_0.junk (runC m c t h0 h1 xs).2.2.1))
/-- The accumulator's pieces cover it. -/
theorem scoverC (c : Dev nD) (t : Fin cfg0.N) (h0 : ¬t.val % 4 = 0) (h1 : t.val % 4 = 3) (xs : Vec F S512x128 .f32) (y : S512x128.Idx) :
    ∃ pc ∈ (runC m c t h0 h1 xs).2.2.1, y ∈ pc.1.set :=
  View.cover_of_tiledL (runC m c t h0 h1 xs).2.2.1 S512x128.size (by sl_kernel_rfl) y

/-- At column tile 3 the first result's pieces cover its buffer, -/
theorem cover12 (c : Dev nD) (t : Fin cfg0.N) (h0 : ¬t.val % 4 = 0) (h1 : t.val % 4 = 3) (xs : Vec F S512x128 .f32) (y : S512x64.Idx) :
    ∃ pc ∈ (runC m c t h0 h1 xs).1, y ∈ pc.1.set :=
  View.cover_of_tiledL (runC m c t h0 h1 xs).1 S512x64.size (by sl_kernel_rfl) y
/-- and the second's cover its. -/
theorem cover13 (c : Dev nD) (t : Fin cfg0.N) (h0 : ¬t.val % 4 = 0) (h1 : t.val % 4 = 3) (xs : Vec F S512x128 .f32) (y : S512x3.Idx) :
    ∃ pc ∈ (runC m c t h0 h1 xs).2.1, y ∈ pc.1.set :=
  View.cover_of_tiledL (runC m c t h0 h1 xs).2.1 S512x3.size (by sl_kernel_rfl) y

/-! ## What the buffers hold after each point -/

/-- After the body at position n: the two result buffers and the accumulator. Column tile 0 starts afresh; the other
    column tiles continue from the accumulator the point before left. -/
def outsAt0 (c : Dev nD) : (n : ℕ) → n < cfg0.N → Vec F S512x64 .f32 × Vec F S512x3 .f32 × Vec F S512x128 .f32
  | 0, hn => outA m c ⟨0, hn⟩ (Nat.zero_mod _) (show ¬(0 % 4 = 3) from by decide)
  | n + 1, hn =>
    if h0 : (n + 1) % 4 = 0 then outA m c ⟨n + 1, hn⟩ h0 (show ¬((n + 1) % 4 = 3) from by omega)
    else if h1 : (n + 1) % 4 = 3 then outC m c ⟨n + 1, hn⟩ h0 h1 (outsAt0 c n (Nat.lt_of_succ_lt hn)).2.2
    else outB m c ⟨n + 1, hn⟩ h0 h1 (outsAt0 c n (Nat.lt_of_succ_lt hn)).2.2

theorem outsAt0_A (c : Dev nD) (t : Fin cfg0.N) (h0 : t.val % 4 = 0) (h1 : ¬t.val % 4 = 3) :
    outsAt0 m c t.val t.isLt = outA m c t h0 h1 := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 m c t.val t.isLt = outB m c t h0 h1 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = outC m c t h0 h1 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the accumulator holds anything; afterwards what the
    point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The proof data -/

/-- The arrays as the region finds them; after the body each input buffer at its block and the result buffers at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 8000000 in
/-- The body at any point: the inputs' buffers hold their blocks; t mod 4 says which run applies; the invariant hands the
    body the accumulator at what the point before left (at anything at the very first point) and takes it back at this
    point's contents; a result window idle at the point is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  by_cases h0 : t.val % 4 = 0
  · have h1 : ¬t.val % 4 = 3 := by omega
    rw [Dat.leavesExact_idle (dats m 0 c) 12 t (idleAt0_12 t (fun h => h1 ((hcond0_1 t).mp h))) (noFlush0_12 t (fun h => h1 ((hcond0_1 t).mp h)))]
    rw [Dat.leavesExact_idle (dats m 0 c) 13 t (idleAt0_13 t (fun h => h1 ((hcond0_1 t).mp h))) (noFlush0_13 t (fun h => h1 ((hcond0_1 t).mp h)))]
    rw [outsAt0_A m c t h0 h1]
    unfold outA; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runA m c t h0 h1).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      iintro ⟨H0, H1, H2, H3, H4, H5, H6, H7, H8, H9, H10, H11, H12, H13, ⟨%es0, HS0⟩⟩
      isplitl [HS0 Hg]
      · isplitl [HS0]
        · unfold owns; iexists _; isplitr
          swap; · iexact HS0
          ipureintro; exact View.read_writes_of_cover _ _ _ _ _ (scoverA m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      iexists _; iexact H13
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runA m c t h0 h1).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexists _; iexact HS0
      iintro ⟨H0, H1, H2, H3, H4, H5, H6, H7, H8, H9, H10, H11, H12, H13, ⟨%es0, HS0⟩⟩
      isplitl [HS0 Hg]
      · isplitl [HS0]
        · unfold owns; iexists _; isplitr
          swap; · iexact HS0
          ipureintro; exact View.read_writes_of_cover _ _ _ _ _ (scoverA m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      iexists _; iexact H13
  · have hz : t.val ≠ 0 := fun h => h0 (by rw [h])
    by_cases h1 : t.val % 4 = 3
    · rw [show (dats m 0 c).leavesExact 12 t = owns (c : Thread nD τ) (ms0_12 t) fullShare ((dats m 0 c).after 12 t) from by
        unfold Dat.leavesExact; rw [liveAt0_12_C t ((hcond0_1 t).mpr h1)], after0_12]
      rw [show (dats m 0 c).leavesExact 13 t = owns (c : Thread nD τ) (ms0_13 t) fullShare ((dats m 0 c).after 13 t) from by
        unfold Dat.leavesExact; rw [liveAt0_13_C t ((hcond0_1 t).mpr h1)], after0_13]
      rw [outsAt0_C m c t h0 h1]
      unfold outC; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runC m c t h0 h1 _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [HS0]; · iexact HS0
      iintro ⟨H0, H1, H2, H3, H4, H5, H6, H7, H8, H9, H10, H11, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scoverC m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover12 m c t h0 h1 _)
      unfold owns; iexists _; isplitr
      swap; · iexact H13
      ipureintro; exact View.read_writes_of_cover _ _ _ _ _ (cover13 m c t h0 h1 _)
    ·
      rw [Dat.leavesExact_idle (dats m 0 c) 12 t (idleAt0_12 t (fun h => h1 ((hcond0_1 t).mp h))) (noFlush0_12 t (fun h => h1 ((hcond0_1 t).mp h)))]
      rw [Dat.leavesExact_idle (dats m 0 c) 13 t (idleAt0_13 t (fun h => h1 ((hcond0_1 t).mp h))) (noFlush0_13 t (fun h => h1 ((hcond0_1 t).mp h)))]
      rw [outsAt0_B m c t h0 h1]
      unfold outB; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runB m c t h0 h1 _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      iintro ⟨H0, H1, H2, H3, H4, H5, H6, H7, H8, H9, H10, H11, H12, H13, ⟨%es0, HS0⟩⟩
      isplitl [HS0 Hg]
      · isplitl [HS0]
        · unfold owns; iexists _; isplitr
          swap; · iexact HS0
          ipureintro; exact View.read_writes_of_cover _ _ _ _ _ (scoverB m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      iexists _; iexact H13

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates without a fault, every array of the region ending at what the
    write-backs make of it and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to its end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Fr

end
-- ==== Proof.KiAccDef.lean ====
/-
  The accumulator after one point's addition: the column tile's neighbour sums (a [512,2048] table of 0/1 weights
  against the tile's padded states) added to what the accumulator held.
-/
import proofs.«127487_j71433896067267_2_alg».proof.Proof.KiRuns

noncomputable section

namespace Cert.KernelIdeal.Fr

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- What the accumulator holds after the body at point t, if it held xs before the addition. -/
def accNew (c : Dev nD) (t : Fin cfg0.N) (xs : Vec F S512x128 .f32) : Vec F S512x128 .f32 :=
  k0_pay1 (k0_pay11 (iblk m c 0 t) (iblk m c 1 t) (iblk m c 3 t) xs)

end Cert.KernelIdeal.Fr

end
-- ==== Proof.KiPieces.lean ====
/-
  What the three runs of the body leave, as the named values of the point's blocks. At every point the accumulator
  ends at the column tile's neighbour sums added to what it held (to zero at column tile 0). At column tile 3 the body
  stores the new accumulator whole, reads its column 64 (the count) and its columns 0..63 (the sum) back from it, and
  stores the two results, the new state and the role probabilities, as the finishing step's values of these and of
  the point's blocks.
-/
import proofs.«127487_j71433896067267_2_alg».proof.Proof.KiFrame
import proofs.«127487_j71433896067267_2_alg».proof.Proof.KiAccDef
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- After a point of column tile 1 or 2 the accumulator holds the point's addition to what it held. -/
theorem outB_acc (c : Dev nD) (t : Fin cfg0.N) (h0 : ¬t.val % 4 = 0) (h1 : ¬t.val % 4 = 3) (xs : Vec F S512x128 .f32) :
    (outB m c t h0 h1 xs).2.2 = accNew m c t xs := by
  unfold outB
  dsimp only
  rw [View.read_writes_eq_canon _ _ _ (scoverB m c t h0 h1 xs)]
  unfold runB kernelRun0_B
  dsimp only
  rw [View.canon_unit_zero hz2]
  sl_unfold_words
  unfold accNew
  simp only [View.readAt_eq_ld, (hs0_0 t).read_unread, (hs0_1 t).read_unread, (hs0_3 t).read_unread,
    (Memref.isWhole_whole cc0_scratch0).read_unread, View.ld_unit_zero (S := S512x2) hz2,
    View.ld_unit_zero (S := S2x2048) hz2, View.ld_unit_zero (S := S2048x128) hz2, View.ld_unit_zero (S := S512x128) hz2]

/-- After a point of column tile 0 the accumulator holds the point's addition to zero. -/
theorem outA_acc (c : Dev nD) (t : Fin cfg0.N) (h0 : t.val % 4 = 0) (h1 : ¬t.val % 4 = 3) :
    (outA m c t h0 h1).2.2 = accNew m c t (k0_pay10 (F := F)) := by
  unfold outA
  dsimp only
  rw [View.read_writes_eq_canon _ _ _ (scoverA m c t h0 h1)]
  unfold runA kernelRun0_A
  dsimp only
  rw [View.canon_cons_unit_zero (S := S512x128) hz2]
  sl_unfold_words
  unfold accNew
  rw [View.readCov_unit_zero (S := S512x128) _ hz2]
  simp only [View.readAt_eq_ld, (hs0_0 t).read_unread, (hs0_1 t).read_unread, (hs0_3 t).read_unread,
    (Memref.isWhole_whole cc0_scratch0).read_unread, View.ld_unit_zero (S := S512x2) hz2,
    View.ld_unit_zero (S := S2x2048) hz2, View.ld_unit_zero (S := S2048x128) hz2, View.ld_unit_zero (S := S512x128) hz2]

/-- After a point of column tile 3 the accumulator holds the point's addition to what it held. -/
theorem outC_acc (c : Dev nD) (t : Fin cfg0.N) (h0 : ¬t.val % 4 = 0) (h1 : t.val % 4 = 3) (xs : Vec F S512x128 .f32) :
    (outC m c t h0 h1 xs).2.2 = accNew m c t xs := by
  unfold outC
  dsimp only
  rw [View.read_writes_eq_canon _ _ _ (scoverC m c t h0 h1 xs)]
  unfold runC kernelRun0_C
  dsimp only
  sl_unfold_words
  unfold accNew
  rw [View.canon_unit_zero hz2]
  simp only [View.readAt_eq_ld, (hs0_0 t).read_unread, (hs0_1 t).read_unread, (hs0_3 t).read_unread,
    (Memref.isWhole_whole cc0_scratch0).read_unread, View.ld_unit_zero (S := S512x2) hz2,
    View.ld_unit_zero (S := S2x2048) hz2, View.ld_unit_zero (S := S2048x128) hz2, View.ld_unit_zero (S := S512x128) hz2]

theorem hz1 : (![0] : Fin 1 → Nat) = fun _ => 0 := funext fun a => by fin_cases a; rfl

/-- After a point of column tile 3 the two result buffers hold the finishing step's values of the point's blocks and
    of the new accumulator's column 64 and columns 0..63, which the body reads back from the accumulator it has just
    stored whole. -/
theorem outC_res (c : Dev nD) (t : Fin cfg0.N) (h0 : ¬t.val % 4 = 0) (h1 : t.val % 4 = 3) (xs : Vec F S512x128 .f32) :
    ∃ (v47 : Vec F S512x1 .f32) (v52 : Vec F S512x64 .f32),
      (∀ r : Fin 512, v47 (ix2 r (0 : Fin 1)) = accNew m c t xs (ix2 r (64 : Fin 128)))
      ∧ (∀ (r : Fin 512) (k : Fin 64), v52 (ix2 r k) = accNew m c t xs (ix2 r (⟨k.val, by omega⟩ : Fin 128)))
      ∧ (outC m c t h0 h1 xs).1
          = k0_pay3 (k0_pay6 (iblk m c 2 t) v47 v52 (iblk m c 4 t) (iblk m c 6 t) (iblk m c 7 t) (iblk m c 8 t) (iblk m c 9 t)) (k0_pay7 (iblk m c 2 t) v47 v52 (iblk m c 4 t) (iblk m c 6 t) (iblk m c 7 t) (iblk m c 8 t) (iblk m c 9 t)) (k0_pay8 (iblk m c 2 t) v47 v52 (iblk m c 4 t) (iblk m c 6 t) (iblk m c 7 t) (iblk m c 8 t) (iblk m c 9 t)) (k0_pay9 (iblk m c 2 t) v47 v52 (iblk m c 4 t) (iblk m c 5 t) (iblk m c 6 t) (iblk m c 7 t) (iblk m c 8 t) (iblk m c 9 t)) (iblk m c 10 t)
      ∧ (outC m c t h0 h1 xs).2.1
          = k0_pay4 (k0_pay6 (iblk m c 2 t) v47 v52 (iblk m c 4 t) (iblk m c 6 t) (iblk m c 7 t) (iblk m c 8 t) (iblk m c 9 t)) (k0_pay7 (iblk m c 2 t) v47 v52 (iblk m c 4 t) (iblk m c 6 t) (iblk m c 7 t) (iblk m c 8 t) (iblk m c 9 t)) (k0_pay8 (iblk m c 2 t) v47 v52 (iblk m c 4 t) (iblk m c 6 t) (iblk m c 7 t) (iblk m c 8 t) (iblk m c 9 t)) (k0_pay9 (iblk m c 2 t) v47 v52 (iblk m c 4 t) (iblk m c 5 t) (iblk m c 6 t) (iblk m c 7 t) (iblk m c 8 t) (iblk m c 9 t)) (iblk m c 11 t) := by
  refine ⟨fun j => accNew m c t xs ((Rect.unit (s := S512x128) ![0, 64] S512x1.size inb_S512x128_S512x1_0_64).toLoadRect.idx j),
    fun j => accNew m c t xs ((Rect.unit (s := S512x128) ![0, 0] S512x64.size inb_S512x128_S512x64_0_0).toLoadRect.idx j), ?_, ?_, ?_, ?_⟩
  · intro r
    refine congrArg (accNew m c t xs) (funext fun a => Fin.ext ?_)
    match a with
    | ⟨0, _⟩ => show 0 + 1 * r.val = r.val; omega
    | ⟨1, _⟩ => rfl
  · intro r k
    refine congrArg (accNew m c t xs) (funext fun a => Fin.ext ?_)
    match a with
    | ⟨0, _⟩ => show 0 + 1 * r.val = r.val; omega
    | ⟨1, _⟩ => show 0 + 1 * k.val = k.val; omega
  · unfold outC
    dsimp only
    rw [View.read_writes_eq_canon _ _ _ (cover12 m c t h0 h1 xs)]
    unfold runC kernelRun0_C
    dsimp only
    rw [View.canon_unit_zero hz2]
    sl_unfold_words
    unfold accNew
    simp only [View.readCov_eq_canon', View.canon_unit_zero (S := S512x128) hz2, View.readAt_eq_ld, (hs0_0 t).read_unread,
      (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, (hs0_10 t).read_unread,
      (hs0_11 t).read_unread, (Memref.isWhole_whole cc0_scratch0).read_unread, View.ld_unit_zero (S := S512x2) hz2,
      View.ld_unit_zero (S := S2x2048) hz2, View.ld_unit_zero (S := S2048x128) hz2, View.ld_unit_zero (S := S512x128) hz2,
      View.ld_unit_zero (S := S512x64) hz2, View.ld_unit_zero (S := S512) hz1, View.ld_unit_zero (S := S128x64) hz2,
      View.ld_unit_zero (S := S128x3) hz2]
    rfl
  · unfold outC
    dsimp only
    rw [View.read_writes_eq_canon _ _ _ (cover13 m c t h0 h1 xs)]
    unfold runC kernelRun0_C
    dsimp only
    rw [View.canon_unit_zero hz2]
    sl_unfold_words
    unfold accNew
    simp only [View.readCov_eq_canon', View.canon_unit_zero (S := S512x128) hz2, View.readAt_eq_ld, (hs0_0 t).read_unread,
      (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, (hs0_10 t).read_unread,
      (hs0_11 t).read_unread, (Memref.isWhole_whole cc0_scratch0).read_unread, View.ld_unit_zero (S := S512x2) hz2,
      View.ld_unit_zero (S := S2x2048) hz2, View.ld_unit_zero (S := S2048x128) hz2, View.ld_unit_zero (S := S512x128) hz2,
      View.ld_unit_zero (S := S512x64) hz2, View.ld_unit_zero (S := S512) hz1, View.ld_unit_zero (S := S128x64) hz2,
      View.ld_unit_zero (S := S128x3) hz2]
    rfl

end Cert.KernelIdeal.Fr

end
-- ==== Proof.KiBlocks.lean ====
/-
  Each input window's block at a grid point is a shifted piece of its array.

  The grid is 16 row tiles by 4 column tiles; point t has row tile t / 4 and column tile t % 4. A block's element at
  coordinate y sits in the array, on every axis, at (block index) × (block size) + y. The block index maps are read
  off once over the 64 points: the row windows (positions, states, hidden and cell memories) move with the row tile
  on axis 0, the column windows (transposed positions, padded states) move with the column tile, and the weight
  windows always sit at block 0 and cover their whole array. Hence
    row window  :  block (r, k)  =  array (512 · (t / 4) + r, k),
    column window on axis 1 :  block (a, j)  =  array (a, 2048 · (t % 4) + j),
    column window on axis 0 :  block (j, k)  =  array (2048 · (t % 4) + j, k),
    weight window :  block  =  array.
-/
import proofs.«127487_j71433896067267_2_alg».proof.Proof.KiRuns
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## Rows and columns of a point's tiles -/

/-- Row r of point t's row tile, as a row of the 8192. -/
def rowOf (t : Fin cfg0.N) (r : Fin 512) : Fin 8192 :=
  ⟨512 * (t.val / 4) + r.val, by have := lt_of_lt_of_eq t.isLt (N_0); omega⟩

/-- Column j of point t's column tile, as a column of the 8192. -/
def colOf (t : Fin cfg0.N) (j : Fin 2048) : Fin 8192 := ⟨2048 * (t.val % 4) + j.val, by omega⟩

theorem rowOf_val (t : Fin cfg0.N) (r : Fin 512) : (rowOf t r).val = 512 * (t.val / 4) + r.val := rfl
theorem colOf_val (t : Fin cfg0.N) (j : Fin 2048) : (colOf t j).val = 2048 * (t.val % 4) + j.val := rfl

/-! ## The block index maps over the grid -/
/-- Window 0 moves with the row tile on axis 0 and stays at 0 on axis 1. -/
theorem blkIdx0 : ∀ t : Fin cfg0.N, win0_0.index t (0 : Fin 2) = t.val / 4 ∧ win0_0.index t (1 : Fin 2) = 0 :=
  (by decide +kernel : ∀ t : Fin grid0.N, win0_0.index t (0 : Fin 2) = t.val / 4 ∧ win0_0.index t (1 : Fin 2) = 0)
/-- Window 2 moves with the row tile on axis 0 and stays at 0 on axis 1. -/
theorem blkIdx2 : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)
/-- Window 4 moves with the row tile on axis 0 and stays at 0 on axis 1. -/
theorem blkIdx4 : ∀ t : Fin cfg0.N, win0_4.index t (0 : Fin 2) = t.val / 4 ∧ win0_4.index t (1 : Fin 2) = 0 :=
  (by decide +kernel : ∀ t : Fin grid0.N, win0_4.index t (0 : Fin 2) = t.val / 4 ∧ win0_4.index t (1 : Fin 2) = 0)
/-- Window 5 moves with the row tile on axis 0 and stays at 0 on axis 1. -/
theorem blkIdx5 : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)
/-- Window 1 stays at 0 on axis 0 and moves with the column tile on axis 1. -/
theorem blkIdx1 : ∀ t : Fin cfg0.N, win0_1.index t (0 : Fin 2) = 0 ∧ win0_1.index t (1 : Fin 2) = t.val % 4 :=
  (by decide +kernel : ∀ t : Fin grid0.N, win0_1.index t (0 : Fin 2) = 0 ∧ win0_1.index t (1 : Fin 2) = t.val % 4)
/-- Window 3 moves with the column tile on axis 0 and stays at 0 on axis 1. -/
theorem blkIdx3 : ∀ t : Fin cfg0.N, win0_3.index t (0 : Fin 2) = t.val % 4 ∧ win0_3.index t (1 : Fin 2) = 0 :=
  (by decide +kernel : ∀ t : Fin grid0.N, win0_3.index t (0 : Fin 2) = t.val % 4 ∧ win0_3.index t (1 : Fin 2) = 0)
/-- Window 6 always sits at block (0, 0). -/
theorem blkIdx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- Window 7 always sits at block (0, 0). -/
theorem blkIdx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
/-- Window 8 always sits at block (0, 0). -/
theorem blkIdx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
/-- Window 10 always sits at block (0, 0). -/
theorem blkIdx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
/-- Window 11 always sits at block (0, 0). -/
theorem blkIdx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
/-- Window 9 always sits at block 0. -/
theorem blkIdx9 : ∀ t : Fin cfg0.N, win0_9.index t (0 : Fin 1) = 0 :=
  (by decide +kernel : ∀ t : Fin grid0.N, win0_9.index t (0 : Fin 1) = 0)

/-! ## The moving windows -/
/-- Window 0's block at point t is rows 512 · (t / 4) … of its array. -/
theorem iblk0_apply (c : Dev nD) (t : Fin cfg0.N) (r : Fin 512) (k : Fin 2) :
    (iblk m c 0 t : Vec F S512x2 .i32) (ix2 r k) = (V m c main_arg0 : Vec F S8192x2 .i32) (ix2 (rowOf t r) k) := by
  obtain ⟨h0, h1⟩ := blkIdx0 t
  unfold iblk
  rw [View.read_apply]
  show V m c main_arg0 _ = V m c main_arg0 _
  congr 1
  funext a
  apply Fin.ext
  match a with
  | ⟨0, _⟩ => show win0_0.index t (0 : Fin 2) * 512 + 1 * r.val = 512 * (t.val / 4) + r.val; rw [h0]; omega
  | ⟨1, _⟩ => show win0_0.index t (1 : Fin 2) * 2 + 1 * k.val = k.val; rw [h1]; omega
/-- Window 1's block at point t is columns 2048 · (t % 4) … of the transposed positions. -/
theorem iblk1_apply (c : Dev nD) (t : Fin cfg0.N) (a : Fin 2) (j : Fin 2048) :
    (iblk m c 1 t : Vec F S2x2048 .i32) (ix2 a j) = (V m c main_v0 : Vec F S2x8192 .i32) (ix2 a (colOf t j)) := by
  obtain ⟨h0, h1⟩ := blkIdx1 t
  unfold iblk
  rw [View.read_apply]
  show V m c main_v0 _ = V m c main_v0 _
  congr 1
  funext d
  apply Fin.ext
  match d with
  | ⟨0, _⟩ => show win0_1.index t (0 : Fin 2) * 2 + 1 * a.val = a.val; rw [h0]; omega
  | ⟨1, _⟩ => show win0_1.index t (1 : Fin 2) * 2048 + 1 * j.val = 2048 * (t.val % 4) + j.val; rw [h1]; omega
/-- Window 2's block at point t is rows 512 · (t / 4) … of its array. -/
theorem iblk2_apply (c : Dev nD) (t : Fin cfg0.N) (r : Fin 512) (k : Fin 64) :
    (iblk m c 2 t : Vec F S512x64 .f32) (ix2 r k) = (V m c main_arg1 : Vec F S8192x64 .f32) (ix2 (rowOf t r) k) := by
  obtain ⟨h0, h1⟩ := blkIdx2 t
  unfold iblk
  rw [View.read_apply]
  show V m c main_arg1 _ = V m c main_arg1 _
  congr 1
  funext a
  apply Fin.ext
  match a with
  | ⟨0, _⟩ => show win0_2.index t (0 : Fin 2) * 512 + 1 * r.val = 512 * (t.val / 4) + r.val; rw [h0]; omega
  | ⟨1, _⟩ => show win0_2.index t (1 : Fin 2) * 64 + 1 * k.val = k.val; rw [h1]; omega
/-- Window 3's block at point t is rows 2048 · (t % 4) … of the padded states. -/
theorem iblk3_apply (c : Dev nD) (t : Fin cfg0.N) (j : Fin 2048) (k : Fin 128) :
    (iblk m c 3 t : Vec F S2048x128 .f32) (ix2 j k) = (V m c main_v3 : Vec F S8192x128 .f32) (ix2 (colOf t j) k) := by
  obtain ⟨h0, h1⟩ := blkIdx3 t
  unfold iblk
  rw [View.read_apply]
  show V m c main_v3 _ = V m c main_v3 _
  congr 1
  funext d
  apply Fin.ext
  match d with
  | ⟨0, _⟩ => show win0_3.index t (0 : Fin 2) * 2048 + 1 * j.val = 2048 * (t.val % 4) + j.val; rw [h0]; omega
  | ⟨1, _⟩ => show win0_3.index t (1 : Fin 2) * 128 + 1 * k.val = k.val; rw [h1]; omega
/-- Window 4's block at point t is rows 512 · (t / 4) … of its array. -/
theorem iblk4_apply (c : Dev nD) (t : Fin cfg0.N) (r : Fin 512) (k : Fin 128) :
    (iblk m c 4 t : Vec F S512x128 .f32) (ix2 r k) = (V m c main_arg2 : Vec F S8192x128 .f32) (ix2 (rowOf t r) k) := by
  obtain ⟨h0, h1⟩ := blkIdx4 t
  unfold iblk
  rw [View.read_apply]
  show V m c main_arg2 _ = V m c main_arg2 _
  congr 1
  funext a
  apply Fin.ext
  match a with
  | ⟨0, _⟩ => show win0_4.index t (0 : Fin 2) * 512 + 1 * r.val = 512 * (t.val / 4) + r.val; rw [h0]; omega
  | ⟨1, _⟩ => show win0_4.index t (1 : Fin 2) * 128 + 1 * k.val = k.val; rw [h1]; omega
/-- Window 5's block at point t is rows 512 · (t / 4) … of its array. -/
theorem iblk5_apply (c : Dev nD) (t : Fin cfg0.N) (r : Fin 512) (k : Fin 128) :
    (iblk m c 5 t : Vec F S512x128 .f32) (ix2 r k) = (V m c main_arg3 : Vec F S8192x128 .f32) (ix2 (rowOf t r) k) := by
  obtain ⟨h0, h1⟩ := blkIdx5 t
  unfold iblk
  rw [View.read_apply]
  show V m c main_arg3 _ = V m c main_arg3 _
  congr 1
  funext a
  apply Fin.ext
  match a with
  | ⟨0, _⟩ => show win0_5.index t (0 : Fin 2) * 512 + 1 * r.val = 512 * (t.val / 4) + r.val; rw [h0]; omega
  | ⟨1, _⟩ => show win0_5.index t (1 : Fin 2) * 128 + 1 * k.val = k.val; rw [h1]; omega

/-! ## The whole-array windows -/
/-- Window 6's block is its whole array at every point. -/
theorem iblk6_eq (c : Dev nD) (t : Fin cfg0.N) :
    (iblk m c 6 t : Vec F S512x64 .f32) = (V m c main_v4 : Vec F S512x64 .f32) := by
  obtain ⟨h0, h1⟩ := blkIdx6 t
  funext y
  unfold iblk
  rw [View.read_apply]
  show V m c main_v4 _ = V m c main_v4 y
  congr 1
  funext a
  apply Fin.ext
  match a with
  | ⟨0, _⟩ => show win0_6.index t (0 : Fin 2) * 512 + 1 * (y 0).val = (y 0).val; rw [h0]; omega
  | ⟨1, _⟩ => show win0_6.index t (1 : Fin 2) * 64 + 1 * (y 1).val = (y 1).val; rw [h1]; omega
/-- Window 7's block is its whole array at every point. -/
theorem iblk7_eq (c : Dev nD) (t : Fin cfg0.N) :
    (iblk m c 7 t : Vec F S512x64 .f32) = (V m c main_v5 : Vec F S512x64 .f32) := by
  obtain ⟨h0, h1⟩ := blkIdx7 t
  funext y
  unfold iblk
  rw [View.read_apply]
  show V m c main_v5 _ = V m c main_v5 y
  congr 1
  funext a
  apply Fin.ext
  match a with
  | ⟨0, _⟩ => show win0_7.index t (0 : Fin 2) * 512 + 1 * (y 0).val = (y 0).val; rw [h0]; omega
  | ⟨1, _⟩ => show win0_7.index t (1 : Fin 2) * 64 + 1 * (y 1).val = (y 1).val; rw [h1]; omega
/-- Window 8's block is its whole array at every point. -/
theorem iblk8_eq (c : Dev nD) (t : Fin cfg0.N) :
    (iblk m c 8 t : Vec F S512x128 .f32) = (V m c main_arg5 : Vec F S512x128 .f32) := by
  obtain ⟨h0, h1⟩ := blkIdx8 t
  funext y
  unfold iblk
  rw [View.read_apply]
  show V m c main_arg5 _ = V m c main_arg5 y
  congr 1
  funext a
  apply Fin.ext
  match a with
  | ⟨0, _⟩ => show win0_8.index t (0 : Fin 2) * 512 + 1 * (y 0).val = (y 0).val; rw [h0]; omega
  | ⟨1, _⟩ => show win0_8.index t (1 : Fin 2) * 128 + 1 * (y 1).val = (y 1).val; rw [h1]; omega
/-- Window 9's block is its whole array at every point. -/
theorem iblk9_eq (c : Dev nD) (t : Fin cfg0.N) :
    (iblk m c 9 t : Vec F S512 .f32) = (V m c main_arg6 : Vec F S512 .f32) := by
  have h0 := blkIdx9 t
  funext y
  unfold iblk
  rw [View.read_apply]
  show V m c main_arg6 _ = V m c main_arg6 y
  congr 1
  funext a
  apply Fin.ext
  match a with
  | ⟨0, _⟩ => show win0_9.index t (0 : Fin 1) * 512 + 1 * (y 0).val = (y 0).val; rw [h0]; omega
/-- Window 10's block is its whole array at every point. -/
theorem iblk10_eq (c : Dev nD) (t : Fin cfg0.N) :
    (iblk m c 10 t : Vec F S128x64 .f32) = (V m c main_arg7 : Vec F S128x64 .f32) := by
  obtain ⟨h0, h1⟩ := blkIdx10 t
  funext y
  unfold iblk
  rw [View.read_apply]
  show V m c main_arg7 _ = V m c main_arg7 y
  congr 1
  funext a
  apply Fin.ext
  match a with
  | ⟨0, _⟩ => show win0_10.index t (0 : Fin 2) * 128 + 1 * (y 0).val = (y 0).val; rw [h0]; omega
  | ⟨1, _⟩ => show win0_10.index t (1 : Fin 2) * 64 + 1 * (y 1).val = (y 1).val; rw [h1]; omega
/-- Window 11's block is its whole array at every point. -/
theorem iblk11_eq (c : Dev nD) (t : Fin cfg0.N) :
    (iblk m c 11 t : Vec F S128x3 .f32) = (V m c main_arg8 : Vec F S128x3 .f32) := by
  obtain ⟨h0, h1⟩ := blkIdx11 t
  funext y
  unfold iblk
  rw [View.read_apply]
  show V m c main_arg8 _ = V m c main_arg8 y
  congr 1
  funext a
  apply Fin.ext
  match a with
  | ⟨0, _⟩ => show win0_11.index t (0 : Fin 2) * 128 + 1 * (y 0).val = (y 0).val; rw [h0]; omega
  | ⟨1, _⟩ => show win0_11.index t (1 : Fin 2) * 3 + 1 * (y 1).val = (y 1).val; rw [h1]; omega

end Cert.KernelIdeal.Fr

end
-- ==== Proof.KiHost.lean ====
/-
  The arrays the region finds, written by the host operations that run before it, read at an index.

  Before the region the host transposes the grid positions ([8192, 2] to [2, 8192]), pads each state row of 64 numbers
  to 128 by appending a one and then 63 zeros, and cuts the input weights [512, 128] into their first and last 64
  columns. Read at an index: the transposed positions at (a, j) are the positions at (j, a); the padded states at (j, k)
  are the state (j, k) for k < 64, one at k = 64 and zero beyond; the two halves of the input weights at (g, k) are the
  weights at (g, k) and at (g, 64 + k).
-/
import proofs.«127487_j71433896067267_2_alg».proof.Proof.KiRuns
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## The arrays as terms of the launched arguments -/

/-- The transposed positions are the host's transpose of the launched positions. -/
theorem V_v0_eq (c : Dev nD) :
    (V m c main_v0 : S2x8192.Idx → BitVec 32)
      = transpose S2x8192 [1, 0] (m ((c : Thread nD τ).loc main_arg0) : S8192x2.Idx → BitVec 32) transposes_S8192x2_S2x8192_1_0 := by
  dsimp only [V, hostOps0]; after_results

/-- The padded states are the launched states, a column of ones and 63 columns of zeros, joined along the columns. -/
theorem V_v3_eq (c : Dev nD) :
    (V m c main_v3 : S8192x128.Idx → EReal)
      = concatenate S8192x128 1
          [⟨S8192x64, (m ((c : Thread nD τ).loc main_arg1) : S8192x64.Idx → EReal)⟩,
           ⟨S8192x1, broadcastInDim S8192x1 ![] bcast_S_S8192x1 (constant (F := Ideal) S_ .f32 0x3F800000#32)⟩,
           ⟨S8192x63, broadcastInDim S8192x63 ![] bcast_S_S8192x63 (constant (F := Ideal) S_ .f32 0x00000000#32)⟩]
          concatenates_S8192x64_S8192x1_S8192x63_S8192x128_d1 := by
  dsimp only [V, hostOps0]; after_results
  rfl

/-- The first half of the input weights: columns 0 to 63. -/
theorem V_v4_eq (c : Dev nD) :
    (V m c main_v4 : S512x64.Idx → EReal)
      = extractStridedSlice S512x64 ![0, 0] (m ((c : Thread nD τ).loc main_arg4) : S512x128.Idx → EReal) slices_S512x128_S512x64_0_0 := by
  dsimp only [V, hostOps0]; after_results

/-- The second half of the input weights: columns 64 to 127. -/
theorem V_v5_eq (c : Dev nD) :
    (V m c main_v5 : S512x64.Idx → EReal)
      = extractStridedSlice S512x64 ![0, 64] (m ((c : Thread nD τ).loc main_arg4) : S512x128.Idx → EReal) slices_S512x128_S512x64_0_64 := by
  dsimp only [V, hostOps0]; after_results

/-! ## Three arrays joined along the columns, read at an index -/

/-- A row of 64, a single entry and a row of 63, joined: entry k of row j is the first array's for k < 64, the second's at
    k = 64, the third's (k - 65) beyond. -/
theorem pad_apply (x : S8192x64.Idx → EReal) (y : S8192x1.Idx → EReal) (z : S8192x63.Idx → EReal)
    (h : Shape.Concatenates [S8192x64, S8192x1, S8192x63] S8192x128 1) (j : Fin 8192) (k : Fin 128) :
    concatenate S8192x128 1 [⟨S8192x64, x⟩, ⟨S8192x1, y⟩, ⟨S8192x63, z⟩] h (ix2 j k)
      = if h1 : k.val < 64 then x (ix2 j (⟨k.val, h1⟩ : Fin 64))
        else if k.val = 64 then y (ix2 j (0 : Fin 1)) else z (ix2 j (⟨k.val - 65, by omega⟩ : Fin 63)) := by
  by_cases h1 : k.val < 64
  · rw [dif_pos h1]
    exact concatenate_apply_piece (t := S8192x128) 1 [⟨S8192x64, x⟩, ⟨S8192x1, y⟩, ⟨S8192x63, z⟩] h (ix2 j k)
      0 (by show (0 : Nat) < 3; omega) S8192x64 x rfl rfl 0 rfl (ix2 j (⟨k.val, h1⟩ : Fin 64))
      (fun b hb => match b, hb with | ⟨0, _⟩, _ => rfl | ⟨1, _⟩, hb => absurd rfl hb) (Nat.zero_add _)
  · rw [dif_neg h1]
    by_cases h2 : k.val = 64
    · rw [if_pos h2]
      exact concatenate_apply_piece (t := S8192x128) 1 [⟨S8192x64, x⟩, ⟨S8192x1, y⟩, ⟨S8192x63, z⟩] h (ix2 j k)
        1 (by show (1 : Nat) < 3; omega) S8192x1 y rfl rfl 64 rfl (ix2 j (0 : Fin 1))
        (fun b hb => match b, hb with | ⟨0, _⟩, _ => rfl | ⟨1, _⟩, hb => absurd rfl hb)
        (by show 64 + 0 = k.val; omega)
    · rw [if_neg h2]
      exact concatenate_apply_piece (t := S8192x128) 1 [⟨S8192x64, x⟩, ⟨S8192x1, y⟩, ⟨S8192x63, z⟩] h (ix2 j k)
        2 (by show (2 : Nat) < 3; omega) S8192x63 z rfl rfl 65 rfl (ix2 j (⟨k.val - 65, by omega⟩ : Fin 63))
        (fun b hb => match b, hb with | ⟨0, _⟩, _ => rfl | ⟨1, _⟩, hb => absurd rfl hb)
        (by show 65 + (k.val - 65) = k.val; omega)

/-! ## The arrays at an index -/

theorem V_v0_apply (c : Dev nD) (a : Fin 2) (j : Fin 8192) :
    (V m c main_v0 : S2x8192.Idx → BitVec 32) (ix2 a j) = (m ((c : Thread nD τ).loc main_arg0) : S8192x2.Idx → BitVec 32) (ix2 j a) := by
  rw [V_v0_eq]
  exact transpose_ix2_apply _ _ a j

theorem V_v3_apply (c : Dev nD) (j : Fin 8192) (k : Fin 128) :
    (V m c main_v3 : S8192x128.Idx → EReal) (ix2 j k)
      = if h : k.val < 64 then (m ((c : Thread nD τ).loc main_arg1) : S8192x64.Idx → EReal) (ix2 j (⟨k.val, h⟩ : Fin 64))
        else if k.val = 64 then (1 : EReal) else (0 : EReal) := by
  rw [V_v3_eq, pad_apply]
  by_cases h1 : k.val < 64
  · rw [dif_pos h1, dif_pos h1]
  · rw [dif_neg h1, dif_neg h1]
    by_cases h2 : k.val = 64
    · rw [if_pos h2, if_pos h2]; exact Ideal.ofBits_one_f32
    · rw [if_neg h2, if_neg h2]; exact Ideal.ofBits_zero_f32

theorem V_v4_apply (c : Dev nD) (g : Fin 512) (k : Fin 64) :
    (V m c main_v4 : S512x64.Idx → EReal) (ix2 g k)
      = (m ((c : Thread nD τ).loc main_arg4) : S512x128.Idx → EReal) (ix2 g (⟨k.val, by omega⟩ : Fin 128)) := by
  rw [V_v4_eq]
  exact slice2_axis1_apply 0 _ _ g k _ (Nat.zero_add _).symm

theorem V_v5_apply (c : Dev nD) (g : Fin 512) (k : Fin 64) :
    (V m c main_v5 : S512x64.Idx → EReal) (ix2 g k)
      = (m ((c : Thread nD τ).loc main_arg4) : S512x128.Idx → EReal) (ix2 g (⟨64 + k.val, by omega⟩ : Fin 128)) := by
  rw [V_v5_eq]
  exact slice2_axis1_apply 64 _ _ g k _ rfl

end Cert.KernelIdeal.Fr

end
-- ==== Proof.Spec.lean ====
/-
  The specification of the cell update, index by index on the extended reals.

  A cell i of 8192 has an integer grid position (two 32-bit words), a state row of 64 numbers and two memory rows
  (hidden h, cell c) of 128. Its NEIGHBOURS are the other cells j whose squared grid distance — computed in wrapping
  32-bit arithmetic and compared signed — is at most 9. The update: the mean of the neighbours' state rows (the sum
  divided by max(count, 1)), the four gates as an affine function of [state, mean] and h, the LSTM step on (h, c), the
  new state as a linear image of the new hidden row, and a softmax over three role logits.
  Everything is a function of the nine argument arrays read at indices; no program is imported.
-/
import Idealize.ShloMosaic.PureOps.Ideal
import Idealize.ShloMosaic.Lib.ValueIdx

noncomputable section

open scoped BigOperators

namespace Cert.Cells

open Idealize.ShloMosaic Idealize.ShloMosaic.ValueIdx

variable (pos : (⟨2, ![8192, 2]⟩ : Shape).Idx → BitVec 32)
  (st : (⟨2, ![8192, 64]⟩ : Shape).Idx → EReal)
  (hh cc : (⟨2, ![8192, 128]⟩ : Shape).Idx → EReal)
  (wih whh : (⟨2, ![512, 128]⟩ : Shape).Idx → EReal)
  (bb : (⟨1, ![512]⟩ : Shape).Idx → EReal)
  (wout : (⟨2, ![128, 64]⟩ : Shape).Idx → EReal)
  (wrole : (⟨2, ![128, 3]⟩ : Shape).Idx → EReal)

/-- The squared grid distance of cells i and j, in wrapping 32-bit arithmetic. -/
def dist2 (i j : Fin 8192) : BitVec 32 :=
  (pos (ix2 i (0 : Fin 2)) - pos (ix2 j (0 : Fin 2))) * (pos (ix2 i (0 : Fin 2)) - pos (ix2 j (0 : Fin 2)))
    + (pos (ix2 i (1 : Fin 2)) - pos (ix2 j (1 : Fin 2))) * (pos (ix2 i (1 : Fin 2)) - pos (ix2 j (1 : Fin 2)))

/-- The neighbour weight: 1 when j is another cell within signed squared distance 9 of i, else 0. -/
def nbr (i j : Fin 8192) : EReal :=
  if (dist2 pos i j).sle 9#32 = true ∧ i ≠ j then 1 else 0

/-- The number of neighbours of cell i. -/
def count (i : Fin 8192) : EReal := ∑ j : Fin 8192, nbr pos i j

/-- The sum of the neighbours' states, entry k. -/
def nbrSum (i : Fin 8192) (k : Fin 64) : EReal := ∑ j : Fin 8192, nbr pos i j * st (ix2 j k)

/-- The mean of the neighbours' states (zero for a cell without neighbours: the sum is empty and the divisor 1). -/
def nbrMean (i : Fin 8192) (k : Fin 64) : EReal := Ideal.div (nbrSum pos st i k) (max (count pos i) 1)

/-- Gate g of cell i: the state row against the first 64 columns of the input weights, the neighbour mean against
    the last 64, the hidden row against the recurrent weights, and the bias. -/
def gate (i : Fin 8192) (g : Fin 512) : EReal :=
  ((∑ k : Fin 64, st (ix2 i k) * wih (ix2 g (⟨k.val, by omega⟩ : Fin 128)))
      + (∑ k : Fin 64, nbrMean pos st i k * wih (ix2 g (⟨64 + k.val, by omega⟩ : Fin 128))))
    + (∑ k : Fin 128, hh (ix2 i k) * whh (ix2 g k))
    + bb (ix1 g)

/-- The new cell memory: forget gate (rows 128..255) on c, input gate (rows 0..127) on tanh of the candidate
    (rows 256..383). -/
def cellNew (i : Fin 8192) (k : Fin 128) : EReal :=
  Ideal.logistic (gate pos st hh wih whh bb i (⟨128 + k.val, by omega⟩ : Fin 512)) * cc (ix2 i k)
    + Ideal.logistic (gate pos st hh wih whh bb i (⟨k.val, by omega⟩ : Fin 512))
      * Ideal.tanh (gate pos st hh wih whh bb i (⟨256 + k.val, by omega⟩ : Fin 512))

/-- The new hidden memory: output gate (rows 384..511) on tanh of the new cell memory. -/
def hidNew (i : Fin 8192) (k : Fin 128) : EReal :=
  Ideal.logistic (gate pos st hh wih whh bb i (⟨384 + k.val, by omega⟩ : Fin 512))
    * Ideal.tanh (cellNew pos st hh cc wih whh bb i k)

/-- FIRST RESULT: the new state of cell i, entry d. -/
def newState (i : Fin 8192) (d : Fin 64) : EReal :=
  ∑ k : Fin 128, hidNew pos st hh cc wih whh bb i k * wout (ix2 k d)

/-- The role logit r of cell i. -/
def logit (i : Fin 8192) (r : Fin 3) : EReal :=
  ∑ k : Fin 128, hidNew pos st hh cc wih whh bb i k * wrole (ix2 k r)

/-- The largest of the three logits. -/
def logitMax (i : Fin 8192) : EReal := Finset.univ.sup (logit pos st hh cc wih whh bb wrole i)

/-- The shifted exponential of logit r. -/
def expShift (i : Fin 8192) (r : Fin 3) : EReal :=
  Ideal.exp (logit pos st hh cc wih whh bb wrole i r - logitMax pos st hh cc wih whh bb wrole i)

/-- SECOND RESULT: the role probabilities of cell i. -/
def roleProb (i : Fin 8192) (r : Fin 3) : EReal :=
  Ideal.div (expShift pos st hh cc wih whh bb wrole i r) (∑ r' : Fin 3, expShift pos st hh cc wih whh bb wrole i r')

/-- The distance test in the form |a|² + |b|² − 2 a·b ≤ 9 over the reals: the two squared norms computed in wrapping
    32-bit arithmetic and read signed, the cross term exact. (For words in a range where nothing wraps this is the
    signed test on the wrapping squared distance.) -/
def inclReal (a0 a1 b0 b1 : BitVec 32) : Prop :=
  (((a0 * a0 + a1 * a1).toInt : ℝ) + ((b0 * b0 + b1 * b1).toInt : ℝ))
      - 2 * ((a0.toInt : ℝ) * (b0.toInt : ℝ) + (a1.toInt : ℝ) * (b1.toInt : ℝ)) ≤ 9

open Classical in
/-- The weight of that test, the cell itself NOT excluded: 1 when it holds, else 0. -/
def incl (a0 a1 b0 b1 : BitVec 32) : EReal := if inclReal a0 a1 b0 b1 then 1 else 0

end Cert.Cells

end
-- ==== Proof.KernelAcc.lean ====
/-
  The accumulation step of the neighbour sum, read entry by entry on the extended reals.

  One step takes a tile of 512 row positions a (two signed 32-bit words each), a tile of 2048 column positions b
  (stored transposed), the matching 2048 rows of states s and the running sums A, and returns

      A[r,k] + Σ_j w(a_r, b_j) · s[j,k],

  where w(a,b) is 1 when |a|² + |b|² − 2 a·b ≤ 9 and 0 otherwise: the two squared norms are taken in wrapping
  32-bit arithmetic and then read as signed integers, the cross term a·b is the exact real product of the signed
  readings, and the comparison is the order of the reals. Every number in sight is the image of a real, so the
  comparison of extended reals is the comparison of reals; the one-bit answer widened to a word and read as a
  signed integer is 1 or 0. The cross term is a product of a 512×2 by a 2×2048 matrix, a two-term sum at each
  entry; the weighted sum is a product of the 512×2048 weights by the 2048×128 states.
-/
import proofs.«127487_j71433896067267_2_alg».proof.Proof.Spec
import proofs.«127487_j71433896067267_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Cells.Ker

open Idealize.ShloMosaic Idealize.ShloMosaic.ValueIdx Cert.KernelIdeal Cert.KernelIdeal.Gen

/-! ## The two float literals -/

/-- The word 0x40000000 is the real 2. -/
theorem two_eq : Ideal.ofBits .f32 0x40000000#32 = ((2 : ℝ) : EReal) := by
  simp [Ideal.ofBits, Ideal.ieee, -EReal.coe_mul]; norm_num

/-- The word 0x41100000 is the real 9. -/
theorem nine_eq : Ideal.ofBits .f32 0x41100000#32 = ((9 : ℝ) : EReal) := by
  simp [Ideal.ofBits, Ideal.ieee, -EReal.coe_mul]; norm_num

/-! ## A decided bit, widened and read as a number -/

/-- A decided proposition's bit, widened to 32 bits and read as a signed integer, is 1 or 0. -/
theorem bit_toInt (p : Prop) [Decidable p] :
    (((BitVec.ofBool (decide p)).setWidth 32).toInt : ℤ) = if p then 1 else 0 := by
  by_cases h : p
  · rw [if_pos h, decide_eq_true h]; decide
  · rw [if_neg h, decide_eq_false h]; decide

/-- The weight of one pair of positions: the comparison of the extended reals is the comparison of the reals. -/
theorem weight_eq (a0 a1 b0 b1 : BitVec 32) :
    ((((Ideal.cmp .ole
          (((((a0 * a0 + a1 * a1).toInt : ℝ) : EReal) + (((b0 * b0 + b1 * b1).toInt : ℝ) : EReal))
            - Ideal.ofBits .f32 0x40000000#32
                * (((a0.toInt : ℝ) : EReal) * ((b0.toInt : ℝ) : EReal) + ((a1.toInt : ℝ) : EReal) * ((b1.toInt : ℝ) : EReal)))
          (Ideal.ofBits .f32 0x41100000#32)).setWidth 32).toInt : ℝ) : EReal)
      = Cert.Cells.incl a0 a1 b0 b1 := by
  rw [two_eq, nine_eq]
  simp only [← EReal.coe_mul, ← EReal.coe_add, ← EReal.coe_sub]
  show ((((BitVec.ofBool (decide ((_ : EReal) ≤ _))).setWidth 32).toInt : ℝ) : EReal) = _
  rw [bit_toInt]
  simp only [EReal.coe_le_coe_iff]
  unfold Cert.Cells.incl Cert.Cells.inclReal
  split_ifs <;> simp

/-! ## The layout operations at an entry -/

/-- Column 0 of the row positions, as a one-column array. -/
theorem slice_col0 (v : S512x2.Idx → BitVec 32) (h : S512x2.Slices ![0, 0] S512x1) (r : Fin 512) (z : Fin 1) :
    extractStridedSlice S512x1 ![0, 0] v h (ix2 r z) = v (ix2 r (0 : Fin 2)) := by
  refine extractStridedSlice_apply _ v h (ix2 r z) (ix2 r (0 : Fin 2)) fun a => ?_
  match a with
  | ⟨0, _⟩ => show r.val = 0 + r.val; omega
  | ⟨1, _⟩ => show (0 : ℕ) = 0 + z.val; have := z.isLt; omega

/-- Column 1 of the row positions, as a one-column array. -/
theorem slice_col1 (v : S512x2.Idx → BitVec 32) (h : S512x2.Slices ![0, 1] S512x1) (r : Fin 512) (z : Fin 1) :
    extractStridedSlice S512x1 ![0, 1] v h (ix2 r z) = v (ix2 r (1 : Fin 2)) := by
  refine extractStridedSlice_apply _ v h (ix2 r z) (ix2 r (1 : Fin 2)) fun a => ?_
  match a with
  | ⟨0, _⟩ => show r.val = 0 + r.val; omega
  | ⟨1, _⟩ => show (1 : ℕ) = 1 + z.val; have := z.isLt; omega

/-- Row 0 of the transposed column positions, as a one-row array. -/
theorem slice_row0 (v : S2x2048.Idx → BitVec 32) (h : S2x2048.Slices ![0, 0] S1x2048) (z : Fin 1) (j : Fin 2048) :
    extractStridedSlice S1x2048 ![0, 0] v h (ix2 z j) = v (ix2 (0 : Fin 2) j) := by
  refine extractStridedSlice_apply _ v h (ix2 z j) (ix2 (0 : Fin 2) j) fun a => ?_
  match a with
  | ⟨0, _⟩ => show (0 : ℕ) = 0 + z.val; have := z.isLt; omega
  | ⟨1, _⟩ => show j.val = 0 + j.val; omega

/-- Row 1 of the transposed column positions, as a one-row array. -/
theorem slice_row1 (v : S2x2048.Idx → BitVec 32) (h : S2x2048.Slices ![1, 0] S1x2048) (z : Fin 1) (j : Fin 2048) :
    extractStridedSlice S1x2048 ![1, 0] v h (ix2 z j) = v (ix2 (1 : Fin 2) j) := by
  refine extractStridedSlice_apply _ v h (ix2 z j) (ix2 (1 : Fin 2) j) fun a => ?_
  match a with
  | ⟨0, _⟩ => show (1 : ℕ) = 1 + z.val; have := z.isLt; omega
  | ⟨1, _⟩ => show j.val = 0 + j.val; omega

/-- A one-column array spread over 2048 columns reads its row's one entry. -/
theorem bcast_col {α : Type} (v : S512x1.Idx → α) (h : S512x1.Broadcasts S512x2048) (r : Fin 512) (j : Fin 2048) :
    broadcastTo S512x2048 v h (ix2 r j) = v (ix2 r (0 : Fin 1)) := by
  refine broadcastTo_apply v h (ix2 r j) (ix2 r (0 : Fin 1)) fun ax => ?_
  match ax with
  | ⟨0, _⟩ => show r.val = if (512 : ℕ) = 1 then 0 else r.val; rw [if_neg (by decide)]
  | ⟨1, _⟩ => show (0 : ℕ) = if (1 : ℕ) = 1 then 0 else j.val; rw [if_pos rfl]

/-! ## The two matrix products at an entry -/

/-- The dimension numbers of the 512×2 by 2×2048 product. -/
abbrev D1 : DotDims S512x2 S2x2048 S512x2048 := dot_S512x2_S2x2048_S512x2048_1_0_0_1_n_n
/-- The dimension numbers of the 512×2048 by 2048×128 product. -/
abbrev D2 : DotDims S512x2048 S2048x128 S512x128 := dot_S512x2048_S2048x128_S512x128_1_0_0_1_n_n

theorem D1_lhs0 (i : S512x2048.Idx) (q : D1.contr.Idx) : (D1.lhsIdx i q 0).val = (i 0).val := by
  unfold DotDims.lhsIdx
  rw [dif_neg (show ¬(0 : Fin S512x2.rank) ∈ D1.lhsBatch by decide), dif_pos (show (0 : Fin S512x2.rank) ∈ D1.lhsNonContracting by decide)]
  rfl
theorem D1_rhs1 (i : S512x2048.Idx) (q : D1.contr.Idx) : (D1.rhsIdx i q 1).val = (i 1).val := by
  unfold DotDims.rhsIdx
  rw [dif_neg (show ¬(1 : Fin S2x2048.rank) ∈ D1.rhsBatch by decide), dif_pos (show (1 : Fin S2x2048.rank) ∈ D1.rhsNonContracting by decide)]
  rfl
theorem D2_lhs0 (i : S512x128.Idx) (q : D2.contr.Idx) : (D2.lhsIdx i q 0).val = (i 0).val := by
  unfold DotDims.lhsIdx
  rw [dif_neg (show ¬(0 : Fin S512x2048.rank) ∈ D2.lhsBatch by decide), dif_pos (show (0 : Fin S512x2048.rank) ∈ D2.lhsNonContracting by decide)]
  rfl
theorem D2_rhs1 (i : S512x128.Idx) (q : D2.contr.Idx) : (D2.rhsIdx i q 1).val = (i 1).val := by
  unfold DotDims.rhsIdx
  rw [dif_neg (show ¬(1 : Fin S2048x128.rank) ∈ D2.rhsBatch by decide), dif_pos (show (1 : Fin S2048x128.rank) ∈ D2.rhsNonContracting by decide)]
  rfl

/-- The 512×2 by 2×2048 product into zero, at (r, j): the two-term sum. -/
theorem cross_apply (A : FVec Ideal S512x2 .bf16) (B : FVec Ideal S2x2048 .bf16) (r : Fin 512) (j : Fin 2048) :
    FloatOps.matmul D1 none A B (constant (F := Ideal) S512x2048 .f32 0x00000000#32) (ix2 r j)
      = A (ix2 r (0 : Fin 2)) * B (ix2 (0 : Fin 2) j) + A (ix2 r (1 : Fin 2)) * B (ix2 (1 : Fin 2) j) := by
  rw [Ideal.matmul_constant_zero_apply, ← Equiv.sum_comp (contrEquiv1 D1 2 rfl rfl).symm, Fin.sum_univ_two]
  have el : ∀ k : Fin 2, D1.lhsIdx (ix2 r j) ((contrEquiv1 D1 2 rfl rfl).symm k) = ix2 r k := fun k =>
    funext fun a => Fin.ext (by
      have hk := contrEquiv1_symm_val D1 2 rfl rfl k
      match a with
      | ⟨0, _⟩ => exact D1_lhs0 _ _
      | ⟨1, _⟩ => exact (D1.lhsIdx_val_of_single rfl _ _).trans hk)
  have er : ∀ k : Fin 2, D1.rhsIdx (ix2 r j) ((contrEquiv1 D1 2 rfl rfl).symm k) = ix2 k j := fun k =>
    funext fun a => Fin.ext (by
      have hk := contrEquiv1_symm_val D1 2 rfl rfl k
      match a with
      | ⟨0, _⟩ => exact (D1.rhsIdx_val_of_single rfl _ _).trans hk
      | ⟨1, _⟩ => exact D1_rhs1 _ _)
  rw [el, el, er, er]

/-- The 512×2048 by 2048×128 product into zero, at (r, k): the sum over the 2048 columns. -/
theorem wsum_apply (A : FVec Ideal S512x2048 .bf16) (B : FVec Ideal S2048x128 .bf16) (r : Fin 512) (k : Fin 128) :
    FloatOps.matmul D2 none A B (constant (F := Ideal) S512x128 .f32 0x00000000#32) (ix2 r k)
      = ∑ j : Fin 2048, A (ix2 r j) * B (ix2 j k) := by
  rw [Ideal.matmul_constant_zero_apply, ← Equiv.sum_comp (contrEquiv1 D2 2048 rfl rfl).symm]
  refine Finset.sum_congr rfl fun j _ => ?_
  have hk := contrEquiv1_symm_val D2 2048 rfl rfl j
  have el : D2.lhsIdx (ix2 r k) ((contrEquiv1 D2 2048 rfl rfl).symm j) = ix2 r j :=
    funext fun a => Fin.ext (by
      match a with
      | ⟨0, _⟩ => exact D2_lhs0 _ _
      | ⟨1, _⟩ => exact (D2.lhsIdx_val_of_single rfl _ _).trans hk)
  have er : D2.rhsIdx (ix2 r k) ((contrEquiv1 D2 2048 rfl rfl).symm j) = ix2 j k :=
    funext fun a => Fin.ext (by
      match a with
      | ⟨0, _⟩ => exact (D2.rhsIdx_val_of_single rfl _ _).trans hk
      | ⟨1, _⟩ => exact D2_rhs1 _ _)
  rw [el, er]

/-! ## The step at an entry -/

/-- The weight the step gives the pair (row r, column j): the comparison's bit as a number. -/
theorem weight_apply (v3 : Vec Ideal S512x2 .i32) (v10 : Vec Ideal S2x2048 .i32) (X Y Z : FVec Ideal S512x2048 .f32)
    (r : Fin 512) (j : Fin 2048)
    (hX : X (ix2 r j) = ((((v3 (ix2 r (0 : Fin 2)) * v3 (ix2 r (0 : Fin 2)) + v3 (ix2 r (1 : Fin 2)) * v3 (ix2 r (1 : Fin 2)) : BitVec 32).toInt : ℝ) : EReal)))
    (hY : Y (ix2 r j) = ((((v10 (ix2 (0 : Fin 2) j) * v10 (ix2 (0 : Fin 2) j) + v10 (ix2 (1 : Fin 2) j) * v10 (ix2 (1 : Fin 2) j) : BitVec 32).toInt : ℝ) : EReal)))
    (hZ : Z (ix2 r j) = (((v3 (ix2 r (0 : Fin 2)) : BitVec 32).toInt : ℝ) : EReal) * (((v10 (ix2 (0 : Fin 2) j) : BitVec 32).toInt : ℝ) : EReal)
        + (((v3 (ix2 r (1 : Fin 2)) : BitVec 32).toInt : ℝ) : EReal) * (((v10 (ix2 (1 : Fin 2) j) : BitVec 32).toInt : ℝ) : EReal))
    (h1 : 1 < 32) (h2 : FTy.bits .bf16 < FTy.bits .f32) :
    (truncf .bf16 (sitofp (F := Ideal) .f32 (extui 32 (cmpf .ole
        (subf (addf X Y) (mulf (broadcast S512x2048 (Scalar.ofBits (F := Ideal) .f32 0x40000000#32)) Z))
        (broadcast S512x2048 (Scalar.ofBits (F := Ideal) .f32 0x41100000#32))) h1)) h2 : FVec Ideal S512x2048 .bf16) (ix2 r j)
      = Cert.Cells.incl (v3 (ix2 r (0 : Fin 2))) (v3 (ix2 r (1 : Fin 2))) (v10 (ix2 (0 : Fin 2) j)) (v10 (ix2 (1 : Fin 2) j)) := by
  refine Eq.trans ?_ (weight_eq (v3 (ix2 r (0 : Fin 2))) (v3 (ix2 r (1 : Fin 2))) (v10 (ix2 (0 : Fin 2) j)) (v10 (ix2 (1 : Fin 2) j)))
  rw [← hX, ← hY, ← hZ]
  rfl

/-- ONE STEP OF THE NEIGHBOUR SUM at (r, k): the running sum plus, over the 2048 columns, weight times state. -/
theorem acc_apply (v3 : Vec Ideal S512x2 .i32) (v10 : Vec Ideal S2x2048 .i32) (v34 : Vec Ideal S2048x128 .f32)
    (v37 : Vec Ideal S512x128 .f32) (r : Fin 512) (k : Fin 128) :
    k0_pay11 (F := Ideal) v3 v10 v34 v37 (ix2 r k)
      = v37 (ix2 r k) + ∑ j : Fin 2048, Cert.Cells.incl (v3 (ix2 r (0 : Fin 2))) (v3 (ix2 r (1 : Fin 2)))
          (v10 (ix2 (0 : Fin 2) j)) (v10 (ix2 (1 : Fin 2) j)) * v34 (ix2 j k) := by
  unfold k0_pay11
  refine (addf_apply _ _ _).trans (congrArg (v37 (ix2 r k) + ·) ?_)
  refine (wsum_apply _ _ r k).trans (Finset.sum_congr rfl fun j _ => ?_)
  refine congrArg₂ (· * ·) ?_ (congrFun (shapeCast_self v34 _) (ix2 j k))
  refine weight_apply v3 v10 _ _ _ r j ?_ ?_ ?_ _ _
  · -- the row's squared norm, spread over the columns
    refine (bcast_col _ _ r j).trans ?_
    refine congrArg (fun b : BitVec 32 => (((b.toInt : ℝ)) : EReal)) ?_
    exact congrArg₂ (· + ·) (congrArg₂ (· * ·) (slice_col0 _ _ r 0) (slice_col0 _ _ r 0))
      (congrArg₂ (· * ·) (slice_col1 _ _ r 0) (slice_col1 _ _ r 0))
  · -- the column's squared norm, spread over the rows
    refine (broadcastTo_1b_ab_apply _ _ r j).trans ?_
    refine congrArg (fun b : BitVec 32 => (((b.toInt : ℝ)) : EReal)) ?_
    refine congrArg₂ (· + ·) (congrArg₂ (· * ·) ?_ ?_) (congrArg₂ (· * ·) ?_ ?_)
    · exact (slice_row0 _ _ 0 j).trans (congrFun (shapeCast_self v10 _) _)
    · exact (slice_row0 _ _ 0 j).trans (congrFun (shapeCast_self v10 _) _)
    · exact (slice_row1 _ _ 0 j).trans (congrFun (shapeCast_self v10 _) _)
    · exact (slice_row1 _ _ 0 j).trans (congrFun (shapeCast_self v10 _) _)
  · -- the cross term
    refine (cross_apply _ _ r j).trans ?_
    refine congrArg₂ (· + ·) (congrArg₂ (· * ·) rfl ?_) (congrArg₂ (· * ·) rfl ?_)
    · exact congrArg (fun b : BitVec 32 => (((b.toInt : ℝ)) : EReal)) (congrFun (shapeCast_self v10 _) _)
    · exact congrArg (fun b : BitVec 32 => (((b.toInt : ℝ)) : EReal)) (congrFun (shapeCast_self v10 _) _)

/-- The step starts from the zero array. -/
theorem zero_apply (r : Fin 512) (k : Fin 128) : k0_pay10 (F := Ideal) (ix2 r k) = 0 := by
  unfold k0_pay10
  refine (congrFun (shapeCast_self _ _) (ix2 r k)).trans ?_
  exact Ideal.ofBits_zero_f32

/-- What the step leaves is stored as it is. -/
theorem pay1_eq (v39 : FVec Ideal S512x128 .f32) : k0_pay1 (F := Ideal) v39 = v39 := by
  unfold k0_pay1
  exact shapeCast_self v39 _

end Cert.Cells.Ker

end
-- ==== Proof.Algebra.lean ====
/-
  The pure algebra that joins two arrangements of the cell update.

  * On the 256-grid (each position word in [0, 256) read signed) no 32-bit product, difference or sum of the
    distance computation wraps: the squared norms, the differences and their squares are all below 2^18 in absolute
    value. Hence the real test |a|² + |b|² − 2 a·b ≤ 9 is the signed test on the wrapping squared distance
    (a0−b0)² + (a1−b1)² ≤ 9, by the identity (x0−y0)² + (x1−y1)² = (x0²+x1²) + (y0²+y1²) − 2(x0 y0 + x1 y1).
  * A sum over 8192 indices is the sum of its four consecutive blocks of 2048, accumulated from zero in order.
  * In a 0/1-weighted sum of finite extended reals that includes the index i itself, subtracting the term at i
    gives the same sum with i excluded, because (x + R) − x = R for a finite x.
-/
import proofs.«127487_j71433896067267_2_alg».proof.Proof.Spec

open scoped BigOperators

namespace Cert.Cells.Alg

/-! ### Nothing wraps on the 256-grid -/

/-- A signed value inside the 32-bit range is its own balanced remainder. -/
theorem bmod_small (z : Int) (h1 : -2147483648 ≤ z) (h2 : z < 2147483648) : Int.bmod z (2 ^ 32) = z := by
  apply Int.bmod_eq_of_le <;> omega

/-- The difference of two grid words is the integer difference. -/
theorem toInt_sub_grid (a b : BitVec 32) (ha : 0 ≤ a.toInt ∧ a.toInt < 256) (hb : 0 ≤ b.toInt ∧ b.toInt < 256) :
    (a - b).toInt = a.toInt - b.toInt := by
  rw [BitVec.toInt_sub]
  apply bmod_small <;> omega

/-- The product of two words of absolute value below 256 is the integer product. -/
theorem toInt_mul_small (a b : BitVec 32) (ha : -256 < a.toInt ∧ a.toInt < 256)
    (hb : -256 < b.toInt ∧ b.toInt < 256) : (a * b).toInt = a.toInt * b.toInt := by
  rw [BitVec.toInt_mul]
  obtain ⟨ha1, ha2⟩ := ha
  obtain ⟨hb1, hb2⟩ := hb
  apply bmod_small <;> nlinarith

/-- The square of an integer of absolute value below 256 lies in [0, 65536). -/
theorem sq_bound (d : Int) (h1 : -256 < d) (h2 : d < 256) : 0 ≤ d * d ∧ d * d < 65536 := by
  constructor <;> nlinarith

/-- The sum of two words in [0, 65536) is the integer sum. -/
theorem toInt_add_small (a b : BitVec 32) (ha : 0 ≤ a.toInt ∧ a.toInt < 65536)
    (hb : 0 ≤ b.toInt ∧ b.toInt < 65536) : (a + b).toInt = a.toInt + b.toInt := by
  rw [BitVec.toInt_add]
  apply bmod_small <;> omega

/-- The wrapping squared norm of a grid position is the integer squared norm. -/
theorem toInt_norm2 (a0 a1 : BitVec 32) (ha0 : 0 ≤ a0.toInt ∧ a0.toInt < 256) (ha1 : 0 ≤ a1.toInt ∧ a1.toInt < 256) :
    (a0 * a0 + a1 * a1).toInt = a0.toInt * a0.toInt + a1.toInt * a1.toInt := by
  have m0 : (a0 * a0).toInt = a0.toInt * a0.toInt :=
    toInt_mul_small a0 a0 ⟨by omega, ha0.2⟩ ⟨by omega, ha0.2⟩
  have m1 : (a1 * a1).toInt = a1.toInt * a1.toInt :=
    toInt_mul_small a1 a1 ⟨by omega, ha1.2⟩ ⟨by omega, ha1.2⟩
  have b0 := sq_bound a0.toInt (by omega) ha0.2
  have b1 := sq_bound a1.toInt (by omega) ha1.2
  rw [toInt_add_small _ _ (by rw [m0]; exact b0) (by rw [m1]; exact b1), m0, m1]

/-- The wrapping squared distance of two grid positions is the integer squared distance. -/
theorem toInt_dist2 (a0 a1 b0 b1 : BitVec 32) (ha0 : 0 ≤ a0.toInt ∧ a0.toInt < 256)
    (ha1 : 0 ≤ a1.toInt ∧ a1.toInt < 256) (hb0 : 0 ≤ b0.toInt ∧ b0.toInt < 256)
    (hb1 : 0 ≤ b1.toInt ∧ b1.toInt < 256) :
    ((a0 - b0) * (a0 - b0) + (a1 - b1) * (a1 - b1)).toInt
      = (a0.toInt - b0.toInt) * (a0.toInt - b0.toInt) + (a1.toInt - b1.toInt) * (a1.toInt - b1.toInt) := by
  have d0 := toInt_sub_grid a0 b0 ha0 hb0
  have d1 := toInt_sub_grid a1 b1 ha1 hb1
  have r0 : -256 < (a0 - b0).toInt ∧ (a0 - b0).toInt < 256 := by rw [d0]; omega
  have r1 : -256 < (a1 - b1).toInt ∧ (a1 - b1).toInt < 256 := by rw [d1]; omega
  have m0 := toInt_mul_small (a0 - b0) (a0 - b0) r0 r0
  have m1 := toInt_mul_small (a1 - b1) (a1 - b1) r1 r1
  have s0 := sq_bound (a0 - b0).toInt r0.1 r0.2
  have s1 := sq_bound (a1 - b1).toInt r1.1 r1.2
  rw [toInt_add_small _ _ (by rw [m0]; exact s0) (by rw [m1]; exact s1), m0, m1, d0, d1]

/-- For words on the 256-grid nothing wraps, and the kernel's real test is the signed test on the wrapping squared
    distance. -/
theorem incl_iff (a0 a1 b0 b1 : BitVec 32) (ha0 : 0 ≤ a0.toInt ∧ a0.toInt < 256)
    (ha1 : 0 ≤ a1.toInt ∧ a1.toInt < 256) (hb0 : 0 ≤ b0.toInt ∧ b0.toInt < 256)
    (hb1 : 0 ≤ b1.toInt ∧ b1.toInt < 256) :
    Cert.Cells.inclReal a0 a1 b0 b1
      ↔ ((a0 - b0) * (a0 - b0) + (a1 - b1) * (a1 - b1)).sle 9#32 = true := by
  have h9 : (9#32 : BitVec 32).toInt = 9 := by decide
  rw [BitVec.sle_iff_toInt_le, toInt_dist2 a0 a1 b0 b1 ha0 ha1 hb0 hb1, h9]
  unfold Cert.Cells.inclReal
  rw [toInt_norm2 a0 a1 ha0 ha1, toInt_norm2 b0 b1 hb0 hb1]
  have key : (((a0.toInt * a0.toInt + a1.toInt * a1.toInt : Int) : ℝ)
        + ((b0.toInt * b0.toInt + b1.toInt * b1.toInt : Int) : ℝ))
        - 2 * ((a0.toInt : ℝ) * (b0.toInt : ℝ) + (a1.toInt : ℝ) * (b1.toInt : ℝ))
      = (((a0.toInt - b0.toInt) * (a0.toInt - b0.toInt)
          + (a1.toInt - b1.toInt) * (a1.toInt - b1.toInt) : Int) : ℝ) := by
    push_cast; ring
  rw [key]
  constructor
  · intro h; exact_mod_cast h
  · intro h; exact_mod_cast h

/-- A cell is within distance 0 of itself. -/
theorem incl_self (a0 a1 : BitVec 32) (ha0 : 0 ≤ a0.toInt ∧ a0.toInt < 256) (ha1 : 0 ≤ a1.toInt ∧ a1.toInt < 256) :
    Cert.Cells.inclReal a0 a1 a0 a1 := by
  rw [incl_iff a0 a1 a0 a1 ha0 ha1 ha0 ha1]
  rw [BitVec.sub_self, BitVec.sub_self]
  decide

/-! ### A sum over 8192 in four blocks of 2048 -/

/-- A sum over a + b indices is the sum over the first a and the sum over the last b. -/
theorem sum_split {M : Type*} [AddCommMonoid M] (a b : Nat) (f : Fin (a + b) → M) :
    ∑ j : Fin (a + b), f j
      = (∑ j : Fin a, f ⟨j.val, by omega⟩) + ∑ j : Fin b, f ⟨a + j.val, by omega⟩ := by
  rw [Fin.sum_univ_add]
  rfl

/-- A sum over 8192 cells is the four sums over its consecutive 2048-blocks, accumulated from zero in order. -/
theorem sum_blocks {M : Type*} [AddCommMonoid M] (f : Fin 8192 → M) :
    ∑ j : Fin 8192, f j
      = (((0 + ∑ j : Fin 2048, f ⟨j.val, by omega⟩) + ∑ j : Fin 2048, f ⟨2048 + j.val, by omega⟩)
          + ∑ j : Fin 2048, f ⟨4096 + j.val, by omega⟩) + ∑ j : Fin 2048, f ⟨6144 + j.val, by omega⟩ := by
  have h1 : ∑ j : Fin 8192, f j
      = (∑ j : Fin 6144, f ⟨j.val, by omega⟩) + ∑ j : Fin 2048, f ⟨6144 + j.val, by omega⟩ :=
    sum_split 6144 2048 f
  have h2 : (∑ j : Fin 6144, f ⟨j.val, by omega⟩)
      = (∑ j : Fin 4096, f ⟨j.val, by omega⟩) + ∑ j : Fin 2048, f ⟨4096 + j.val, by omega⟩ :=
    sum_split 4096 2048 (fun j => f ⟨j.val, by omega⟩)
  have h3 : (∑ j : Fin 4096, f ⟨j.val, by omega⟩)
      = (∑ j : Fin 2048, f ⟨j.val, by omega⟩) + ∑ j : Fin 2048, f ⟨2048 + j.val, by omega⟩ :=
    sum_split 2048 2048 (fun j => f ⟨j.val, by omega⟩)
  rw [h1, h2, h3, zero_add]

/-! ### Taking the cell itself out of a 0/1-weighted sum -/

/-- Taking the cell itself out of a weighted sum of FINITE terms. -/
theorem excl_sum {n : Nat} (P : Fin n → Prop) [DecidablePred P] (i : Fin n) (hi : P i) (s : Fin n → EReal)
    (hs : ∀ j, ∃ x : ℝ, s j = (x : EReal)) :
    (∑ j : Fin n, (if P j then (1 : EReal) else 0) * s j) - s i
      = ∑ j : Fin n, (if P j ∧ i ≠ j then (1 : EReal) else 0) * s j := by
  obtain ⟨x, hx⟩ := hs i
  rw [← Finset.add_sum_erase Finset.univ (fun j => (if P j then (1 : EReal) else 0) * s j) (Finset.mem_univ i),
    ← Finset.add_sum_erase Finset.univ (fun j => (if P j ∧ i ≠ j then (1 : EReal) else 0) * s j)
      (Finset.mem_univ i)]
  have e : ∑ j ∈ Finset.univ.erase i, (if P j ∧ i ≠ j then (1 : EReal) else 0) * s j
      = ∑ j ∈ Finset.univ.erase i, (if P j then (1 : EReal) else 0) * s j := by
    apply Finset.sum_congr rfl
    intro j hj
    have hne : i ≠ j := fun h => (Finset.ne_of_mem_erase hj) h.symm
    simp only [hne, ne_eq, not_false_eq_true, and_true]
  simp only [e, if_pos hi, one_mul, ne_eq, not_true_eq_false, and_false, if_false, zero_mul, zero_add]
  rw [hx]
  exact EReal.add_sub_cancel_left

/-- The same for the count (every term 1). -/
theorem excl_count {n : Nat} (P : Fin n → Prop) [DecidablePred P] (i : Fin n) (hi : P i) :
    (∑ j : Fin n, (if P j then (1 : EReal) else 0) * 1) - 1
      = ∑ j : Fin n, (if P j ∧ i ≠ j then (1 : EReal) else 0) := by
  have h := excl_sum P i hi (fun _ => (1 : EReal)) (fun _ => ⟨1, by simp⟩)
  simpa only [mul_one] using h

end Cert.Cells.Alg
-- ==== Proof.KiAcc.lean ====
/-
  The accumulator at a write-back point is the whole neighbour sum.

  The grid walks each row tile through its four column tiles in order: the point t with t mod 4 = 3 closes row tile
  t / 4, and the three points before it are column tiles 2, 1 and 0 of the same row tile. Column tile 0 starts the
  accumulator from zero, and each of the four points adds, at (r, k), the sum over its 2048 columns j of the weight of
  the pair (row r of the row tile, column j of the column tile) times the padded state of that column at k. A row tile's
  row r is cell 512 · (t / 4) + r for all four points; column j of column tile n is cell 2048 · n + j. So the value at
  (r, k) after the fourth addition is (((0 + S₀) + S₁) + S₂) + S₃ with Sₙ the sum over the n-th block of 2048 cells,
  which is the sum over all 8192 cells.
-/
import proofs.«127487_j71433896067267_2_alg».proof.Proof.KiFrame
import proofs.«127487_j71433896067267_2_alg».proof.Proof.KiAccDef
import proofs.«127487_j71433896067267_2_alg».proof.Proof.KiBlocks
import proofs.«127487_j71433896067267_2_alg».proof.Proof.KiHost
import proofs.«127487_j71433896067267_2_alg».proof.Proof.KernelAcc
import proofs.«127487_j71433896067267_2_alg».proof.Proof.Algebra

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## The neighbour sum of a cell, the cell itself included -/

/-- One term of the sum for cell i at entry k: the weight of cell j against cell i, times j's padded state at k. -/
def nbrTerm (c : Dev nD) (i : Fin 8192) (k : Fin 128) (j : Fin 8192) : EReal :=
  Cert.Cells.incl ((m ((c : Thread nD τ).loc main_arg0) : S8192x2.Idx → BitVec 32) (ix2 i (0 : Fin 2)))
      ((m ((c : Thread nD τ).loc main_arg0) : S8192x2.Idx → BitVec 32) (ix2 i (1 : Fin 2)))
      ((m ((c : Thread nD τ).loc main_arg0) : S8192x2.Idx → BitVec 32) (ix2 j (0 : Fin 2)))
      ((m ((c : Thread nD τ).loc main_arg0) : S8192x2.Idx → BitVec 32) (ix2 j (1 : Fin 2)))
    * (V m c main_v3 : S8192x128.Idx → EReal) (ix2 j k)

/-- The sum over all 8192 cells. -/
def nbrAcc (c : Dev nD) (i : Fin 8192) (k : Fin 128) : EReal := ∑ j : Fin 8192, nbrTerm m c i k j

/-! ## One point's addition -/

/-- One point's addition at (r, k), in the cells of its own row and column tiles. -/
theorem step_apply (c : Dev nD) (t : Fin cfg0.N) (xs : Vec Ideal S512x128 .f32) (r : Fin 512) (k : Fin 128) :
    accNew m c t xs (ix2 r k) = xs (ix2 r k) + ∑ j : Fin 2048, nbrTerm m c (rowOf t r) k (colOf t j) := by
  unfold accNew
  refine (congrFun (Cert.Cells.Ker.pay1_eq _) (ix2 r k)).trans ?_
  refine (Cert.Cells.Ker.acc_apply (iblk m c 0 t) (iblk m c 1 t) (iblk m c 3 t) xs r k).trans ?_
  refine congrArg (xs (ix2 r k) + ·) (Finset.sum_congr rfl fun j _ => ?_)
  unfold nbrTerm
  rw [iblk0_apply m c t r 0, iblk0_apply m c t r 1, iblk1_apply m c t 0 j, iblk1_apply m c t 1 j, iblk3_apply m c t j k,
    V_main_arg0 m c, V_v0_apply m c 0 (colOf t j), V_v0_apply m c 1 (colOf t j)]

/-- The same addition at a point t' of the row tile that t closes, its 2048 columns named as cells by g. -/
theorem step_at (c : Dev nD) (t t' : Fin cfg0.N) (hq : t'.val / 4 = t.val / 4) (g : Fin 2048 → Fin 8192)
    (hg : ∀ j : Fin 2048, (g j).val = 2048 * (t'.val % 4) + j.val) (xs : Vec Ideal S512x128 .f32) (r : Fin 512) (k : Fin 128) :
    accNew m c t' xs (ix2 r k) = xs (ix2 r k) + ∑ j : Fin 2048, nbrTerm m c (rowOf t r) k (g j) := by
  have hrow : rowOf t' r = rowOf t r := Fin.ext (by rw [rowOf_val, rowOf_val, hq])
  have hcol : ∀ j : Fin 2048, colOf t' j = g j := fun j => Fin.ext (by rw [colOf_val, hg j])
  rw [step_apply m c t' xs r k, hrow]
  exact congrArg (xs (ix2 r k) + ·) (Finset.sum_congr rfl fun j _ => by rw [hcol j])

/-! ## The accumulator from point to point -/

theorem acc_A (c : Dev nD)
    (hA : ∀ (t : Fin cfg0.N) (h0 : t.val % 4 = 0) (h1 : ¬t.val % 4 = 3), (outA m c t h0 h1).2.2 = accNew m c t (k0_pay10 (F := Ideal)))
    (t : Fin cfg0.N) (h0 : t.val % 4 = 0) (h1 : ¬t.val % 4 = 3) :
    (outsAt0 m c t.val t.isLt).2.2 = accNew m c t (k0_pay10 (F := Ideal)) :=
  (congrArg (fun x => x.2.2) (outsAt0_A m c t h0 h1)).trans (hA t h0 h1)

theorem acc_B (c : Dev nD)
    (hB : ∀ (t : Fin cfg0.N) (h0 : ¬t.val % 4 = 0) (h1 : ¬t.val % 4 = 3) (xs : Vec Ideal S512x128 .f32), (outB m c t h0 h1 xs).2.2 = accNew m c t xs)
    (t : Fin cfg0.N) (h0 : ¬t.val % 4 = 0) (h1 : ¬t.val % 4 = 3) :
    (outsAt0 m c t.val t.isLt).2.2
      = accNew m c t (outsAt0 m c (t.val - 1) (Nat.lt_of_le_of_lt (Nat.sub_le _ _) t.isLt)).2.2 :=
  (congrArg (fun x => x.2.2) (outsAt0_B m c t h0 h1)).trans (hB t h0 h1 _)

theorem acc_C (c : Dev nD)
    (hC : ∀ (t : Fin cfg0.N) (h0 : ¬t.val % 4 = 0) (h1 : t.val % 4 = 3) (xs : Vec Ideal S512x128 .f32), (outC m c t h0 h1 xs).2.2 = accNew m c t xs)
    (t : Fin cfg0.N) (h0 : ¬t.val % 4 = 0) (h1 : t.val % 4 = 3) :
    (outsAt0 m c t.val t.isLt).2.2
      = accNew m c t (outsAt0 m c (t.val - 1) (Nat.lt_of_le_of_lt (Nat.sub_le _ _) t.isLt)).2.2 :=
  (congrArg (fun x => x.2.2) (outsAt0_C m c t h0 h1)).trans (hC t h0 h1 _)

/-! ## The four additions of a row tile -/

/-- The fourth addition, made on what the three points before left, gives the sum over all cells. -/
theorem acc_prev (c : Dev nD)
    (hA : ∀ (t : Fin cfg0.N) (h0 : t.val % 4 = 0) (h1 : ¬t.val % 4 = 3), (outA m c t h0 h1).2.2 = accNew m c t (k0_pay10 (F := Ideal)))
    (hB : ∀ (t : Fin cfg0.N) (h0 : ¬t.val % 4 = 0) (h1 : ¬t.val % 4 = 3) (xs : Vec Ideal S512x128 .f32), (outB m c t h0 h1 xs).2.2 = accNew m c t xs)
    (t : Fin cfg0.N) (h3 : t.val % 4 = 3) (r : Fin 512) (k : Fin 128) :
    accNew m c t ((outsAt0 m c (t.val - 1) (Nat.lt_of_le_of_lt (Nat.sub_le _ _) t.isLt)).2.2) (ix2 r k)
      = nbrAcc m c (rowOf t r) k := by
  have p2 : t.val - 1 < cfg0.N := Nat.lt_of_le_of_lt (Nat.sub_le _ _) t.isLt
  have p1 : t.val - 1 - 1 < cfg0.N := Nat.lt_of_le_of_lt (Nat.sub_le _ _) p2
  have p0 : t.val - 1 - 1 - 1 < cfg0.N := Nat.lt_of_le_of_lt (Nat.sub_le _ _) p1
  have e2 : (outsAt0 m c (t.val - 1) p2).2.2
      = accNew m c ⟨t.val - 1, p2⟩ (outsAt0 m c (t.val - 1 - 1) p1).2.2 :=
    acc_B m c hB ⟨t.val - 1, p2⟩ (by show ¬(t.val - 1) % 4 = 0; omega) (by show ¬(t.val - 1) % 4 = 3; omega)
  have e1 : (outsAt0 m c (t.val - 1 - 1) p1).2.2
      = accNew m c ⟨t.val - 1 - 1, p1⟩ (outsAt0 m c (t.val - 1 - 1 - 1) p0).2.2 :=
    acc_B m c hB ⟨t.val - 1 - 1, p1⟩ (by show ¬(t.val - 1 - 1) % 4 = 0; omega) (by show ¬(t.val - 1 - 1) % 4 = 3; omega)
  have e0 : (outsAt0 m c (t.val - 1 - 1 - 1) p0).2.2 = accNew m c ⟨t.val - 1 - 1 - 1, p0⟩ (k0_pay10 (F := Ideal)) :=
    acc_A m c hA ⟨t.val - 1 - 1 - 1, p0⟩ (by show (t.val - 1 - 1 - 1) % 4 = 0; omega) (by show ¬(t.val - 1 - 1 - 1) % 4 = 3; omega)
  have s3 := step_at m c t t rfl (fun j => ⟨6144 + j.val, by omega⟩)
    (fun j => by show 6144 + j.val = 2048 * (t.val % 4) + j.val; omega) (outsAt0 m c (t.val - 1) p2).2.2 r k
  have s2 := step_at m c t ⟨t.val - 1, p2⟩ (by show (t.val - 1) / 4 = t.val / 4; omega) (fun j => ⟨4096 + j.val, by omega⟩)
    (fun j => by show 4096 + j.val = 2048 * ((t.val - 1) % 4) + j.val; omega) (outsAt0 m c (t.val - 1 - 1) p1).2.2 r k
  have s1 := step_at m c t ⟨t.val - 1 - 1, p1⟩ (by show (t.val - 1 - 1) / 4 = t.val / 4; omega) (fun j => ⟨2048 + j.val, by omega⟩)
    (fun j => by show 2048 + j.val = 2048 * ((t.val - 1 - 1) % 4) + j.val; omega) (outsAt0 m c (t.val - 1 - 1 - 1) p0).2.2 r k
  have s0 := step_at m c t ⟨t.val - 1 - 1 - 1, p0⟩ (by show (t.val - 1 - 1 - 1) / 4 = t.val / 4; omega) (fun j => ⟨j.val, by omega⟩)
    (fun j => by show j.val = 2048 * ((t.val - 1 - 1 - 1) % 4) + j.val; omega) (k0_pay10 (F := Ideal)) r k
  rw [s3, e2, s2, e1, s1, e0, s0, Cert.Cells.Ker.zero_apply]
  exact (Cert.Cells.Alg.sum_blocks (nbrTerm m c (rowOf t r) k)).symm

/-- THE ACCUMULATOR AT A WRITE-BACK POINT: at (r, k), the sum over all 8192 cells j of the weight of j against the
    row's cell times j's padded state at k. -/
theorem acc_final (c : Dev nD)
    (hA : ∀ (t : Fin cfg0.N) (h0 : t.val % 4 = 0) (h1 : ¬t.val % 4 = 3), (outA m c t h0 h1).2.2 = accNew m c t (k0_pay10 (F := Ideal)))
    (hB : ∀ (t : Fin cfg0.N) (h0 : ¬t.val % 4 = 0) (h1 : ¬t.val % 4 = 3) (xs : Vec Ideal S512x128 .f32), (outB m c t h0 h1 xs).2.2 = accNew m c t xs)
    (hC : ∀ (t : Fin cfg0.N) (h0 : ¬t.val % 4 = 0) (h1 : t.val % 4 = 3) (xs : Vec Ideal S512x128 .f32), (outC m c t h0 h1 xs).2.2 = accNew m c t xs)
    (t : Fin cfg0.N) (h3 : t.val % 4 = 3) (r : Fin 512) (k : Fin 128) :
    ((outsAt0 m c t.val t.isLt).2.2 : Vec Ideal S512x128 .f32) (ix2 r k)
      = ∑ j : Fin 8192, Cert.Cells.incl ((m ((c : Thread nD τ).loc main_arg0) : S8192x2.Idx → BitVec 32) (ix2 (rowOf t r) (0 : Fin 2))) ((m ((c : Thread nD τ).loc main_arg0) : S8192x2.Idx → BitVec 32) (ix2 (rowOf t r) (1 : Fin 2))) ((m ((c : Thread nD τ).loc main_arg0) : S8192x2.Idx → BitVec 32) (ix2 j (0 : Fin 2))) ((m ((c : Thread nD τ).loc main_arg0) : S8192x2.Idx → BitVec 32) (ix2 j (1 : Fin 2)))
          * (V m c main_v3 : S8192x128.Idx → EReal) (ix2 j k) := by
  have h := acc_C m c hC t (by omega) h3
  refine (congrFun h (ix2 r k)).trans ?_
  exact acc_prev m c hA hB t h3 r k

end Cert.KernelIdeal.Fr

end
-- ==== Proof.KiCover.lean ====
/-
  From the write-backs to the whole result arrays.

  The two result windows (blocks of 512 rows; block index (row tile, 0)) are written back exactly at the points of
  column tile 3, one per row tile, where the body has just stored them. Block t / 4 holds rows 512 · (t / 4) … of
  its array, so the sixteen written blocks tile the 8192 rows: row p lies in the block of the point 4 · (p / 512) + 3.
  Hence, if at every point of column tile 3 the stored block is rows 512 · (t / 4) … of one function G of the row
  and the column, each result array ends holding G.
-/
import proofs.«127487_j71433896067267_2_alg».proof.Proof.KiFrame
import proofs.«127487_j71433896067267_2_alg».proof.Proof.KiBlocks

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-- A function of the row and the column as contents of a rank-2 array. -/
def ofRowCol {n0 n1 : Nat} (G : Fin n0 → Fin n1 → Elt F .f32) : Vec F ⟨2, ![n0, n1]⟩ .f32 :=
  fun i => G (i 0) (i 1)

theorem ofRowCol_ix2 {n0 n1 : Nat} (G : Fin n0 → Fin n1 → Elt F .f32) (p : Fin n0) (q : Fin n1) :
    ofRowCol (F := F) G (ix2 p q) = G p q := rfl

/-- The point of column tile 3 in the row tile of row p. -/
def lastOf (p : Nat) (hp : p < 8192) : Fin cfg0.N :=
  ⟨4 * (p / 512) + 3, by rw [show cfg0.N = 64 from N_0]; omega⟩

theorem lastOf_val (p : Nat) (hp : p < 8192) : (lastOf p hp).val = 4 * (p / 512) + 3 := rfl

/-! ## Result window 12 -/

/-- Window 12 moves with the row tile on axis 0 and stays at 0 on axis 1. -/
theorem blkIdx12 : ∀ t : Fin cfg0.N, win0_12.index t (0 : Fin 2) = t.val / 4 ∧ win0_12.index t (1 : Fin 2) = 0 :=
  (by decide +kernel : ∀ t : Fin grid0.N, win0_12.index t (0 : Fin 2) = t.val / 4 ∧ win0_12.index t (1 : Fin 2) = 0)

/-- What a point of column tile 3 writes back is its block of G. -/
theorem flushed12_eq (c : Dev nD) (G : Fin 8192 → Fin 64 → Elt F .f32)
    (hG : ∀ (t : Fin cfg0.N), t.val % 4 = 3 → ∀ (r : Fin 512) (d : Fin 64),
      ((outsAt0 m c t.val t.isLt).1 : Vec F S512x64 .f32) (ix2 r d) = G (rowOf t r) d)
    (t : Fin cfg0.N) (hf : (cfg0.win 12).flush t = true) :
    (dats m 0 c).flushed 12 t = ((cfg0.win 12).blk t).view.read (Elt F) (ofRowCol (F := F) G : Vec F S8192x64 .f32) := by
  have h3 : t.val % 4 = 3 := (flush0_12 t).mp hf
  obtain ⟨e0, e1⟩ := blkIdx12 t
  show (cfg0.win 12).cut (grid0.coords t) ((dats m 0 c).after 12 t) = _
  rw [after0_12]
  show ((outsAt0 m c t.val t.isLt).1 : Vec F S512x64 .f32)
    = fun y : S512x64.Idx => (ofRowCol (F := F) G : Vec F S8192x64 .f32) (((cfg0.win 12).blk t).view.emb y)
  funext y
  obtain ⟨r, d, rfl⟩ : ∃ (r : Fin 512) (d : Fin 64), y = ix2 r d := ⟨y 0, y 1, eq_ix2 y⟩
  rw [hG t h3 r d]
  refine congrArg₂ G (Fin.ext ?_) (Fin.ext ?_)
  · show 512 * (t.val / 4) + r.val = win0_12.index t (0 : Fin 2) * 512 + 1 * r.val
    rw [e0]; omega
  · show d.val = win0_12.index t (1 : Fin 2) * 64 + 1 * d.val
    rw [e1]; omega

/-- An index of the array is in point t's block iff each coordinate is in the block's range on its axis. -/
theorem mem_blk12 (t : Fin cfg0.N) (i : S8192x64.Idx) :
    i ∈ ((cfg0.win 12).blk t).view.set ↔ ∀ a : Fin 2, win0_12.index t a * S512x64.size a ≤ (i a).val ∧ (i a).val < win0_12.index t a * S512x64.size a + S512x64.size a := by
  show i ∈ ((View.whole main_v6_0).slice (win0_12.rect t)).set ↔ _
  rw [View.set_slice_whole, Rect.mem_set_unit]
  exact Iff.rfl

/-- Every row lies in the block written back at the last point of its row tile. -/
theorem covered12 (i : S8192x64.Idx) :
    ∃ t : Fin cfg0.N, (cfg0.win 12).flush t = true ∧ i ∈ ((cfg0.win 12).blk t).view.set := by
  have hi0 : (i 0).val < 8192 := (i 0).isLt
  have hi1 : (i 1).val < 64 := (i 1).isLt
  refine ⟨lastOf (i 0).val hi0, (flush0_12 _).mpr (by rw [lastOf_val]; omega), ?_⟩
  obtain ⟨e0, e1⟩ := blkIdx12 (lastOf (i 0).val hi0)
  rw [lastOf_val] at e0
  rw [mem_blk12]
  intro a
  match a with
  | ⟨0, _⟩ =>
    show win0_12.index (lastOf (i 0).val hi0) (0 : Fin 2) * 512 ≤ (i 0).val ∧ (i 0).val < win0_12.index (lastOf (i 0).val hi0) (0 : Fin 2) * 512 + 512
    rw [e0]; omega
  | ⟨1, _⟩ =>
    show win0_12.index (lastOf (i 0).val hi0) (1 : Fin 2) * 64 ≤ (i 1).val ∧ (i 1).val < win0_12.index (lastOf (i 0).val hi0) (1 : Fin 2) * 64 + 64
    rw [e1]; omega

/-- The array ends holding G. -/
theorem final12 (c : Dev nD) (G : Fin 8192 → Fin 64 → Elt F .f32)
    (hG : ∀ (t : Fin cfg0.N), t.val % 4 = 3 → ∀ (r : Fin 512) (d : Fin 64),
      ((outsAt0 m c t.val t.isLt).1 : Vec F S512x64 .f32) (ix2 r d) = G (rowOf t r) d)
    (p : Fin 8192) (d : Fin 64) :
    ((dats m 0 c).arrAt 12 cfg0.N : Vec F S8192x64 .f32) (ix2 p d) = G p d := by
  have h := (dats m 0 c).arrAt_eq_of_cover 12 (ofRowCol (F := F) G : Vec F S8192x64 .f32)
    (fun t hf => flushed12_eq m c G hG t hf) covered12
  rw [h]
  exact ofRowCol_ix2 G p d

/-! ## Result window 13 -/

/-- Window 13 moves with the row tile on axis 0 and stays at 0 on axis 1. -/
theorem blkIdx13 : ∀ t : Fin cfg0.N, win0_13.index t (0 : Fin 2) = t.val / 4 ∧ win0_13.index t (1 : Fin 2) = 0 :=
  (by decide +kernel : ∀ t : Fin grid0.N, win0_13.index t (0 : Fin 2) = t.val / 4 ∧ win0_13.index t (1 : Fin 2) = 0)

/-- What a point of column tile 3 writes back is its block of G. -/
theorem flushed13_eq (c : Dev nD) (G : Fin 8192 → Fin 3 → Elt F .f32)
    (hG : ∀ (t : Fin cfg0.N), t.val % 4 = 3 → ∀ (r : Fin 512) (d : Fin 3),
      ((outsAt0 m c t.val t.isLt).2.1 : Vec F S512x3 .f32) (ix2 r d) = G (rowOf t r) d)
    (t : Fin cfg0.N) (hf : (cfg0.win 13).flush t = true) :
    (dats m 0 c).flushed 13 t = ((cfg0.win 13).blk t).view.read (Elt F) (ofRowCol (F := F) G : Vec F S8192x3 .f32) := by
  have h3 : t.val % 4 = 3 := (flush0_13 t).mp hf
  obtain ⟨e0, e1⟩ := blkIdx13 t
  show (cfg0.win 13).cut (grid0.coords t) ((dats m 0 c).after 13 t) = _
  rw [after0_13]
  show ((outsAt0 m c t.val t.isLt).2.1 : Vec F S512x3 .f32)
    = fun y : S512x3.Idx => (ofRowCol (F := F) G : Vec F S8192x3 .f32) (((cfg0.win 13).blk t).view.emb y)
  funext y
  obtain ⟨r, d, rfl⟩ : ∃ (r : Fin 512) (d : Fin 3), y = ix2 r d := ⟨y 0, y 1, eq_ix2 y⟩
  rw [hG t h3 r d]
  refine congrArg₂ G (Fin.ext ?_) (Fin.ext ?_)
  · show 512 * (t.val / 4) + r.val = win0_13.index t (0 : Fin 2) * 512 + 1 * r.val
    rw [e0]; omega
  · show d.val = win0_13.index t (1 : Fin 2) * 3 + 1 * d.val
    rw [e1]; omega

/-- An index of the array is in point t's block iff each coordinate is in the block's range on its axis. -/
theorem mem_blk13 (t : Fin cfg0.N) (i : S8192x3.Idx) :
    i ∈ ((cfg0.win 13).blk t).view.set ↔ ∀ a : Fin 2, win0_13.index t a * S512x3.size a ≤ (i a).val ∧ (i a).val < win0_13.index t a * S512x3.size a + S512x3.size a := by
  show i ∈ ((View.whole main_v6_1).slice (win0_13.rect t)).set ↔ _
  rw [View.set_slice_whole, Rect.mem_set_unit]
  exact Iff.rfl

/-- Every row lies in the block written back at the last point of its row tile. -/
theorem covered13 (i : S8192x3.Idx) :
    ∃ t : Fin cfg0.N, (cfg0.win 13).flush t = true ∧ i ∈ ((cfg0.win 13).blk t).view.set := by
  have hi0 : (i 0).val < 8192 := (i 0).isLt
  have hi1 : (i 1).val < 3 := (i 1).isLt
  refine ⟨lastOf (i 0).val hi0, (flush0_13 _).mpr (by rw [lastOf_val]; omega), ?_⟩
  obtain ⟨e0, e1⟩ := blkIdx13 (lastOf (i 0).val hi0)
  rw [lastOf_val] at e0
  rw [mem_blk13]
  intro a
  match a with
  | ⟨0, _⟩ =>
    show win0_13.index (lastOf (i 0).val hi0) (0 : Fin 2) * 512 ≤ (i 0).val ∧ (i 0).val < win0_13.index (lastOf (i 0).val hi0) (0 : Fin 2) * 512 + 512
    rw [e0]; omega
  | ⟨1, _⟩ =>
    show win0_13.index (lastOf (i 0).val hi0) (1 : Fin 2) * 3 ≤ (i 1).val ∧ (i 1).val < win0_13.index (lastOf (i 0).val hi0) (1 : Fin 2) * 3 + 3
    rw [e1]; omega

/-- The array ends holding G. -/
theorem final13 (c : Dev nD) (G : Fin 8192 → Fin 3 → Elt F .f32)
    (hG : ∀ (t : Fin cfg0.N), t.val % 4 = 3 → ∀ (r : Fin 512) (q : Fin 3),
      ((outsAt0 m c t.val t.isLt).2.1 : Vec F S512x3 .f32) (ix2 r q) = G (rowOf t r) q)
    (p : Fin 8192) (q : Fin 3) :
    ((dats m 0 c).arrAt 13 cfg0.N : Vec F S8192x3 .f32) (ix2 p q) = G p q := by
  have h := (dats m 0 c).arrAt_eq_of_cover 13 (ofRowCol (F := F) G : Vec F S8192x3 .f32)
    (fun t hf => flushed13_eq m c G hG t hf) covered13
  rw [h]
  exact ofRowCol_ix2 G p q

end Cert.KernelIdeal.Fr

end
-- ==== Proof.KerDefs.lean ====
/-
  The kernel's finishing step as functions of the values it reads, entry by entry: the neighbour mean from the
  accumulated sum and count with the cell itself taken out again, the four gates of a row, and the new hidden row.
-/
import proofs.«127487_j71433896067267_2_alg».proof.Proof.Spec
import proofs.«127487_j71433896067267_2_alg».proof.KernelIdeal

noncomputable section

open scoped BigOperators

namespace Cert.Cells.Ker

open Idealize.ShloMosaic Idealize.ShloMosaic.ValueIdx Cert.KernelIdeal

variable (v46 : Vec Ideal S512x64 .f32) (v47 : Vec Ideal S512x1 .f32) (v52 : Vec Ideal S512x64 .f32)
  (v56 v57 : Vec Ideal S512x128 .f32) (v59 v64 : Vec Ideal S512x64 .f32) (v70 : Vec Ideal S512x128 .f32)
  (v74 : Vec Ideal S512 .f32) (v96 : Vec Ideal S128x3 .f32)

/-- The neighbour mean of row r, entry k: the accumulated sum less the row's own state, over the accumulated count
    less one (at least 1). -/
def kMean (r : Fin 512) (k : Fin 64) : EReal :=
  Ideal.div (v52 (ix2 r k) - v46 (ix2 r k)) (max (v47 (ix2 r (0 : Fin 1)) - 1) 1)

/-- Gate g of row r. -/
def kGate (r : Fin 512) (g : Fin 512) : EReal :=
  ((∑ k : Fin 64, v46 (ix2 r k) * v59 (ix2 g k)) + (∑ k : Fin 64, kMean v46 v47 v52 r k * v64 (ix2 g k)))
    + (∑ k : Fin 128, v56 (ix2 r k) * v70 (ix2 g k)) + v74 (ix1 g)

/-- The new hidden memory of row r, entry k. -/
def kHid (r : Fin 512) (k : Fin 128) : EReal :=
  Ideal.logistic (kGate v46 v47 v52 v56 v59 v64 v70 v74 r (⟨384 + k.val, by omega⟩ : Fin 512))
    * Ideal.tanh (Ideal.logistic (kGate v46 v47 v52 v56 v59 v64 v70 v74 r (⟨128 + k.val, by omega⟩ : Fin 512)) * v57 (ix2 r k)
        + Ideal.logistic (kGate v46 v47 v52 v56 v59 v64 v70 v74 r (⟨k.val, by omega⟩ : Fin 512))
          * Ideal.tanh (kGate v46 v47 v52 v56 v59 v64 v70 v74 r (⟨256 + k.val, by omega⟩ : Fin 512)))

/-- The role logit q of row r. -/
def kLogit (r : Fin 512) (q : Fin 3) : EReal :=
  ∑ k : Fin 128, kHid v46 v47 v52 v56 v57 v59 v64 v70 v74 r k * v96 (ix2 k q)

end Cert.Cells.Ker

end
-- ==== Proof.KernelFin.lean ====
/-
  The finalization of the cell update, read index by index on the extended reals.

  At the last column tile the body holds, for a tile of 512 cells: the state rows s, the accumulated neighbour sum
  (the cell itself included) S and neighbour count (the cell itself included) n, the memory rows h and c, the two
  halves of the input weights, the recurrent weights, the bias and the two output matrices. From these it forms
    the neighbour mean        m(r, k)  = (S(r, k) - s(r, k)) / max (n(r) - 1, 1),
    the gate pre-activations  G(r, g)  = Σ_k s(r, k) A(g, k) + Σ_k m(r, k) B(g, k) + Σ_k h(r, k) U(g, k) + b(g),
    the new hidden row        H(r, k)  = σ(G(r, 384 + k)) · tanh (σ(G(r, 128 + k)) · c(r, k) + σ(G(r, k)) · tanh G(r, 256 + k)),
    the new state             Σ_k H(r, k) W(k, d),
    and the role probabilities, the softmax over q of the three logits L(r, q) = Σ_k H(r, k) V(k, q):
      exp (L(r, q) - max_q' L(r, q')) / Σ_q' exp (L(r, q') - max_q'' L(r, q'')).
  On the extended reals a change of number format is the identity, a product of matrices into a zero accumulator is
  the plain sum of products over the contracted coordinate, a reduction over the three logits is the sum (from zero)
  or the supremum (from the least element) over the three coordinates, and the layout operations (row and column
  broadcasts, unit-axis casts, column slices) read one operand element at one index.
-/
import proofs.«127487_j71433896067267_2_alg».proof.Proof.Spec
import proofs.«127487_j71433896067267_2_alg».proof.Proof.KerDefs
import proofs.«127487_j71433896067267_2_alg».proof.Proof.Gen.KernelIdeal.Skeleton
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Cells.Ker

open Idealize.ShloMosaic Idealize.ShloMosaic.ValueIdx Cert.KernelIdeal Cert.KernelIdeal.Gen

/-! ## The operations read at an index -/

section Generic
variable {α : Type}

/-- A change of number format is the identity on the extended reals. -/
theorem truncf_id {s : Shape} {φ ψ : FTy} (a : FVec Ideal s φ) (h : ψ.bits < φ.bits) :
    (truncf ψ a h : FVec Ideal s ψ) = a := rfl

/-- The logistic function of a vector, at an index. -/
theorem logistic_apply {s : Shape} {φ : FTy} (a : FVec Ideal s φ) (i : s.Idx) :
    Idealize.ShloMosaic.logistic a i = Ideal.logistic (a i) := rfl
/-- The hyperbolic tangent of a vector, at an index. -/
theorem tanh_apply {s : Shape} {φ : FTy} (a : FVec Ideal s φ) (i : s.Idx) :
    Idealize.ShloMosaic.tanh a i = Ideal.tanh (a i) := rfl
/-- The exponential of a vector, at an index. -/
theorem exp_apply {s : Shape} {φ : FTy} (a : FVec Ideal s φ) (i : s.Idx) :
    Idealize.ShloMosaic.exp a i = Ideal.exp (a i) := rfl

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A product of matrices into the zero accumulator, at an index: the sum over the one contracted coordinate of the
    products of the operands at the indices `L k`, `R k` the dimension numbers name. -/
theorem matmul_zero_sum {sl sr so : Shape} {φ₁ φ₂ : FTy} (D : DotDims sl sr so) (K : Nat) (hr : D.contr.rank = 1)
    (hs : D.contr.size ⟨0, by omega⟩ = K) (lhs : FVec Ideal sl φ₁) (rhs : FVec Ideal sr φ₂) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    matmul D none lhs rhs (constant so .f32 0x00000000#32) j = ∑ k : Fin K, lhs (L k) * rhs (R k) := by
  refine (Ideal.matmul_constant_zero_apply D none lhs rhs j).trans ?_
  rw [← Equiv.sum_comp (contrEquiv1 D K hr hs).symm]
  exact Finset.sum_congr rfl fun k _ => by rw [hL k, hR k]

end Generic

/-! ## The four products of matrices -/

/-- `[512, 64] × [512, 64]ᵀ` at `(r, g)`: both operands contracted along their last axis. -/
theorem dotT64_apply {φ₁ φ₂ : FTy} (x : FVec Ideal S512x64 φ₁) (y : FVec Ideal S512x64 φ₂) (r g : Fin 512) :
    matmul dot_S512x64_S512x64_S512x512_1_1_0_0_n_n none x y (constant S512x512 .f32 0x00000000#32) (ix2 r g)
      = ∑ k : Fin 64, x (ix2 r k) * y (ix2 g k) := by
  refine matmul_zero_sum dot_S512x64_S512x64_S512x512_1_1_0_0_n_n 64 rfl rfl x y (ix2 r g)
    (fun k => ix2 r k) (fun k => ix2 g k) (fun k => ?_) (fun k => ?_)
  · funext a; refine Fin.ext ?_
    match a with
    | ⟨0, _⟩ =>
      show (dot_S512x64_S512x64_S512x512_1_1_0_0_n_n.lhsIdx (ix2 r g) _ (0 : Fin S512x64.rank)).val = r.val
      unfold DotDims.lhsIdx
      rw [dif_neg (show ¬(0 : Fin S512x64.rank) ∈ dot_S512x64_S512x64_S512x512_1_1_0_0_n_n.lhsBatch by decide),
        dif_pos (show (0 : Fin S512x64.rank) ∈ dot_S512x64_S512x64_S512x512_1_1_0_0_n_n.lhsNonContracting by decide)]
      rfl
    | ⟨1, _⟩ =>
      exact (dot_S512x64_S512x64_S512x512_1_1_0_0_n_n.lhsIdx_val_of_single rfl _ _).trans (contrEquiv1_symm_val dot_S512x64_S512x64_S512x512_1_1_0_0_n_n 64 rfl rfl k)
  · funext a; refine Fin.ext ?_
    match a with
    | ⟨0, _⟩ =>
      show (dot_S512x64_S512x64_S512x512_1_1_0_0_n_n.rhsIdx (ix2 r g) _ (0 : Fin S512x64.rank)).val = g.val
      unfold DotDims.rhsIdx
      rw [dif_neg (show ¬(0 : Fin S512x64.rank) ∈ dot_S512x64_S512x64_S512x512_1_1_0_0_n_n.rhsBatch by decide),
        dif_pos (show (0 : Fin S512x64.rank) ∈ dot_S512x64_S512x64_S512x512_1_1_0_0_n_n.rhsNonContracting by decide)]
      rfl
    | ⟨1, _⟩ =>
      exact (dot_S512x64_S512x64_S512x512_1_1_0_0_n_n.rhsIdx_val_of_single rfl _ _).trans (contrEquiv1_symm_val dot_S512x64_S512x64_S512x512_1_1_0_0_n_n 64 rfl rfl k)

/-- `[512, 128] × [512, 128]ᵀ` at `(r, g)`. -/
theorem dotT128_apply {φ₁ φ₂ : FTy} (x : FVec Ideal S512x128 φ₁) (y : FVec Ideal S512x128 φ₂) (r g : Fin 512) :
    matmul dot_S512x128_S512x128_S512x512_1_1_0_0_n_n none x y (constant S512x512 .f32 0x00000000#32) (ix2 r g)
      = ∑ k : Fin 128, x (ix2 r k) * y (ix2 g k) := by
  refine matmul_zero_sum dot_S512x128_S512x128_S512x512_1_1_0_0_n_n 128 rfl rfl x y (ix2 r g)
    (fun k => ix2 r k) (fun k => ix2 g k) (fun k => ?_) (fun k => ?_)
  · funext a; refine Fin.ext ?_
    match a with
    | ⟨0, _⟩ =>
      show (dot_S512x128_S512x128_S512x512_1_1_0_0_n_n.lhsIdx (ix2 r g) _ (0 : Fin S512x128.rank)).val = r.val
      unfold DotDims.lhsIdx
      rw [dif_neg (show ¬(0 : Fin S512x128.rank) ∈ dot_S512x128_S512x128_S512x512_1_1_0_0_n_n.lhsBatch by decide),
        dif_pos (show (0 : Fin S512x128.rank) ∈ dot_S512x128_S512x128_S512x512_1_1_0_0_n_n.lhsNonContracting by decide)]
      rfl
    | ⟨1, _⟩ =>
      exact (dot_S512x128_S512x128_S512x512_1_1_0_0_n_n.lhsIdx_val_of_single rfl _ _).trans (contrEquiv1_symm_val dot_S512x128_S512x128_S512x512_1_1_0_0_n_n 128 rfl rfl k)
  · funext a; refine Fin.ext ?_
    match a with
    | ⟨0, _⟩ =>
      show (dot_S512x128_S512x128_S512x512_1_1_0_0_n_n.rhsIdx (ix2 r g) _ (0 : Fin S512x128.rank)).val = g.val
      unfold DotDims.rhsIdx
      rw [dif_neg (show ¬(0 : Fin S512x128.rank) ∈ dot_S512x128_S512x128_S512x512_1_1_0_0_n_n.rhsBatch by decide),
        dif_pos (show (0 : Fin S512x128.rank) ∈ dot_S512x128_S512x128_S512x512_1_1_0_0_n_n.rhsNonContracting by decide)]
      rfl
    | ⟨1, _⟩ =>
      exact (dot_S512x128_S512x128_S512x512_1_1_0_0_n_n.rhsIdx_val_of_single rfl _ _).trans (contrEquiv1_symm_val dot_S512x128_S512x128_S512x512_1_1_0_0_n_n 128 rfl rfl k)

/-- `[512, 128] × [128, 64]` at `(r, d)`. -/
theorem dot64_apply {φ₁ φ₂ : FTy} (x : FVec Ideal S512x128 φ₁) (y : FVec Ideal S128x64 φ₂) (r : Fin 512) (d : Fin 64) :
    matmul dot_S512x128_S128x64_S512x64_1_0_0_1_n_n none x y (constant S512x64 .f32 0x00000000#32) (ix2 r d)
      = ∑ k : Fin 128, x (ix2 r k) * y (ix2 k d) := by
  refine matmul_zero_sum dot_S512x128_S128x64_S512x64_1_0_0_1_n_n 128 rfl rfl x y (ix2 r d)
    (fun k => ix2 r k) (fun k => ix2 k d) (fun k => ?_) (fun k => ?_)
  · funext a; refine Fin.ext ?_
    match a with
    | ⟨0, _⟩ =>
      show (dot_S512x128_S128x64_S512x64_1_0_0_1_n_n.lhsIdx (ix2 r d) _ (0 : Fin S512x128.rank)).val = r.val
      unfold DotDims.lhsIdx
      rw [dif_neg (show ¬(0 : Fin S512x128.rank) ∈ dot_S512x128_S128x64_S512x64_1_0_0_1_n_n.lhsBatch by decide),
        dif_pos (show (0 : Fin S512x128.rank) ∈ dot_S512x128_S128x64_S512x64_1_0_0_1_n_n.lhsNonContracting by decide)]
      rfl
    | ⟨1, _⟩ =>
      exact (dot_S512x128_S128x64_S512x64_1_0_0_1_n_n.lhsIdx_val_of_single rfl _ _).trans (contrEquiv1_symm_val dot_S512x128_S128x64_S512x64_1_0_0_1_n_n 128 rfl rfl k)
  · funext a; refine Fin.ext ?_
    match a with
    | ⟨0, _⟩ =>
      exact (dot_S512x128_S128x64_S512x64_1_0_0_1_n_n.rhsIdx_val_of_single rfl _ _).trans (contrEquiv1_symm_val dot_S512x128_S128x64_S512x64_1_0_0_1_n_n 128 rfl rfl k)
    | ⟨1, _⟩ =>
      show (dot_S512x128_S128x64_S512x64_1_0_0_1_n_n.rhsIdx (ix2 r d) _ (1 : Fin S128x64.rank)).val = d.val
      unfold DotDims.rhsIdx
      rw [dif_neg (show ¬(1 : Fin S128x64.rank) ∈ dot_S512x128_S128x64_S512x64_1_0_0_1_n_n.rhsBatch by decide),
        dif_pos (show (1 : Fin S128x64.rank) ∈ dot_S512x128_S128x64_S512x64_1_0_0_1_n_n.rhsNonContracting by decide)]
      rfl

/-- `[512, 128] × [128, 3]` at `(r, q)`. -/
theorem dot3_apply {φ₁ φ₂ : FTy} (x : FVec Ideal S512x128 φ₁) (y : FVec Ideal S128x3 φ₂) (r : Fin 512) (q : Fin 3) :
    matmul dot_S512x128_S128x3_S512x3_1_0_0_1_n_n none x y (constant S512x3 .f32 0x00000000#32) (ix2 r q)
      = ∑ k : Fin 128, x (ix2 r k) * y (ix2 k q) := by
  refine matmul_zero_sum dot_S512x128_S128x3_S512x3_1_0_0_1_n_n 128 rfl rfl x y (ix2 r q)
    (fun k => ix2 r k) (fun k => ix2 k q) (fun k => ?_) (fun k => ?_)
  · funext a; refine Fin.ext ?_
    match a with
    | ⟨0, _⟩ =>
      show (dot_S512x128_S128x3_S512x3_1_0_0_1_n_n.lhsIdx (ix2 r q) _ (0 : Fin S512x128.rank)).val = r.val
      unfold DotDims.lhsIdx
      rw [dif_neg (show ¬(0 : Fin S512x128.rank) ∈ dot_S512x128_S128x3_S512x3_1_0_0_1_n_n.lhsBatch by decide),
        dif_pos (show (0 : Fin S512x128.rank) ∈ dot_S512x128_S128x3_S512x3_1_0_0_1_n_n.lhsNonContracting by decide)]
      rfl
    | ⟨1, _⟩ =>
      exact (dot_S512x128_S128x3_S512x3_1_0_0_1_n_n.lhsIdx_val_of_single rfl _ _).trans (contrEquiv1_symm_val dot_S512x128_S128x3_S512x3_1_0_0_1_n_n 128 rfl rfl k)
  · funext a; refine Fin.ext ?_
    match a with
    | ⟨0, _⟩ =>
      exact (dot_S512x128_S128x3_S512x3_1_0_0_1_n_n.rhsIdx_val_of_single rfl _ _).trans (contrEquiv1_symm_val dot_S512x128_S128x3_S512x3_1_0_0_1_n_n 128 rfl rfl k)
    | ⟨1, _⟩ =>
      show (dot_S512x128_S128x3_S512x3_1_0_0_1_n_n.rhsIdx (ix2 r q) _ (1 : Fin S128x3.rank)).val = q.val
      unfold DotDims.rhsIdx
      rw [dif_neg (show ¬(1 : Fin S128x3.rank) ∈ dot_S512x128_S128x3_S512x3_1_0_0_1_n_n.rhsBatch by decide),
        dif_pos (show (1 : Fin S128x3.rank) ∈ dot_S512x128_S128x3_S512x3_1_0_0_1_n_n.rhsNonContracting by decide)]
      rfl

/-! ## The gate pre-activations -/

/-- The neighbour mean as the body forms it, at `(r, k)`. -/
theorem mean_apply (v46 : Vec Ideal S512x64 .f32) (v47 : Vec Ideal S512x1 .f32) (v52 : Vec Ideal S512x64 .f32)
    (r : Fin 512) (k : Fin 64) :
    divf (subf v52 v46)
        (broadcastTo S512x64
          (maximumf (subf v47 (broadcast S512x1 (FloatOps.ofBits (F := Ideal) .f32 0x3F800000#32)))
            (broadcast S512x1 (FloatOps.ofBits (F := Ideal) .f32 0x3F800000#32)))
          broadcasts_S512x1_S512x64) (ix2 r k)
      = kMean v46 v47 v52 r k := by
  rw [divf_apply, subf_apply, broadcastTo_a1_ab_apply, maximumf_apply, subf_apply, broadcast_apply, Ideal.ofBits_def,
    Ideal.ofBits_one_f32]
  rfl

theorem gate_apply (v46 : Vec Ideal S512x64 .f32) (v47 : Vec Ideal S512x1 .f32) (v52 : Vec Ideal S512x64 .f32)
    (v56 : Vec Ideal S512x128 .f32) (v59 v64 : Vec Ideal S512x64 .f32) (v70 : Vec Ideal S512x128 .f32)
    (v74 : Vec Ideal S512 .f32) (r g : Fin 512) :
    k0_pay5 (F := Ideal) v46 v47 v52 v56 v59 v64 v70 v74 (ix2 r g) = kGate v46 v47 v52 v56 v59 v64 v70 v74 r g := by
  unfold k0_pay5 kGate
  simp only [addf_apply]
  refine congrArg₂ (· + ·) (congrArg₂ (· + ·) (congrArg₂ (· + ·) ?_ ?_) ?_) ?_
  · refine (dotT64_apply _ _ r g).trans (Finset.sum_congr rfl fun k _ => ?_)
    rw [truncf_apply, truncf_apply, shapeCast_self]
  · refine (dotT64_apply _ _ r g).trans (Finset.sum_congr rfl fun k _ => ?_)
    rw [truncf_apply, truncf_apply, shapeCast_self, mean_apply]
  · refine (dotT128_apply _ _ r g).trans (Finset.sum_congr rfl fun k _ => ?_)
    rw [truncf_apply, truncf_apply]
  · exact (broadcastTo_1b_ab_apply _ _ r g).trans (shapeCast_a_1a_apply v74 _ 0 g)

/-! ## The four column slices of the gates, and the new hidden memory -/

/-- Columns 0..127 of the gates (the input gate's pre-activations). -/
theorem pay6_apply (v46 : Vec Ideal S512x64 .f32) (v47 : Vec Ideal S512x1 .f32) (v52 : Vec Ideal S512x64 .f32)
    (v56 : Vec Ideal S512x128 .f32) (v59 v64 : Vec Ideal S512x64 .f32) (v70 : Vec Ideal S512x128 .f32)
    (v74 : Vec Ideal S512 .f32) (r : Fin 512) (k : Fin 128) :
    k0_pay6 (F := Ideal) v46 v47 v52 v56 v59 v64 v70 v74 (ix2 r k)
      = kGate v46 v47 v52 v56 v59 v64 v70 v74 r (⟨k.val, by omega⟩ : Fin 512) := by
  unfold k0_pay6
  exact (slice2_axis1_apply 0 _ _ r k (⟨k.val, by omega⟩ : Fin 512) (Nat.zero_add _).symm).trans
    (gate_apply v46 v47 v52 v56 v59 v64 v70 v74 r _)

/-- Columns 256..383 of the gates (the candidate's pre-activations). -/
theorem pay7_apply (v46 : Vec Ideal S512x64 .f32) (v47 : Vec Ideal S512x1 .f32) (v52 : Vec Ideal S512x64 .f32)
    (v56 : Vec Ideal S512x128 .f32) (v59 v64 : Vec Ideal S512x64 .f32) (v70 : Vec Ideal S512x128 .f32)
    (v74 : Vec Ideal S512 .f32) (r : Fin 512) (k : Fin 128) :
    k0_pay7 (F := Ideal) v46 v47 v52 v56 v59 v64 v70 v74 (ix2 r k)
      = kGate v46 v47 v52 v56 v59 v64 v70 v74 r (⟨256 + k.val, by omega⟩ : Fin 512) := by
  unfold k0_pay7
  exact (slice2_axis1_apply 256 _ _ r k (⟨256 + k.val, by omega⟩ : Fin 512) rfl).trans
    (gate_apply v46 v47 v52 v56 v59 v64 v70 v74 r _)

/-- Columns 384..511 of the gates (the output gate's pre-activations). -/
theorem pay8_apply (v46 : Vec Ideal S512x64 .f32) (v47 : Vec Ideal S512x1 .f32) (v52 : Vec Ideal S512x64 .f32)
    (v56 : Vec Ideal S512x128 .f32) (v59 v64 : Vec Ideal S512x64 .f32) (v70 : Vec Ideal S512x128 .f32)
    (v74 : Vec Ideal S512 .f32) (r : Fin 512) (k : Fin 128) :
    k0_pay8 (F := Ideal) v46 v47 v52 v56 v59 v64 v70 v74 (ix2 r k)
      = kGate v46 v47 v52 v56 v59 v64 v70 v74 r (⟨384 + k.val, by omega⟩ : Fin 512) := by
  unfold k0_pay8
  exact (slice2_axis1_apply 384 _ _ r k (⟨384 + k.val, by omega⟩ : Fin 512) rfl).trans
    (gate_apply v46 v47 v52 v56 v59 v64 v70 v74 r _)

/-- The forget gate (columns 128..255) applied to the cell memory. -/
theorem pay9_apply (v46 : Vec Ideal S512x64 .f32) (v47 : Vec Ideal S512x1 .f32) (v52 : Vec Ideal S512x64 .f32)
    (v56 v57 : Vec Ideal S512x128 .f32) (v59 v64 : Vec Ideal S512x64 .f32) (v70 : Vec Ideal S512x128 .f32)
    (v74 : Vec Ideal S512 .f32) (r : Fin 512) (k : Fin 128) :
    k0_pay9 (F := Ideal) v46 v47 v52 v56 v57 v59 v64 v70 v74 (ix2 r k)
      = Ideal.logistic (kGate v46 v47 v52 v56 v59 v64 v70 v74 r (⟨128 + k.val, by omega⟩ : Fin 512)) * v57 (ix2 r k) := by
  unfold k0_pay9
  simp only [mulf_apply, logistic_apply]
  refine congrArg (fun t => Ideal.logistic t * v57 (ix2 r k)) ?_
  exact (slice2_axis1_apply 128 _ _ r k (⟨128 + k.val, by omega⟩ : Fin 512) rfl).trans
    (gate_apply v46 v47 v52 v56 v59 v64 v70 v74 r _)

theorem hid_apply (v46 : Vec Ideal S512x64 .f32) (v47 : Vec Ideal S512x1 .f32) (v52 : Vec Ideal S512x64 .f32)
    (v56 v57 : Vec Ideal S512x128 .f32) (v59 v64 : Vec Ideal S512x64 .f32) (v70 : Vec Ideal S512x128 .f32)
    (v74 : Vec Ideal S512 .f32) (r : Fin 512) (k : Fin 128) :
    k0_pay2 (F := Ideal) (k0_pay6 v46 v47 v52 v56 v59 v64 v70 v74) (k0_pay7 v46 v47 v52 v56 v59 v64 v70 v74)
        (k0_pay8 v46 v47 v52 v56 v59 v64 v70 v74) (k0_pay9 v46 v47 v52 v56 v57 v59 v64 v70 v74) (ix2 r k)
      = kHid v46 v47 v52 v56 v57 v59 v64 v70 v74 r k := by
  unfold k0_pay2 kHid
  simp only [mulf_apply, addf_apply, logistic_apply, tanh_apply]
  rw [pay6_apply, pay7_apply, pay8_apply, pay9_apply]

/-! ## The two results -/

theorem state_apply (v46 : Vec Ideal S512x64 .f32) (v47 : Vec Ideal S512x1 .f32) (v52 : Vec Ideal S512x64 .f32)
    (v56 v57 : Vec Ideal S512x128 .f32) (v59 v64 : Vec Ideal S512x64 .f32) (v70 : Vec Ideal S512x128 .f32)
    (v74 : Vec Ideal S512 .f32) (v92 : Vec Ideal S128x64 .f32) (r : Fin 512) (d : Fin 64) :
    k0_pay3 (F := Ideal) (k0_pay6 v46 v47 v52 v56 v59 v64 v70 v74) (k0_pay7 v46 v47 v52 v56 v59 v64 v70 v74)
        (k0_pay8 v46 v47 v52 v56 v59 v64 v70 v74) (k0_pay9 v46 v47 v52 v56 v57 v59 v64 v70 v74) v92 (ix2 r d)
      = ∑ k : Fin 128, kHid v46 v47 v52 v56 v57 v59 v64 v70 v74 r k * v92 (ix2 k d) := by
  unfold k0_pay3
  refine (dot64_apply _ _ r d).trans (Finset.sum_congr rfl fun k _ => ?_)
  rw [truncf_apply, truncf_apply, hid_apply]

/-- The sum of a `[512, 3]` array over its three columns, from zero, at row `r`. -/
theorem rowSum3 (src : FVec Ideal S512x3 .f32) (h : S512x3.Reduces [1] S512) (hφ : FKind.Formats .f32)
    (hacc : (0x00000000#32 : BitVec 32) = 0x00000000#32) (r : Fin 512) :
    multiReduction .add [1] S512 src 0x00000000#32 h hφ hacc (ix1 r) = ∑ q : Fin 3, src (ix2 r q) := by
  refine (Ideal.multiReduction_add_single src 0x00000000#32 h hφ hacc (ix1 r)).trans ?_
  show ∑ q : Fin 3, src (h.lift (ix1 r) q) = _
  refine Finset.sum_congr rfl fun q _ => congrArg src (funext fun c => Fin.ext ?_)
  match c with
  | ⟨0, _⟩ => rfl
  | ⟨1, _⟩ => rfl

/-- The maximum of a `[512, 3]` array over its three columns, from the least element, at row `r`. -/
theorem rowMax3 (src : FVec Ideal S512x3 .f32) (h : S512x3.Reduces [1] S512) (hφ : FKind.Formats .f32)
    (hacc : (0xFF800000#32 : BitVec 32) = 0xFF800000#32) (r : Fin 512) :
    multiReduction .maximumf [1] S512 src 0xFF800000#32 h hφ hacc (ix1 r)
      = Finset.univ.sup fun q : Fin 3 => src (ix2 r q) := by
  refine (Ideal.multiReduction_maximumf_single src 0xFF800000#32 h hφ hacc (ix1 r)).trans ?_
  have hb : (FloatOps.ofBits (F := Ideal) .f32 0xFF800000#32 : EReal) = ⊥ := by
    simp [Ideal.ofBits, Ideal.ieee]
  have hf : (fun q : Fin 3 => src (h.lift (ix1 r) q)) = fun q : Fin 3 => src (ix2 r q) :=
    funext fun q => congrArg src (funext fun c => Fin.ext (by
      match c with
      | ⟨0, _⟩ => rfl
      | ⟨1, _⟩ => rfl))
  show (Finset.univ : Finset (Fin 3)).fold max (FloatOps.ofBits (F := Ideal) .f32 0xFF800000#32)
      (fun q : Fin 3 => src (h.lift (ix1 r) q)) = _
  refine (congrArg₂ (fun (b : EReal) (f : Fin 3 → EReal) => (Finset.univ : Finset (Fin 3)).fold max b f) hb hf).trans ?_
  rfl

/-- The three role logits as the body forms them, at `(r, q)`. -/
theorem logit_apply (v46 : Vec Ideal S512x64 .f32) (v47 : Vec Ideal S512x1 .f32) (v52 : Vec Ideal S512x64 .f32)
    (v56 v57 : Vec Ideal S512x128 .f32) (v59 v64 : Vec Ideal S512x64 .f32) (v70 : Vec Ideal S512x128 .f32)
    (v74 : Vec Ideal S512 .f32) (v96 : Vec Ideal S128x3 .f32) (h₁ h₂ : FTy.bits .bf16 < FTy.bits .f32)
    (r : Fin 512) (q : Fin 3) :
    matmul dot_S512x128_S128x3_S512x3_1_0_0_1_n_n none
        (truncf .bf16 (k0_pay2 (F := Ideal) (k0_pay6 v46 v47 v52 v56 v59 v64 v70 v74) (k0_pay7 v46 v47 v52 v56 v59 v64 v70 v74)
        (k0_pay8 v46 v47 v52 v56 v59 v64 v70 v74) (k0_pay9 v46 v47 v52 v56 v57 v59 v64 v70 v74)) h₁)
        (truncf .bf16 v96 h₂) (constant S512x3 .f32 0x00000000#32) (ix2 r q)
      = kLogit v46 v47 v52 v56 v57 v59 v64 v70 v74 v96 r q := by
  unfold kLogit
  refine (dot3_apply _ _ r q).trans (Finset.sum_congr rfl fun k _ => ?_)
  rw [truncf_apply, truncf_apply, hid_apply]

/-- The row maximum of the logits, kept as a column and broadcast back over the three columns: at `(r, q)` it is the
    supremum of row `r` (`b` is the least element, the value the reduction starts from and is compared with again). -/
theorem rowMaxB_apply (lg : FVec Ideal S512x3 .f32) (b : Ideal .f32) (hb : b = ⊥) (h : S512x3.Reduces [1] S512)
    (hφ : FKind.Formats .f32) (hm : (0xFF800000#32 : BitVec 32) = 0xFF800000#32) (hc : S512.ShapeCasts S512x1)
    (hbc : S512x1.Broadcasts S512x3) (r : Fin 512) (f : Fin 3 → EReal) (hf : ∀ q', lg (ix2 r q') = f q') (q : Fin 3) :
    broadcastTo S512x3
        (shapeCast S512x1 (maximumf (broadcast S512 b) (multiReduction .maximumf [1] S512 lg 0xFF800000#32 h hφ hm)) hc)
        hbc (ix2 r q)
      = Finset.univ.sup f := by
  refine (broadcastTo_a1_ab_apply _ hbc r q).trans ?_
  refine (shapeCast_a_a1_apply _ hc r 0).trans ?_
  rw [maximumf_apply, broadcast_apply, hb]
  refine (max_eq_right bot_le).trans ((rowMax3 lg h hφ hm r).trans ?_)
  exact congrArg (Finset.univ.sup) (funext hf)

/-- The row sum of a `[512, 3]` array, kept as a column and broadcast back over the three columns, at `(r, q)`. -/
theorem rowSumB_apply (e : FVec Ideal S512x3 .f32) (h : S512x3.Reduces [1] S512) (hφ : FKind.Formats .f32)
    (hz : (0x00000000#32 : BitVec 32) = 0x00000000#32) (hc : S512.ShapeCasts S512x1)
    (hbc : S512x1.Broadcasts S512x3) (r : Fin 512) (q : Fin 3) :
    broadcastTo S512x3 (shapeCast S512x1 (multiReduction .add [1] S512 e 0x00000000#32 h hφ hz) hc) hbc (ix2 r q)
      = ∑ q' : Fin 3, e (ix2 r q') :=
  (broadcastTo_a1_ab_apply _ hbc r q).trans ((shapeCast_a_a1_apply _ hc r 0).trans (rowSum3 e h hφ hz r))

theorem role_apply (v46 : Vec Ideal S512x64 .f32) (v47 : Vec Ideal S512x1 .f32) (v52 : Vec Ideal S512x64 .f32)
    (v56 v57 : Vec Ideal S512x128 .f32) (v59 v64 : Vec Ideal S512x64 .f32) (v70 : Vec Ideal S512x128 .f32)
    (v74 : Vec Ideal S512 .f32) (v96 : Vec Ideal S128x3 .f32) (r : Fin 512) (q : Fin 3) :
    k0_pay4 (F := Ideal) (k0_pay6 v46 v47 v52 v56 v59 v64 v70 v74) (k0_pay7 v46 v47 v52 v56 v59 v64 v70 v74)
        (k0_pay8 v46 v47 v52 v56 v59 v64 v70 v74) (k0_pay9 v46 v47 v52 v56 v57 v59 v64 v70 v74) v96 (ix2 r q)
      = Ideal.div (Ideal.exp (kLogit v46 v47 v52 v56 v57 v59 v64 v70 v74 v96 r q - Finset.univ.sup (kLogit v46 v47 v52 v56 v57 v59 v64 v70 v74 v96 r)))
          (∑ q' : Fin 3, Ideal.exp (kLogit v46 v47 v52 v56 v57 v59 v64 v70 v74 v96 r q' - Finset.univ.sup (kLogit v46 v47 v52 v56 v57 v59 v64 v70 v74 v96 r))) := by
  have hb : (Scalar.ofBits (F := Ideal) .f32 0xFF800000#32 : Ideal .f32) = ⊥ := by
    show Ideal.ofBits .f32 0xFF800000#32 = ⊥
    simp [Ideal.ofBits, Ideal.ieee]
  have hl : ∀ q' : Fin 3, _ = kLogit v46 v47 v52 v56 v57 v59 v64 v70 v74 v96 r q' :=
    fun q' => logit_apply v46 v47 v52 v56 v57 v59 v64 v70 v74 v96 bitsLt_bf16_f32 bitsLt_bf16_f32 r q'
  have hx : ∀ q' : Fin 3, _ = Ideal.exp (kLogit v46 v47 v52 v56 v57 v59 v64 v70 v74 v96 r q' - Finset.univ.sup (kLogit v46 v47 v52 v56 v57 v59 v64 v70 v74 v96 r)) :=
    fun q' => (exp_apply _ (ix2 r q')).trans (congrArg Ideal.exp ((subf_apply _ _ (ix2 r q')).trans
      (congrArg₂ (· - ·) (hl q')
        (rowMaxB_apply _ _ hb reduces_S512x3_S512 (.inl rfl) rfl shapeCasts_S512_S512x1 broadcasts_S512x1_S512x3 r
          (kLogit v46 v47 v52 v56 v57 v59 v64 v70 v74 v96 r) hl q'))))
  unfold k0_pay4
  simp only [divf_apply]
  refine congrArg₂ Ideal.div (hx q) ?_
  exact (rowSumB_apply _ reduces_S512x3_S512 (.inl rfl) rfl shapeCasts_S512_S512x1 broadcasts_S512x1_S512x3 r q).trans
    (Finset.sum_congr rfl fun q' _ => hx q')

end Cert.Cells.Ker

end
-- ==== Proof.KerSpec.lean ====
/-
  The finishing formulas of a row are the specification's, on the 256-grid with finite states.

  After the four accumulation steps a row r (cell i) holds the count Σ_j w(i,j) and the sums Σ_j w(i,j)·s[j,k], where
  w(i,j) is 1 when |p_i|² + |p_j|² − 2 p_i·p_j ≤ 9 and 0 otherwise, the cell itself included. On the 256-grid nothing
  wraps, so that test is the signed test on the wrapping squared distance, and it holds at j = i. Taking the cell out
  again — the count less one, the sum less the cell's own state, which is finite — gives the count and the sum over the
  true neighbours. Hence the mean, the four gates, the new hidden row and the role logits agree term by term.
-/
import proofs.«127487_j71433896067267_2_alg».proof.Proof.Spec
import proofs.«127487_j71433896067267_2_alg».proof.Proof.KerDefs
import proofs.«127487_j71433896067267_2_alg».proof.Proof.Algebra

noncomputable section

open scoped BigOperators

namespace Cert.Cells.Ker

open Idealize.ShloMosaic Idealize.ShloMosaic.ValueIdx Cert.KernelIdeal Cert.Cells

/-- The weight with the cell itself excluded is the specification's neighbour weight. -/
theorem excl_eq_nbr (pos : (⟨2, ![8192, 2]⟩ : Shape).Idx → BitVec 32)
    (hpos : ∀ i, 0 ≤ (pos i).toInt ∧ (pos i).toInt < 256) (i j : Fin 8192)
    (d : Decidable (inclReal (pos (ix2 i (0 : Fin 2))) (pos (ix2 i (1 : Fin 2))) (pos (ix2 j (0 : Fin 2))) (pos (ix2 j (1 : Fin 2))) ∧ i ≠ j)) :
    (@ite EReal (inclReal (pos (ix2 i (0 : Fin 2))) (pos (ix2 i (1 : Fin 2))) (pos (ix2 j (0 : Fin 2))) (pos (ix2 j (1 : Fin 2))) ∧ i ≠ j)
        d 1 0)
      = nbr pos i j := by
  unfold nbr
  refine if_congr (and_congr ?_ Iff.rfl) rfl rfl
  exact Alg.incl_iff _ _ _ _ (hpos _) (hpos _) (hpos _) (hpos _)

/-- The accumulated count less one is the number of neighbours. -/
theorem count_bridge (pos : (⟨2, ![8192, 2]⟩ : Shape).Idx → BitVec 32)
    (hpos : ∀ i, 0 ≤ (pos i).toInt ∧ (pos i).toInt < 256) (i : Fin 8192) :
    (∑ j : Fin 8192, incl (pos (ix2 i (0 : Fin 2))) (pos (ix2 i (1 : Fin 2))) (pos (ix2 j (0 : Fin 2))) (pos (ix2 j (1 : Fin 2))) * 1) - 1
      = count pos i := by
  classical
  have h := Alg.excl_count
    (fun j : Fin 8192 => inclReal (pos (ix2 i (0 : Fin 2))) (pos (ix2 i (1 : Fin 2))) (pos (ix2 j (0 : Fin 2))) (pos (ix2 j (1 : Fin 2))))
    i (Alg.incl_self _ _ (hpos _) (hpos _))
  unfold count
  refine Eq.trans ?_ (h.trans (Finset.sum_congr rfl fun j _ => ?_))
  · refine congrArg (· - (1 : EReal)) (Finset.sum_congr rfl fun j _ => ?_)
    unfold incl
    exact congrArg (· * (1 : EReal)) (if_congr Iff.rfl rfl rfl)
  · exact excl_eq_nbr pos hpos i j _

/-- The accumulated sum less the cell's own state is the sum over the neighbours. -/
theorem sum_bridge (pos : (⟨2, ![8192, 2]⟩ : Shape).Idx → BitVec 32) (st : (⟨2, ![8192, 64]⟩ : Shape).Idx → EReal)
    (hpos : ∀ i, 0 ≤ (pos i).toInt ∧ (pos i).toInt < 256) (hst : ∀ i, ∃ x : ℝ, st i = (x : EReal))
    (i : Fin 8192) (k : Fin 64) :
    (∑ j : Fin 8192, incl (pos (ix2 i (0 : Fin 2))) (pos (ix2 i (1 : Fin 2))) (pos (ix2 j (0 : Fin 2))) (pos (ix2 j (1 : Fin 2))) * st (ix2 j k))
        - st (ix2 i k)
      = nbrSum pos st i k := by
  classical
  have h := Alg.excl_sum
    (fun j : Fin 8192 => inclReal (pos (ix2 i (0 : Fin 2))) (pos (ix2 i (1 : Fin 2))) (pos (ix2 j (0 : Fin 2))) (pos (ix2 j (1 : Fin 2))))
    i (Alg.incl_self _ _ (hpos _) (hpos _)) (fun j => st (ix2 j k)) (fun j => hst _)
  unfold nbrSum
  refine Eq.trans ?_ (h.trans (Finset.sum_congr rfl fun j _ => ?_))
  · refine congrArg (· - st (ix2 i k)) (Finset.sum_congr rfl fun j _ => ?_)
    unfold incl
    exact congrArg (· * st (ix2 j k)) (if_congr Iff.rfl rfl rfl)
  · exact congrArg (· * st (ix2 j k)) (excl_eq_nbr pos hpos i j _)

/-- THE FINISHING STEP OF A ROW IS THE SPECIFICATION'S: the new hidden row and the role logits. -/
theorem fin_bridge
    (pos : (⟨2, ![8192, 2]⟩ : Shape).Idx → BitVec 32) (st : (⟨2, ![8192, 64]⟩ : Shape).Idx → EReal) (hh cc : (⟨2, ![8192, 128]⟩ : Shape).Idx → EReal)
    (wih whh : (⟨2, ![512, 128]⟩ : Shape).Idx → EReal) (bb : (⟨1, ![512]⟩ : Shape).Idx → EReal) (wrole : (⟨2, ![128, 3]⟩ : Shape).Idx → EReal)
    (hpos : ∀ i, 0 ≤ (pos i).toInt ∧ (pos i).toInt < 256) (hst : ∀ i, ∃ x : ℝ, st i = (x : EReal))
    (i : Fin 8192) (r : Fin 512)
    (v46 : Vec Ideal S512x64 .f32) (v47 : Vec Ideal S512x1 .f32) (v52 : Vec Ideal S512x64 .f32) (v56 v57 : Vec Ideal S512x128 .f32) (v59 v64 : Vec Ideal S512x64 .f32) (v70 : Vec Ideal S512x128 .f32) (v74 : Vec Ideal S512 .f32) (v96 : Vec Ideal S128x3 .f32)
    (h46 : ∀ k : Fin 64, v46 (ix2 r k) = st (ix2 i k))
    (h47 : v47 (ix2 r (0 : Fin 1)) = ∑ j : Fin 8192, incl (pos (ix2 i (0 : Fin 2))) (pos (ix2 i (1 : Fin 2))) (pos (ix2 j (0 : Fin 2))) (pos (ix2 j (1 : Fin 2))) * 1)
    (h52 : ∀ k : Fin 64, v52 (ix2 r k) = ∑ j : Fin 8192, incl (pos (ix2 i (0 : Fin 2))) (pos (ix2 i (1 : Fin 2))) (pos (ix2 j (0 : Fin 2))) (pos (ix2 j (1 : Fin 2))) * st (ix2 j k))
    (h56 : ∀ k : Fin 128, v56 (ix2 r k) = hh (ix2 i k)) (h57 : ∀ k : Fin 128, v57 (ix2 r k) = cc (ix2 i k))
    (h59 : ∀ (g : Fin 512) (k : Fin 64), v59 (ix2 g k) = wih (ix2 g (⟨k.val, by omega⟩ : Fin 128)))
    (h64 : ∀ (g : Fin 512) (k : Fin 64), v64 (ix2 g k) = wih (ix2 g (⟨64 + k.val, by omega⟩ : Fin 128)))
    (h70 : ∀ (g : Fin 512) (k : Fin 128), v70 (ix2 g k) = whh (ix2 g k)) (h74 : ∀ g : Fin 512, v74 (ix1 g) = bb (ix1 g))
    (h96 : ∀ (k : Fin 128) (q : Fin 3), v96 (ix2 k q) = wrole (ix2 k q)) :
    (∀ k : Fin 128, kHid v46 v47 v52 v56 v57 v59 v64 v70 v74 r k = Cert.Cells.hidNew pos st hh cc wih whh bb i k)
    ∧ (∀ q : Fin 3, kLogit v46 v47 v52 v56 v57 v59 v64 v70 v74 v96 r q = Cert.Cells.logit pos st hh cc wih whh bb wrole i q) := by
  have hmean : ∀ k : Fin 64, kMean v46 v47 v52 r k = nbrMean pos st i k := fun k => by
    unfold kMean nbrMean
    rw [h52 k, h46 k, h47, sum_bridge pos st hpos hst i k, count_bridge pos hpos i]
  have hgate : ∀ g : Fin 512, kGate v46 v47 v52 v56 v59 v64 v70 v74 r g = gate pos st hh wih whh bb i g := fun g => by
    unfold kGate gate
    refine congrArg₂ (· + ·) (congrArg₂ (· + ·) (congrArg₂ (· + ·) ?_ ?_) ?_) (h74 g)
    · exact Finset.sum_congr rfl fun k _ => congrArg₂ (· * ·) (h46 k) (h59 g k)
    · exact Finset.sum_congr rfl fun k _ => congrArg₂ (· * ·) (hmean k) (h64 g k)
    · exact Finset.sum_congr rfl fun k _ => congrArg₂ (· * ·) (h56 k) (h70 g k)
  have hhid : ∀ k : Fin 128, kHid v46 v47 v52 v56 v57 v59 v64 v70 v74 r k = hidNew pos st hh cc wih whh bb i k := fun k => by
    unfold kHid hidNew cellNew
    rw [hgate, hgate, hgate, hgate, h57 k]
  refine ⟨hhid, fun q => ?_⟩
  unfold kLogit logit
  exact Finset.sum_congr rfl fun k _ => congrArg₂ (· * ·) (hhid k) (h96 k q)

end Cert.Cells.Ker

end
-- ==== Proof.KiFin.lean ====
/-
  The finishing step at a write-back point is the specification. A point of column tile 3 closes a row tile: the body
  reads the finished accumulator (the neighbour sums in columns 0..63, the neighbour count in column 64, the cell itself
  included in both), this row tile's states and memories and the whole weight arrays, and stores the new states and the
  role probabilities of the row tile's 512 cells. With the accumulator's contents known to be the whole neighbour sum over
  all 8192 cells, each stored entry is the specification's entry of the cell 512 * (row tile) + r.
-/
import proofs.«127487_j71433896067267_2_alg».proof.Proof.KiAccDef
import proofs.«127487_j71433896067267_2_alg».proof.Proof.KiBlocks
import proofs.«127487_j71433896067267_2_alg».proof.Proof.KiHost
import proofs.«127487_j71433896067267_2_alg».proof.Proof.KernelFin
import proofs.«127487_j71433896067267_2_alg».proof.Proof.KerSpec

noncomputable section

open scoped BigOperators

namespace Cert.KernelIdeal.Fr

open Cert.KernelIdeal Cert.KernelIdeal.Gen
open Idealize.ShloMosaic Idealize.ShloMosaic.TcCoe Idealize.ShloMosaic.ValueIdx Idealize.SL.Sem
open Cert.Cells Cert.Cells.Ker

variable (m : (ℓ : Loc nD τ sig) → Buf (Elt Ideal) ℓ)

/-! ## The nine argument arrays on core c, as launched -/

abbrev aPos (c : Dev nD) : S8192x2.Idx → BitVec 32 := m ((c : Thread nD τ).loc main_arg0)
abbrev aSt (c : Dev nD) : S8192x64.Idx → EReal := m ((c : Thread nD τ).loc main_arg1)
abbrev aH (c : Dev nD) : S8192x128.Idx → EReal := m ((c : Thread nD τ).loc main_arg2)
abbrev aC (c : Dev nD) : S8192x128.Idx → EReal := m ((c : Thread nD τ).loc main_arg3)
abbrev aWih (c : Dev nD) : S512x128.Idx → EReal := m ((c : Thread nD τ).loc main_arg4)
abbrev aWhh (c : Dev nD) : S512x128.Idx → EReal := m ((c : Thread nD τ).loc main_arg5)
abbrev aB (c : Dev nD) : S512.Idx → EReal := m ((c : Thread nD τ).loc main_arg6)
abbrev aWout (c : Dev nD) : S128x64.Idx → EReal := m ((c : Thread nD τ).loc main_arg7)
abbrev aWrole (c : Dev nD) : S128x3.Idx → EReal := m ((c : Thread nD τ).loc main_arg8)

/-- The whole neighbour sum of cell i against column k of the padded states (the cell itself included). -/
def nbrAll (c : Dev nD) (i : Fin 8192) (k : Fin 128) : EReal :=
  ∑ j : Fin 8192, incl (aPos m c (ix2 i (0 : Fin 2))) (aPos m c (ix2 i (1 : Fin 2))) (aPos m c (ix2 j (0 : Fin 2))) (aPos m c (ix2 j (1 : Fin 2)))
    * (V m c main_v3 : S8192x128.Idx → EReal) (ix2 j k)

/-- The two values the body stores at a write-back point, at row r: the specification's new state and role
    probabilities of cell `rowOf t r`, given that the finished accumulator holds the whole neighbour sums. -/
theorem fin_point (c : Dev nD)
    (hpos : ∀ i, 0 ≤ (aPos m c i).toInt ∧ (aPos m c i).toInt < 256) (hst : ∀ i, ∃ x : ℝ, aSt m c i = (x : EReal))
    (t : Fin cfg0.N) (xs : Vec Ideal S512x128 .f32)
    (hacc : ∀ (r : Fin 512) (k : Fin 128), accNew m c t xs (ix2 r k) = nbrAll m c (rowOf t r) k)
    (v47 : Vec Ideal S512x1 .f32) (v52 : Vec Ideal S512x64 .f32)
    (h47 : ∀ r : Fin 512, v47 (ix2 r (0 : Fin 1)) = accNew m c t xs (ix2 r (64 : Fin 128)))
    (h52 : ∀ (r : Fin 512) (k : Fin 64), v52 (ix2 r k) = accNew m c t xs (ix2 r (⟨k.val, by omega⟩ : Fin 128)))
    (r : Fin 512) :
    (∀ d : Fin 64, k0_pay3 (F := Ideal) (k0_pay6 (iblk m c 2 t) v47 v52 (iblk m c 4 t) (iblk m c 6 t) (iblk m c 7 t) (iblk m c 8 t) (iblk m c 9 t)) (k0_pay7 (iblk m c 2 t) v47 v52 (iblk m c 4 t) (iblk m c 6 t) (iblk m c 7 t) (iblk m c 8 t) (iblk m c 9 t)) (k0_pay8 (iblk m c 2 t) v47 v52 (iblk m c 4 t) (iblk m c 6 t) (iblk m c 7 t) (iblk m c 8 t) (iblk m c 9 t)) (k0_pay9 (iblk m c 2 t) v47 v52 (iblk m c 4 t) (iblk m c 5 t) (iblk m c 6 t) (iblk m c 7 t) (iblk m c 8 t) (iblk m c 9 t)) (iblk m c 10 t) (ix2 r d)
        = newState (aPos m c) (aSt m c) (aH m c) (aC m c) (aWih m c) (aWhh m c) (aB m c) (aWout m c) (rowOf t r) d)
    ∧ (∀ q : Fin 3, k0_pay4 (F := Ideal) (k0_pay6 (iblk m c 2 t) v47 v52 (iblk m c 4 t) (iblk m c 6 t) (iblk m c 7 t) (iblk m c 8 t) (iblk m c 9 t)) (k0_pay7 (iblk m c 2 t) v47 v52 (iblk m c 4 t) (iblk m c 6 t) (iblk m c 7 t) (iblk m c 8 t) (iblk m c 9 t)) (k0_pay8 (iblk m c 2 t) v47 v52 (iblk m c 4 t) (iblk m c 6 t) (iblk m c 7 t) (iblk m c 8 t) (iblk m c 9 t)) (k0_pay9 (iblk m c 2 t) v47 v52 (iblk m c 4 t) (iblk m c 5 t) (iblk m c 6 t) (iblk m c 7 t) (iblk m c 8 t) (iblk m c 9 t)) (iblk m c 11 t) (ix2 r q)
        = roleProb (aPos m c) (aSt m c) (aH m c) (aC m c) (aWih m c) (aWhh m c) (aB m c) (aWrole m c) (rowOf t r) q) := by
  have hb := fin_bridge (aPos m c) (aSt m c) (aH m c) (aC m c) (aWih m c) (aWhh m c) (aB m c) (aWrole m c) hpos hst (rowOf t r) r
    (iblk m c 2 t) v47 v52 (iblk m c 4 t) (iblk m c 5 t) (iblk m c 6 t) (iblk m c 7 t) (iblk m c 8 t) (iblk m c 9 t) (iblk m c 11 t)
    (fun k => (iblk2_apply m c t r k).trans (congrFun (V_main_arg1 m c) _))
    ((h47 r).trans ((hacc r 64).trans (Finset.sum_congr rfl fun j _ => congrArg (_ * ·)
      ((V_v3_apply m c j 64).trans ((dif_neg (by decide)).trans (if_pos (by decide)))))))
    (fun k => (h52 r k).trans ((hacc r ⟨k.val, by omega⟩).trans (Finset.sum_congr rfl fun j _ => congrArg (_ * ·)
      ((V_v3_apply m c j ⟨k.val, by omega⟩).trans (dif_pos k.isLt)))))
    (fun k => (iblk4_apply m c t r k).trans (congrFun (V_main_arg2 m c) _))
    (fun k => (iblk5_apply m c t r k).trans (congrFun (V_main_arg3 m c) _))
    (fun g k => (congrFun (iblk6_eq m c t) _).trans (V_v4_apply m c g k))
    (fun g k => (congrFun (iblk7_eq m c t) _).trans (V_v5_apply m c g k))
    (fun g k => (congrFun (iblk8_eq m c t) _).trans (congrFun (V_main_arg5 m c) _))
    (fun g => (congrFun (iblk9_eq m c t) _).trans (congrFun (V_main_arg6 m c) _))
    (fun k q => (congrFun (iblk11_eq m c t) _).trans (congrFun (V_main_arg8 m c) _))
  refine ⟨fun d => ?_, fun q => ?_⟩
  · rw [state_apply]
    unfold newState
    refine Finset.sum_congr rfl fun k _ => ?_
    rw [hb.1 k]
    exact congrArg (_ * ·) ((congrFun (iblk10_eq m c t) _).trans (congrFun (V_main_arg7 m c) _))
  · rw [role_apply]
    rw [show kLogit (iblk m c 2 t) v47 v52 (iblk m c 4 t) (iblk m c 5 t) (iblk m c 6 t) (iblk m c 7 t) (iblk m c 8 t) (iblk m c 9 t) (iblk m c 11 t) r
          = logit (aPos m c) (aSt m c) (aH m c) (aC m c) (aWih m c) (aWhh m c) (aB m c) (aWrole m c) (rowOf t r) from funext hb.2]
    rfl

end Cert.KernelIdeal.Fr

end
-- ==== Proof.PreFacts.lean ====
/-
  The precondition of the cell update, decoded into plain facts about the nine argument arrays.

  The precondition is one bit: the conjunction, over the eight real-valued arrays, of "every entry x has |x| < +∞",
  and, for the integer array of grid positions, of "every word w has 0 ≤ w and w < 256, read signed". Each conjunct is an
  all-reduction by "and" of an array of bits to a single bit, and the claim is that the final bit is 1.

  A conjunction of bits is 1 exactly when each is; an all-reduction by "and" that is 1 met a 1 at every index. So every
  entry of every real-valued array satisfies |x| < +∞ on the extended reals, where |x| is max x (-x): this excludes
  x = ⊤ and x = ⊥ (for both, |x| = ⊤), so x is the image of a real number. And every position word lies in [0, 256).
-/
import proofs.«127487_j71433896067267_2_alg».proof.Pre_finite_inputs
import proofs.«127487_j71433896067267_2_alg».proof.Proof.Gen.Pre_finite_inputs
import Idealize.ShloMosaic.Lib.ReduceAll
import Idealize.ShloMosaic.Lib.ValueIdx
import Idealize.ShloMosaic.PureOps.Ideal

noncomputable section

namespace Cert.Cells.Pre

open Idealize.ShloMosaic Cert.Pre_finite_inputs

/-- The shape of a single number has one index. -/
instance : Subsingleton S_.Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value max x (-x) is strictly below +∞ is a real number. -/
theorem real_of_abs_lt (x : EReal) (h : Ideal.cmp .olt (max x (-x)) (Ideal.ofBits .f32 0x7F800000#32) = 1#1) :
    ∃ r : ℝ, x = (r : EReal) := by
  rw [inf_eq_top] at h
  induction x using EReal.rec with
  | bot => simp [Ideal.cmp] at h
  | top => simp [Ideal.cmp] at h
  | coe r => exact ⟨r, rfl⟩

/-- A conjunction of two single bits that is 1: both are. -/
theorem and_ix0 (x y : IVec S_ 1) (h : andi x y ValueIdx.ix0 = 1#1) : x ValueIdx.ix0 = 1#1 ∧ y ValueIdx.ix0 = 1#1 :=
  IntOp.andi_eq_one.1 h

/-- Real-valued arrays: the all-reduction of |x| < +∞ is 1, so every entry is a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ValueIdx.ix0 = 1#1) :
    ∀ i, ∃ x : ℝ, a i = (x : EReal) := by
  intro i
  have hi := Host.reduce_andi_all _ _ hr hu _ e i
  exact real_of_abs_lt (a i) hi

/-- Integer arrays: the all-reduction of (0 ≤ w) and (w < 256), signed, is 1, so every word is in [0, 256). -/
theorem all_range {s : Shape} {axes : List (Fin s.rank)} (a : IVec s 32)
    (hb : S_.BroadcastsInDim s (![] : Fin 0 → Fin s.rank)) (hr : s.ReducesTo axes S_) (hu : 0 < S_.numel)
    (e : Host.reduce IntOp.andi
        (andi (cmpi .sge a (broadcastInDim s ![] hb (constantI S_ 32 0#32)))
          (cmpi .slt a (broadcastInDim s ![] hb (constantI S_ 32 256#32))))
        (constantI S_ 1 1#1) hr hu ValueIdx.ix0 = 1#1) :
    ∀ i, 0 ≤ (a i).toInt ∧ (a i).toInt < 256 := by
  intro i
  have hi := Host.reduce_andi_all _ _ hr hu _ e i
  have h2 : IntOp.andi (IntOp.cmpi .sge (a i) 0#32) (IntOp.cmpi .slt (a i) 256#32) = 1#1 := hi
  rw [IntOp.andi_eq_one, IntOp.cmpi_sge, IntOp.cmpi_slt] at h2
  have z0 : (0#32 : BitVec 32).toInt = 0 := by decide
  have z256 : (256#32 : BitVec 32).toInt = 256 := by decide
  rw [z0, z256] at h2
  exact h2

variable [Cert.Pre_finite_inputs.Facts]

/-- THE PRECONDITION DECODED: positions in [0, 256) signed, and every entry of the eight real-valued arrays a real number. -/
theorem pre_facts (a0 : IVec S8192x2 32) (a1 : FVec Ideal S8192x64 .f32) (a2 a3 : FVec Ideal S8192x128 .f32)
    (a4 a5 : FVec Ideal S512x128 .f32) (a6 : FVec Ideal S512 .f32) (a7 : FVec Ideal S128x64 .f32) (a8 : FVec Ideal S128x3 .f32)
    (h : Cert.Pre_finite_inputs.fn (F := Ideal) a0 a1 a2 a3 a4 a5 a6 a7 a8 = fun _ => 1#1) :
    (∀ i, 0 ≤ (a0 i).toInt ∧ (a0 i).toInt < 256)
      ∧ (∀ i, ∃ x : ℝ, a1 i = (x : EReal)) ∧ (∀ i, ∃ x : ℝ, a2 i = (x : EReal)) ∧ (∀ i, ∃ x : ℝ, a3 i = (x : EReal))
      ∧ (∀ i, ∃ x : ℝ, a4 i = (x : EReal)) ∧ (∀ i, ∃ x : ℝ, a5 i = (x : EReal)) ∧ (∀ i, ∃ x : ℝ, a6 i = (x : EReal))
      ∧ (∀ i, ∃ x : ℝ, a7 i = (x : EReal)) ∧ (∀ i, ∃ x : ℝ, a8 i = (x : EReal)) := by
  have e := congrFun h ValueIdx.ix0
  dsimp only [Cert.Pre_finite_inputs.fn] at e
  dsimp only [Cert.Pre_finite_inputs.fn_part1] at e
  dsimp only [Cert.Pre_finite_inputs.fn_part2] at e
  obtain ⟨e, e0⟩ := and_ix0 _ _ e
  obtain ⟨e, e8⟩ := and_ix0 _ _ e
  obtain ⟨e, e7⟩ := and_ix0 _ _ e
  obtain ⟨e, e6⟩ := and_ix0 _ _ e
  obtain ⟨e, e5⟩ := and_ix0 _ _ e
  obtain ⟨e, e4⟩ := and_ix0 _ _ e
  obtain ⟨e, e3⟩ := and_ix0 _ _ e
  obtain ⟨e1, e2⟩ := and_ix0 _ _ e
  exact ⟨all_range a0 _ _ _ e0, all_real a1 _ _ _ e1, all_real a2 _ _ _ e2, all_real a3 _ _ _ e3, all_real a4 _ _ _ e4,
    all_real a5 _ _ _ e5, all_real a6 _ _ _ e6, all_real a7 _ _ _ e7, all_real a8 _ _ _ e8⟩

end Cert.Cells.Pre

end
-- ==== Proof.SpecOut.lean ====
/-
  The two results of the specification as whole arrays: entry (i, d) of the first is the new state of cell i, entry
  (i, r) of the second the probability of role r for cell i.
-/
import proofs.«127487_j71433896067267_2_alg».proof.Proof.Spec

noncomputable section

namespace Cert.Cells

open Idealize.ShloMosaic Idealize.ShloMosaic.ValueIdx

variable (pos : (⟨2, ![8192, 2]⟩ : Shape).Idx → BitVec 32)
  (st : (⟨2, ![8192, 64]⟩ : Shape).Idx → EReal)
  (hh cc : (⟨2, ![8192, 128]⟩ : Shape).Idx → EReal)
  (wih whh : (⟨2, ![512, 128]⟩ : Shape).Idx → EReal)
  (bb : (⟨1, ![512]⟩ : Shape).Idx → EReal)
  (wout : (⟨2, ![128, 64]⟩ : Shape).Idx → EReal)
  (wrole : (⟨2, ![128, 3]⟩ : Shape).Idx → EReal)

/-- The new states, as an [8192, 64] array. -/
def stateOut : (⟨2, ![8192, 64]⟩ : Shape).Idx → EReal :=
  fun i => newState pos st hh cc wih whh bb wout (i 0) (i 1)

/-- The role probabilities, as an [8192, 3] array. -/
def roleOut : (⟨2, ![8192, 3]⟩ : Shape).Idx → EReal :=
  fun i => roleProb pos st hh cc wih whh bb wrole (i 0) (i 1)

theorem stateOut_ix2 (p : Fin 8192) (d : Fin 64) :
    stateOut pos st hh cc wih whh bb wout (ix2 p d) = newState pos st hh cc wih whh bb wout p d := rfl

theorem roleOut_ix2 (p : Fin 8192) (q : Fin 3) :
    roleOut pos st hh cc wih whh bb wrole (ix2 p q) = roleProb pos st hh cc wih whh bb wrole p q := rfl

end Cert.Cells

end
-- ==== Proof.KiValue.lean ====
/-
  The run of the idealized kernel with its two result arrays named. Under the precondition (positions on the 256-grid,
  states finite) every write-back point stores, for each of its 512 rows, the specification's new state and role
  probabilities of the row's cell; the sixteen write-backs tile the result arrays; so the program ends with the result
  arrays at the specification's arrays of the launched arguments, and the arguments as launched.
-/
import proofs.«127487_j71433896067267_2_alg».proof.Proof.KiFrame
import proofs.«127487_j71433896067267_2_alg».proof.Proof.KiPieces
import proofs.«127487_j71433896067267_2_alg».proof.Proof.KiAcc
import proofs.«127487_j71433896067267_2_alg».proof.Proof.KiCover
import proofs.«127487_j71433896067267_2_alg».proof.Proof.KiFin
import proofs.«127487_j71433896067267_2_alg».proof.Proof.PreFacts
import proofs.«127487_j71433896067267_2_alg».proof.Proof.SpecOut

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx Idealize.SL.Sem
open Idealize.ShloMosaic.Pipeline (Dat)
open Cert.Cells

variable (m : (ℓ : Loc nD τ sig) → Buf (Elt Ideal) ℓ) (ρ : Dev nD → PrngReg)

/-- The accumulator a write-back point continues from, with this point's column tile added, is the whole neighbour
    sum of the row's cell. -/
theorem acc_whole (c : Dev nD) (t : Fin cfg0.N) (h3 : t.val % 4 = 3) (r : Fin 512) (k : Fin 128) :
    accNew m c t ((outsAt0 m c (t.val - 1) (Nat.lt_of_le_of_lt (Nat.sub_le _ _) t.isLt)).2.2) (ix2 r k)
      = nbrAll m c (rowOf t r) k :=
  (acc_prev m c (outA_acc m c) (outB_acc m c) t h3 r k).trans (by unfold nbrAcc nbrTerm nbrAll; rfl)

/-- What a write-back point stores, row by row. -/
theorem point_res (c : Dev nD)
    (hpos : ∀ i, 0 ≤ (aPos m c i).toInt ∧ (aPos m c i).toInt < 256) (hst : ∀ i, ∃ x : ℝ, aSt m c i = (x : EReal))
    (t : Fin cfg0.N) (h3 : t.val % 4 = 3) (r : Fin 512) :
    (∀ d : Fin 64, ((outsAt0 m c t.val t.isLt).1 : Vec Ideal S512x64 .f32) (ix2 r d)
        = newState (aPos m c) (aSt m c) (aH m c) (aC m c) (aWih m c) (aWhh m c) (aB m c) (aWout m c) (rowOf t r) d)
    ∧ (∀ q : Fin 3, ((outsAt0 m c t.val t.isLt).2.1 : Vec Ideal S512x3 .f32) (ix2 r q)
        = roleProb (aPos m c) (aSt m c) (aH m c) (aC m c) (aWih m c) (aWhh m c) (aB m c) (aWrole m c) (rowOf t r) q) := by
  have h0 : ¬t.val % 4 = 0 := by omega
  rw [outsAt0_C m c t h0 h3]
  obtain ⟨v47, v52, h47, h52, e12, e13⟩ := outC_res m c t h0 h3 (outsAt0 m c (t.val - 1) (Nat.lt_of_le_of_lt (Nat.sub_le _ _) t.isLt)).2.2
  rw [e12, e13]
  exact fin_point m c hpos hst t _ (acc_whole m c t h3) v47 v52 h47 h52 r

variable [Cert.Pre_finite_inputs.Facts]

/-- The idealized kernel's run: both result arrays at the specification's, the arguments unchanged. -/
theorem value_run
    (hpre : ∀ c : Dev nD, Cert.Pre_finite_inputs.fn (F := Ideal) (aPos m c) (aSt m c) (aH m c) (aC m c) (aWih m c) (aWhh m c) (aB m c) (aWout m c) (aWrole m c) = fun _ => 1#1) :
    θ_run defs (onTc (τ := τ) (main (F := Ideal))) ⟨m, fun _ => 0, ρ⟩ (fun r => ∀ c : Dev nD,
      r.2.mem ((c.tc : Thread nD τ).loc main_v6_0) = stateOut (aPos m c) (aSt m c) (aH m c) (aC m c) (aWih m c) (aWhh m c) (aB m c) (aWout m c)
      ∧ r.2.mem ((c.tc : Thread nD τ).loc main_v6_1) = roleOut (aPos m c) (aSt m c) (aH m c) (aC m c) (aWih m c) (aWhh m c) (aB m c) (aWrole m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (run_main m ρ)
  have hf := Cert.Cells.Pre.pre_facts _ _ _ _ _ _ _ _ _ (hpre c)
  have hpos := hf.1
  have hst := hf.2.1
  refine ⟨?_, ?_,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).2 main_arg4 (Pipeline.mem_restRefs_of main_arg4 (by decide) (by decide))).trans (V_main_arg4 m c),
      ((h c).1 8).trans (((dats m 0 c).arrAt_in 8 rfl _).trans ((A_eq m c 8).trans (V_main_arg5 m c))),
      ((h c).1 9).trans (((dats m 0 c).arrAt_in 9 rfl _).trans ((A_eq m c 9).trans (V_main_arg6 m c))),
      ((h c).1 10).trans (((dats m 0 c).arrAt_in 10 rfl _).trans ((A_eq m c 10).trans (V_main_arg7 m c))),
      ((h c).1 11).trans (((dats m 0 c).arrAt_in 11 rfl _).trans ((A_eq m c 11).trans (V_main_arg8 m c)))⟩
  · refine ((h c).1 12).trans (funext fun i => ?_)
    obtain ⟨p, d, rfl⟩ : ∃ (p : Fin 8192) (d : Fin 64), i = ix2 p d := ⟨i 0, i 1, eq_ix2 i⟩
    exact final12 m c (fun p d => newState (aPos m c) (aSt m c) (aH m c) (aC m c) (aWih m c) (aWhh m c) (aB m c) (aWout m c) p d)
      (fun t h3 r d => (point_res m c hpos hst t h3 r).1 d) p d
  · refine ((h c).1 13).trans (funext fun i => ?_)
    obtain ⟨p, q, rfl⟩ : ∃ (p : Fin 8192) (q : Fin 3), i = ix2 p q := ⟨i 0, i 1, eq_ix2 i⟩
    exact final13 m c (fun p q => roleProb (aPos m c) (aSt m c) (aH m c) (aC m c) (aWih m c) (aWhh m c) (aB m c) (aWrole m c) p q)
      (fun t h3 r q => (point_res m c hpos hst t h3 r).2 q) p q

end Cert.KernelIdeal.Fr

end
-- ==== Proof.RefSpec.lean ====
/-
  The reference program computes the specification.

  Each intermediate array of the reference, read at an index, is the specification's function of the same name:
  the squared grid distance (a two-term wrapping sum), the neighbour weight (a one-bit mask read as 0 or 1), the
  neighbour count and the neighbour sum (sums over all cells), the mean, the four gates (the sum over the 128 joined
  columns [state | mean] splits into two sums over 64), the new cell and hidden memories (the reference's
  1 / (1 + exp (−x)) is the logistic function), the new state, and the softmax over three logits (a maximum folded
  from −∞ is the supremum over the three).
-/
import proofs.«127487_j71433896067267_2_alg».proof.Proof.Spec
import proofs.«127487_j71433896067267_2_alg».proof.Proof.ReadP
import Idealize.ShloMosaic.Lib.IdealHost

noncomputable section

open scoped BigOperators

namespace Cert.Cells.Ref

open Idealize.ShloMosaic Idealize.ShloMosaic.ValueIdx Cert.ReferenceIdeal Cert.ReferenceIdeal.Gen Cert.ReferenceIdeal.ReadP

/-! ## The squared distance -/

/-- The difference of the two cells' coordinate c. -/
theorem diff_apply (x0 : (⟨S8192x2, .i32⟩ : BufTy).Contents (Elt Ideal)) (i j : Fin 8192) (c : Fin 2) :
    val_main_v4 (F := Ideal) x0 (ix3 i j c) = x0 (ix2 i c) - x0 (ix2 j c) := by
  rw [val_main_v4_apply, val_main_v2_apply, val_main_v3_apply, val_main_v0_apply, val_main_v1_apply]
  show x0 _ - x0 _ = _
  congr 2 <;> (funext a; match a with | ⟨0, _⟩ => rfl | ⟨1, _⟩ => rfl)

/-- The integer sum over the two coordinates, folded from zero, is the two-term sum of squares. -/
theorem dist2_eq (x0 : (⟨S8192x2, .i32⟩ : BufTy).Contents (Elt Ideal)) (i j : Fin 8192) :
    val_main_v6 (F := Ideal) x0 (ix2 i j) = Cert.Cells.dist2 x0 i j := by
  have hR : S8192x8192x2.Reduces [2] S8192x8192 := by decide
  unfold val_main_v6
  rw [Host.reduce_eq_fold_single IntOp.addi _ _ reducesTo_S8192x8192x2_S8192x8192_d2 hR h_S_]
  have hl : ∀ c : Fin 2, val_main_v5 (F := Ideal) x0 (hR.lift (ix2 i j) c)
      = (x0 (ix2 i c) - x0 (ix2 j c)) * (x0 (ix2 i c) - x0 (ix2 j c)) := fun c => by
    have e : hR.lift (ix2 i j) c = ix3 i j c :=
      funext fun a => Fin.ext (by match a with | ⟨0, _⟩ => rfl | ⟨1, _⟩ => rfl | ⟨2, _⟩ => rfl)
    rw [e, val_main_v5_apply, diff_apply]
    rfl
  show (Finset.univ : Finset (Fin 2)).fold IntOp.addi (0#32)
    (fun c : Fin 2 => val_main_v5 (F := Ideal) x0 (hR.lift (ix2 i j) c)) = _
  rw [funext hl, show (Finset.univ : Finset (Fin 2)) = {0, 1} by decide, Finset.fold_insert (by decide),
    Finset.fold_singleton]
  show _ + (_ + 0#32) = _
  rw [BitVec.add_zero]
  rfl

/-! ## The neighbour weight -/

/-- A one-bit conjunction "a and not b", read unsigned as a number, is 1 when a holds and b fails, else 0. -/
theorem bit_and_not (a b : Bool) :
    (((BitVec.ofBool a &&& ~~~ BitVec.ofBool b).toNat : ℝ) : EReal) = if a = true ∧ b = false then 1 else 0 := by
  cases a <;> cases b <;> simp

/-- Two cell numbers agree as 32-bit words exactly when they are equal. -/
theorem word_eq_iff (i j : Fin 8192) :
    (BitVec.ofNat 32 i.val + 0#32 == BitVec.ofNat 32 j.val) = decide (i = j) := by
  have hi := i.isLt; have hj := j.isLt
  rw [BitVec.add_zero]
  by_cases h : i = j
  · subst h; simp
  · have hne : BitVec.ofNat 32 i.val ≠ BitVec.ofNat 32 j.val := by
      intro e
      have := congrArg BitVec.toNat e
      simp only [BitVec.toNat_ofNat] at this
      rw [Nat.mod_eq_of_lt (by omega), Nat.mod_eq_of_lt (by omega)] at this
      exact h (Fin.ext this)
    simp [h, hne]

theorem nbr_eq (x0 : (⟨S8192x2, .i32⟩ : BufTy).Contents (Elt Ideal)) (i j : Fin 8192) :
    val_main_v16 (F := Ideal) x0 (ix2 i j) = Cert.Cells.nbr x0 i j := by
  rw [val_main_v16_apply, val_main_v15_apply, val_main_v8_apply, val_main_v14_apply, val_main_v13_apply,
    val_main_v12_apply, val_main_v9_apply, val_main_v10_apply, val_main_v11_apply, val_main_c_1_apply,
    val_main_v7_apply, val_main_c_0_apply, dist2_eq]
  show (((BitVec.ofBool ((Cert.Cells.dist2 x0 i j).sle 9#32)
      &&& ~~~ BitVec.ofBool (BitVec.ofNat 32 i.val + 0#32 == BitVec.ofNat 32 j.val)).toNat : ℝ) : EReal) = _
  rw [bit_and_not, word_eq_iff]
  unfold Cert.Cells.nbr
  by_cases h : i = j <;> simp [h]

/-! ## Count, sum and mean over the neighbours -/

theorem count_eq (x0 : (⟨S8192x2, .i32⟩ : BufTy).Contents (Elt Ideal)) (i : Fin 8192) :
    val_main_v17 (F := Ideal) x0 (ix1 i) = Cert.Cells.count x0 i := by
  rw [val_main_v17_apply, val_main_cst_apply, Ideal.ofBits_def, Ideal.ofBits_zero_f32, zero_add]
  unfold Cert.Cells.count
  refine Finset.sum_congr rfl fun k _ => ?_
  rw [← nbr_eq]
  exact congrArg _ (funext fun a => by match a with | ⟨0, _⟩ => rfl | ⟨1, _⟩ => rfl)

theorem nbrSum_eq (x0 : (⟨S8192x2, .i32⟩ : BufTy).Contents (Elt Ideal))
    (x1 : (⟨S8192x64, .f32⟩ : BufTy).Contents (Elt Ideal)) (i : Fin 8192) (k : Fin 64) :
    val_main_v19 (F := Ideal) x0 x1 (ix2 i k) = Cert.Cells.nbrSum x0 x1 i k := by
  rw [val_main_v19_apply]
  unfold Cert.Cells.nbrSum
  refine Finset.sum_congr rfl fun j _ => ?_
  rw [← nbr_eq]
  congr 2 <;> (funext a; match a with | ⟨0, _⟩ => rfl | ⟨1, _⟩ => rfl)

theorem nbrMean_eq (x0 : (⟨S8192x2, .i32⟩ : BufTy).Contents (Elt Ideal))
    (x1 : (⟨S8192x64, .f32⟩ : BufTy).Contents (Elt Ideal)) (i : Fin 8192) (k : Fin 64) :
    val_main_v23 (F := Ideal) x0 x1 (ix2 i k) = Cert.Cells.nbrMean x0 x1 i k := by
  rw [val_main_v23_apply, val_main_v22_apply, val_main_v21_apply, val_main_v18_apply, val_main_v20_apply,
    val_main_cst_2_apply, nbrSum_eq]
  have e : idx_main_v18 (idx_main_v22 (ix2 i k)) = ix1 i := funext fun a => by match a with | ⟨0, _⟩ => rfl
  rw [e, count_eq]
  simp only [Ideal.hostDivf_def, Ideal.maximumf_def, Ideal.ofBits_def, Ideal.ofBits_one_f32]
  rfl

/-! ## The joined row [state | mean] and the gates -/

/-- The first 64 columns of the joined row are the state row. -/
theorem cat_left (x0 : (⟨S8192x2, .i32⟩ : BufTy).Contents (Elt Ideal))
    (x1 : (⟨S8192x64, .f32⟩ : BufTy).Contents (Elt Ideal)) (p : Fin 8192) (k : Fin 64) :
    val_main_v24 (F := Ideal) x0 x1 (ix2 p (⟨k.val, by omega⟩ : Fin 128)) = x1 (ix2 p k) := by
  unfold val_main_v24
  exact concatenate_pair_apply_left 1 x1 _ concatenates_S8192x64_S8192x64_S8192x128_d1 _ rfl (ix2 p k)
    (fun b => by match b with | ⟨0, _⟩ => rfl | ⟨1, _⟩ => rfl)

/-- The last 64 columns of the joined row are the neighbour mean. -/
theorem cat_right (x0 : (⟨S8192x2, .i32⟩ : BufTy).Contents (Elt Ideal))
    (x1 : (⟨S8192x64, .f32⟩ : BufTy).Contents (Elt Ideal)) (p : Fin 8192) (k : Fin 64) :
    val_main_v24 (F := Ideal) x0 x1 (ix2 p (⟨64 + k.val, by omega⟩ : Fin 128))
      = val_main_v23 (F := Ideal) x0 x1 (ix2 p k) := by
  unfold val_main_v24
  generalize val_main_v23 (F := Ideal) x0 x1 = y
  exact concatenate_pair_apply_right 1 x1 y concatenates_S8192x64_S8192x64_S8192x128_d1 _ rfl rfl (ix2 p k)
    (fun b hb => by match b with | ⟨0, _⟩ => rfl | ⟨1, _⟩ => exact absurd rfl hb)
    (by simp only [Fin.cast_eq_self]; show k.val + 64 = 64 + k.val; omega)

/-- A sum over 128 columns is the sum over the first 64 plus the sum over the last 64. -/
theorem sum_split (f : Fin 128 → EReal) :
    ∑ k : Fin 128, f k
      = ∑ k : Fin 64, f (⟨k.val, by omega⟩ : Fin 128) + ∑ k : Fin 64, f (⟨64 + k.val, by omega⟩ : Fin 128) :=
  Fin.sum_univ_add (a := 64) (b := 64) f

theorem gate_eq (x0 : (⟨S8192x2, .i32⟩ : BufTy).Contents (Elt Ideal))
    (x1 : (⟨S8192x64, .f32⟩ : BufTy).Contents (Elt Ideal)) (x2 : (⟨S8192x128, .f32⟩ : BufTy).Contents (Elt Ideal))
    (x4 x5 : (⟨S512x128, .f32⟩ : BufTy).Contents (Elt Ideal)) (x6 : (⟨S512, .f32⟩ : BufTy).Contents (Elt Ideal))
    (p : Fin 8192) (g : Fin 512) :
    val_main_v32 (F := Ideal) x0 x1 x2 x4 x5 x6 (ix2 p g) = Cert.Cells.gate x0 x1 x2 x4 x5 x6 p g := by
  rw [val_main_v32_apply, val_main_v29_apply, val_main_v31_apply, val_main_v30_apply, val_main_v26_apply,
    val_main_v28_apply]
  have t26 : ∀ k : Fin 128, (val_main_v24 (F := Ideal) x0 x1) (lidx_main_v26 (ix2 p g) k)
        * (val_main_v25 (F := Ideal) x4) (ridx_main_v26 (ix2 p g) k)
      = val_main_v24 (F := Ideal) x0 x1 (ix2 p k) * x4 (ix2 g k) := fun k => by
    rw [val_main_v25_apply]
    congr 2 <;> (funext a; match a with | ⟨0, _⟩ => rfl | ⟨1, _⟩ => rfl)
  have t28 : ∀ k : Fin 128, x2 (lidx_main_v28 (ix2 p g) k) * (val_main_v27 (F := Ideal) x5) (ridx_main_v28 (ix2 p g) k)
      = x2 (ix2 p k) * x5 (ix2 g k) := fun k => by
    rw [val_main_v27_apply]
    congr 2 <;> (funext a; match a with | ⟨0, _⟩ => rfl | ⟨1, _⟩ => rfl)
  have tb : idx_main_v30 (idx_main_v31 (ix2 p g)) = ix1 g := funext fun a => by match a with | ⟨0, _⟩ => rfl
  rw [Finset.sum_congr rfl (fun k _ => t26 k), Finset.sum_congr rfl (fun k _ => t28 k), tb, sum_split]
  simp only [cat_left, cat_right, nbrMean_eq, Ideal.addf_def]
  rfl

/-! ## The new cell and hidden memories -/

section Lstm
variable (x0 : (⟨S8192x2, .i32⟩ : BufTy).Contents (Elt Ideal))
  (x1 : (⟨S8192x64, .f32⟩ : BufTy).Contents (Elt Ideal)) (x2 x3 : (⟨S8192x128, .f32⟩ : BufTy).Contents (Elt Ideal))
  (x4 x5 : (⟨S512x128, .f32⟩ : BufTy).Contents (Elt Ideal)) (x6 : (⟨S512, .f32⟩ : BufTy).Contents (Elt Ideal))

/-- Rows 0..127 of the gates. -/
theorem slice0_eq (p : Fin 8192) (k : Fin 128) :
    val_main_v33 (F := Ideal) x0 x1 x2 x4 x5 x6 (ix2 p k)
      = Cert.Cells.gate x0 x1 x2 x4 x5 x6 p (⟨k.val, by omega⟩ : Fin 512) := by
  rw [val_main_v33_apply, ← gate_eq]
  exact congrArg _ (funext fun a => by match a with | ⟨0, _⟩ => rfl | ⟨1, _⟩ => rfl)

/-- Rows 128..255 of the gates. -/
theorem slice1_eq (p : Fin 8192) (k : Fin 128) :
    val_main_v34 (F := Ideal) x0 x1 x2 x4 x5 x6 (ix2 p k)
      = Cert.Cells.gate x0 x1 x2 x4 x5 x6 p (⟨128 + k.val, by omega⟩ : Fin 512) := by
  rw [val_main_v34_apply, ← gate_eq]
  exact congrArg _ (funext fun a => by match a with | ⟨0, _⟩ => rfl | ⟨1, _⟩ => rfl)

/-- Rows 256..383 of the gates. -/
theorem slice2_eq (p : Fin 8192) (k : Fin 128) :
    val_main_v35 (F := Ideal) x0 x1 x2 x4 x5 x6 (ix2 p k)
      = Cert.Cells.gate x0 x1 x2 x4 x5 x6 p (⟨256 + k.val, by omega⟩ : Fin 512) := by
  rw [val_main_v35_apply, ← gate_eq]
  exact congrArg _ (funext fun a => by match a with | ⟨0, _⟩ => rfl | ⟨1, _⟩ => rfl)

/-- Rows 384..511 of the gates. -/
theorem slice3_eq (p : Fin 8192) (k : Fin 128) :
    val_main_v36 (F := Ideal) x0 x1 x2 x4 x5 x6 (ix2 p k)
      = Cert.Cells.gate x0 x1 x2 x4 x5 x6 p (⟨384 + k.val, by omega⟩ : Fin 512) := by
  rw [val_main_v36_apply, ← gate_eq]
  exact congrArg _ (funext fun a => by match a with | ⟨0, _⟩ => rfl | ⟨1, _⟩ => rfl)

/-- The quotient 1 / (1 + exp (−x)) is the logistic function. -/
theorem logistic_spelt (x : Ideal .f32) :
    FloatOps.hostDivf (F := Ideal) (φ := .f32) (FloatOps.ofBits .f32 0x3F800000#32)
      (FloatOps.addf (F := Ideal) (φ := .f32) (FloatOps.ofBits .f32 0x3F800000#32)
        (FloatOps.hostUnary (F := Ideal) .exp (φ := .f32) (FloatOps.hostNegf (F := Ideal) (φ := .f32) x)))
      = Ideal.logistic x := by
  simp only [Ideal.hostDivf_def, Ideal.addf_def, Ideal.hostUnary_exp_def, Ideal.hostNegf_def, Ideal.negf_def,
    Ideal.ofBits_def, Ideal.ofBits_one_f32]
  rfl

/-- The forget gate. -/
theorem forget_eq (p : Fin 8192) (k : Fin 128) :
    val_main_v42 (F := Ideal) x0 x1 x2 x4 x5 x6 (ix2 p k)
      = Ideal.logistic (Cert.Cells.gate x0 x1 x2 x4 x5 x6 p (⟨128 + k.val, by omega⟩ : Fin 512)) := by
  rw [val_main_v42_apply, val_main_v41_apply, val_main_cst_4_apply, val_main_v40_apply, val_main_v39_apply,
    val_main_cst_3_apply, val_main_v38_apply, val_main_v37_apply, slice1_eq, logistic_spelt]

/-- The input gate. -/
theorem input_eq (p : Fin 8192) (k : Fin 128) :
    val_main_v49 (F := Ideal) x0 x1 x2 x4 x5 x6 (ix2 p k)
      = Ideal.logistic (Cert.Cells.gate x0 x1 x2 x4 x5 x6 p (⟨k.val, by omega⟩ : Fin 512)) := by
  rw [val_main_v49_apply, val_main_v48_apply, val_main_cst_6_apply, val_main_v47_apply, val_main_v46_apply,
    val_main_cst_5_apply, val_main_v45_apply, val_main_v44_apply, slice0_eq, logistic_spelt]

/-- The output gate. -/
theorem output_eq (p : Fin 8192) (k : Fin 128) :
    val_main_v58 (F := Ideal) x0 x1 x2 x4 x5 x6 (ix2 p k)
      = Ideal.logistic (Cert.Cells.gate x0 x1 x2 x4 x5 x6 p (⟨384 + k.val, by omega⟩ : Fin 512)) := by
  rw [val_main_v58_apply, val_main_v57_apply, val_main_cst_8_apply, val_main_v56_apply, val_main_v55_apply,
    val_main_cst_7_apply, val_main_v54_apply, val_main_v53_apply, slice3_eq, logistic_spelt]

theorem cellNew_eq (p : Fin 8192) (k : Fin 128) :
    val_main_v52 (F := Ideal) x0 x1 x2 x3 x4 x5 x6 (ix2 p k) = Cert.Cells.cellNew x0 x1 x2 x3 x4 x5 x6 p k := by
  rw [val_main_v52_apply, val_main_v43_apply, val_main_v51_apply, val_main_v50_apply, forget_eq, input_eq, slice2_eq]
  simp only [Ideal.addf_def, Ideal.mulf_def, Ideal.hostUnary_tanh_def]
  rfl

theorem hidNew_eq (p : Fin 8192) (k : Fin 128) :
    val_main_v60 (F := Ideal) x0 x1 x2 x3 x4 x5 x6 (ix2 p k) = Cert.Cells.hidNew x0 x1 x2 x3 x4 x5 x6 p k := by
  rw [val_main_v60_apply, val_main_v59_apply, output_eq, cellNew_eq]
  simp only [Ideal.mulf_def, Ideal.hostUnary_tanh_def]
  rfl

end Lstm

/-! ## The two results -/

/-- The f32 pattern of −∞ is the bottom element. -/
theorem bot_f32 : Ideal.ofBits .f32 0xFF800000#32 = ⊥ := by simp [Ideal.ofBits, Ideal.ieee]

section Results
variable (x0 : (⟨S8192x2, .i32⟩ : BufTy).Contents (Elt Ideal))
  (x1 : (⟨S8192x64, .f32⟩ : BufTy).Contents (Elt Ideal)) (x2 x3 : (⟨S8192x128, .f32⟩ : BufTy).Contents (Elt Ideal))
  (x4 x5 : (⟨S512x128, .f32⟩ : BufTy).Contents (Elt Ideal)) (x6 : (⟨S512, .f32⟩ : BufTy).Contents (Elt Ideal))

/-- FIRST RESULT: the reference's new state is the specification's. -/
theorem newState_eq (x7 : (⟨S128x64, .f32⟩ : BufTy).Contents (Elt Ideal)) (p : Fin 8192) (q : Fin 64) :
    Cert.ReferenceIdeal.ReadP.val_main_v61 (F := Ideal) x0 x1 x2 x3 x4 x5 x6 x7 (ix2 p q)
      = Cert.Cells.newState x0 x1 x2 x3 x4 x5 x6 x7 p q := by
  rw [val_main_v61_apply]
  unfold Cert.Cells.newState
  refine Finset.sum_congr rfl fun k _ => ?_
  rw [← hidNew_eq]
  congr 2 <;> (funext a; match a with | ⟨0, _⟩ => rfl | ⟨1, _⟩ => rfl)

theorem logit_eq (x8 : (⟨S128x3, .f32⟩ : BufTy).Contents (Elt Ideal)) (p : Fin 8192) (r : Fin 3) :
    val_main_v62 (F := Ideal) x0 x1 x2 x3 x4 x5 x6 x8 (ix2 p r)
      = Cert.Cells.logit x0 x1 x2 x3 x4 x5 x6 x8 p r := by
  rw [val_main_v62_apply]
  unfold Cert.Cells.logit
  refine Finset.sum_congr rfl fun k _ => ?_
  rw [← hidNew_eq]
  congr 2 <;> (funext a; match a with | ⟨0, _⟩ => rfl | ⟨1, _⟩ => rfl)

/-- The maximum folded from −∞ over the three logits, then taken against −∞ once more, is their supremum. -/
theorem logitMax_eq (x8 : (⟨S128x3, .f32⟩ : BufTy).Contents (Elt Ideal)) (p : Fin 8192) :
    val_main_v65 (F := Ideal) x0 x1 x2 x3 x4 x5 x6 x8 (ix1 p)
      = Cert.Cells.logitMax x0 x1 x2 x3 x4 x5 x6 x8 p := by
  have hR : S8192x3.Reduces [1] S8192 := by decide
  rw [val_main_v65_apply, val_main_v64_apply, val_main_cst_10_apply]
  unfold val_main_v63
  rw [Host.reduce_eq_fold_single FloatOps.maximumf _ _ reducesTo_S8192x3_S8192_d1 hR h_S_, val_main_cst_9_apply]
  have hf : (val_main_v62 (F := Ideal) x0 x1 x2 x3 x4 x5 x6 x8 ∘ hR.lift (ix1 p))
      = Cert.Cells.logit x0 x1 x2 x3 x4 x5 x6 x8 p := by
    refine funext fun (r : Fin 3) => ?_
    show val_main_v62 (F := Ideal) x0 x1 x2 x3 x4 x5 x6 x8 (hR.lift (ix1 p) r) = _
    rw [← logit_eq]
    exact congrArg _ (funext fun a => Fin.ext (by match a with | ⟨0, _⟩ => rfl | ⟨1, _⟩ => rfl))
  rw [hf]
  simp only [Ideal.ofBits_def, bot_f32]
  show max ⊥ ((Finset.univ : Finset (Fin 3)).fold max ⊥ (Cert.Cells.logit x0 x1 x2 x3 x4 x5 x6 x8 p)) = _
  rw [max_bot_left]
  rfl

theorem expShift_eq (x8 : (⟨S128x3, .f32⟩ : BufTy).Contents (Elt Ideal)) (p : Fin 8192) (r : Fin 3) :
    val_main_v69 (F := Ideal) x0 x1 x2 x3 x4 x5 x6 x8 (ix2 p r)
      = Cert.Cells.expShift x0 x1 x2 x3 x4 x5 x6 x8 p r := by
  rw [val_main_v69_apply, val_main_v68_apply, val_main_v67_apply, val_main_v66_apply, logit_eq]
  have e : idx_main_v66 (idx_main_v67 (ix2 p r)) = ix1 p := funext fun a => by match a with | ⟨0, _⟩ => rfl
  rw [e, logitMax_eq]
  simp only [Ideal.hostUnary_exp_def, Ideal.subf_def]
  rfl

/-- SECOND RESULT: the reference's role probabilities are the specification's. -/
theorem roleProb_eq (x8 : (⟨S128x3, .f32⟩ : BufTy).Contents (Elt Ideal)) (p : Fin 8192) (r : Fin 3) :
    Cert.ReferenceIdeal.ReadP.val_main_v73 (F := Ideal) x0 x1 x2 x3 x4 x5 x6 x8 (ix2 p r)
      = Cert.Cells.roleProb x0 x1 x2 x3 x4 x5 x6 x8 p r := by
  rw [val_main_v73_apply, val_main_v72_apply, val_main_v71_apply, val_main_v70_apply, val_main_cst_11_apply,
    expShift_eq]
  have hs : ∑ k : Fin 3, (val_main_v69 (F := Ideal) x0 x1 x2 x3 x4 x5 x6 x8)
        (idx_main_v70 (idx_main_v71 (idx_main_v72 (ix2 p r))) k)
      = ∑ r' : Fin 3, Cert.Cells.expShift x0 x1 x2 x3 x4 x5 x6 x8 p r' :=
    Finset.sum_congr rfl fun k _ => by
      rw [← expShift_eq]
      exact congrArg _ (funext fun a => by match a with | ⟨0, _⟩ => rfl | ⟨1, _⟩ => rfl)
  rw [hs]
  simp only [Ideal.hostDivf_def, Ideal.ofBits_def, Ideal.ofBits_zero_f32, zero_add]
  rfl

end Results

end Cert.Cells.Ref

end
-- ==== Proof.RefValue.lean ====
/-
  The run of the idealized reference with its two result arrays named: the list of its host operations, read stage by
  stage, ends with the new states at the specification's array of the launched arguments and the role probabilities
  at the specification's, the arguments as launched.
-/
import proofs.«127487_j71433896067267_2_alg».proof.Proof.RunP
import proofs.«127487_j71433896067267_2_alg».proof.Proof.RefSpec
import proofs.«127487_j71433896067267_2_alg».proof.Proof.SpecOut

noncomputable section

namespace Cert.Cells.Ref

open Cert.ReferenceIdeal Cert.ReferenceIdeal.Gen
open Idealize.ShloMosaic Idealize.ShloMosaic.TcCoe Idealize.ShloMosaic.ValueIdx Idealize.SL.Sem
open Cert.Cells

variable (m : (ℓ : Loc nD τ sig) → Buf (Elt Ideal) ℓ) (ρ : Dev nD → PrngReg)

/-- The idealized reference's run: both results at the specification's arrays, the arguments unchanged. -/
theorem value_run :
    θ_run defs (onTc (τ := τ) (main (F := Ideal))) ⟨m, fun _ => 0, ρ⟩ (fun r => ∀ c : Dev nD,
      r.2.mem ((c.tc : Thread nD τ).loc main_v61) = stateOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v73) = roleOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      (h c).1.trans ((Cert.ReferenceIdeal.ReadP.val_main_v61_eq m c).trans (funext fun i => by
        obtain ⟨p, d, rfl⟩ : ∃ (p : Fin 8192) (d : Fin 64), i = ix2 p d := ⟨i 0, i 1, eq_ix2 i⟩
        exact newState_eq _ _ _ _ _ _ _ _ p d)),
      (h c).2.1.trans ((Cert.ReferenceIdeal.ReadP.val_main_v73_eq m c).trans (funext fun i => by
        obtain ⟨p, q, rfl⟩ : ∃ (p : Fin 8192) (q : Fin 3), i = ix2 p q := ⟨i 0, i 1, eq_ix2 i⟩
        exact roleProb_eq _ _ _ _ _ _ _ _ p q)),
      (h c).2.2⟩) (Cert.ReferenceIdeal.ValueP.run (F := Ideal) m ρ)

end Cert.Cells.Ref

end
-- ==== Proof.lean ====
/-
  The certificate of the cell update: every cell of an 8192-cell grid averages the states of its neighbours within squared
  grid distance 9, runs one LSTM step on [state, neighbour mean] and its memory, and emits a new state and three role
  probabilities.
  The kernel walks 16 row tiles by 4 column tiles. For each row tile it accumulates, column tile by column tile, the 0/1
  neighbour table (from |p_i|² + |p_j|² − 2 p_i·p_j ≤ 9, the cell itself included) times the states padded with a column
  of ones — so the neighbour count rides in column 64 —, and at the last column tile takes the cell itself out again,
  divides, and finishes the row tile. The reference forms the whole 8192 × 8192 table at once, with the diagonal
  excluded by a comparison of indices.
  On the extended reals the two agree under the precondition: positions on the 256-grid (so that no 32-bit product
  wraps and the real test is the signed test on the wrapping distance) and finite states (so that adding a cell's own
  state and subtracting it again cancels). The blocked sum over four column tiles is the whole sum; the row of
  [state | mean] against the input weights splits into its two halves; the sigmoid spelt 1 / (1 + exp (−x)) is the logistic.
  The three programs' runs: the kernel's at both instances from the body's three runs (column tile 0, column tiles 1–2,
  column tile 3) threaded through the grid with the accumulator carried between points; the reference's from its list
  of host operations read stage by stage.
-/
import proofs.«127487_j71433896067267_2_alg».proof.Defs
import proofs.«127487_j71433896067267_2_alg».proof.Proof.Gen.Kernel
import proofs.«127487_j71433896067267_2_alg».proof.Proof.Gen.KernelIdeal
import proofs.«127487_j71433896067267_2_alg».proof.Proof.Gen.ReferenceIdeal
import proofs.«127487_j71433896067267_2_alg».proof.Proof.Gen.Pre_finite_inputs
import proofs.«127487_j71433896067267_2_alg».proof.Proof.KbFrame
import proofs.«127487_j71433896067267_2_alg».proof.Proof.KiFrame
import proofs.«127487_j71433896067267_2_alg».proof.Proof.KiValue
import proofs.«127487_j71433896067267_2_alg».proof.Proof.RefValue
import Idealize.ShloMosaic.Adequacy
import Idealize.ShloMosaic.Init

noncomputable section

namespace Cert.Proof

open Idealize.ShloMosaic Idealize.SL.Sem Cert.Cells

/-- The word-level kernel runs to its end and leaves its arguments as launched. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- So does the idealized reference: its run, the two results dropped. -/
theorem frame_ri : Cert.frame_ReferenceIdeal := fun m ρ _ =>
  (θ_run Cert.ReferenceIdeal.defs _ _).mono (fun _ h c => (h c).2.2) (Cert.Cells.Ref.value_run m ρ)

/-- The two idealized programs end with the same results: both at the specification's arrays of their arguments, which
    agree. -/
theorem algebraic : Cert.algebraic_KernelIdeal_ReferenceIdeal := by
  intro m ρ m' ρ' hpre hagree
  refine ⟨fun c => stateOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => roleOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)),
    Cert.KernelIdeal.Fr.value_run m ρ hpre, ?_⟩
  refine (θ_run Cert.ReferenceIdeal.defs _ _).mono (fun r h c => ⟨?_, ?_, (h c).2.2⟩) (Cert.Cells.Ref.value_run m' ρ')
  · rw [(h c).1, (hagree c).1, (hagree c).2.1, (hagree c).2.2.1, (hagree c).2.2.2.1, (hagree c).2.2.2.2.1, (hagree c).2.2.2.2.2.1,
      (hagree c).2.2.2.2.2.2.1, (hagree c).2.2.2.2.2.2.2.1]
  · rw [(h c).2.1, (hagree c).1, (hagree c).2.1, (hagree c).2.2.1, (hagree c).2.2.2.1, (hagree c).2.2.2.2.1, (hagree c).2.2.2.2.2.1,
      (hagree c).2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
